-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S256x512 : Shape := ⟨2, ![256, 512]⟩
abbrev S128x256 : Shape := ⟨2, ![128, 256]⟩
abbrev S8192x32768 : Shape := ⟨2, ![8192, 32768]⟩
abbrev S2048x8192 : Shape := ⟨2, ![2048, 8192]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S128x256 : S_.BroadcastsInDim S128x256 (![] : Fin 0 → Fin S128x256.rank)
  reducesTo_S128x256_S_d0_1 : S128x256.ReducesTo [0, 1] S_
  bcast_S_S8192x32768 : S_.BroadcastsInDim S8192x32768 (![] : Fin 0 → Fin S8192x32768.rank)
  reducesTo_S8192x32768_S_d0_1 : S8192x32768.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_arg4 : FVec F S2048x8192 .f32) (main_v13 : IVec S_ 1) (main_v16 : IVec S8192x32768 1) : IVec S_ 1 :=
  let main_c_5 : IVec S_ 1 := constantI S_ 1 1#1
  let main_v17 : IVec S_ 1 := (fun x v => Host.reduce IntOp.andi x v reducesTo_S8192x32768_S_d0_1 h_S_) main_v16 main_c_5
  let main_v18 : IVec S_ 1 := andi main_v13 main_v17
  let main_v19 : FVec F S2048x8192 .f32 := Host.absf main_arg4
  let main_cst_6 : FVec F S_ .f32 := constant S_ .f32 0x7F800000#32
  let main_v20 : FVec F S2048x8192 .f32 := broadcastInDim S2048x8192 ![] bcast_S_S2048x8192 main_cst_6
  let main_v21 : IVec S2048x8192 1 := cmpf .olt main_v19 main_v20
  let main_c_7 : IVec S_ 1 := constantI S_ 1 1#1
  let main_v22 : IVec S_ 1 := (fun x v => Host.reduce IntOp.andi x v reducesTo_S2048x8192_S_d0_1 h_S_) main_v21 main_c_7
  let main_v23 : IVec S_ 1 := andi main_v18 main_v22
  main_v23

def fn {F : FTy → Type} [FloatOps F] (main_arg0 : FVec F S32768x512 .f32) (main_arg1 : FVec F S256x512 .f32) (main_arg2 : FVec F S128x256 .f32) (main_arg3 : FVec F S8192x32768 .f32) (main_arg4 : FVec F S2048x8192 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S8192x32768 .f32 := Host.absf main_arg3
  let main_cst_4 : FVec F S_ .f32 := constant S_ .f32 0x7F800000#32
  let main_v15 : FVec F S8192x32768 .f32 := broadcastInDim S8192x32768 ![] bcast_S_S8192x32768 main_cst_4
  let main_v16 : IVec S8192x32768 1 := cmpf .olt main_v14 main_v15
  fn_part1 (F := F) main_arg4 main_v13 main_v16
-- ==== Kernel.lean ====
abbrev S32768x512 : Shape := ⟨2, ![32768, 512]⟩
abbrev S256x512 : Shape := ⟨2, ![256, 512]⟩
abbrev S128x256 : Shape := ⟨2, ![128, 256]⟩
abbrev S8192x32768 : Shape := ⟨2, ![8192, 32768]⟩
abbrev S2048x8192 : Shape := ⟨2, ![2048, 8192]⟩
abbrev S8192x256 : Shape := ⟨2, ![8192, 256]⟩
abbrev S2048x1024 : Shape := ⟨2, ![2048, 1024]⟩
abbrev S1024x512 : Shape := ⟨2, ![1024, 512]⟩
abbrev S2048x256 : Shape := ⟨2, ![2048, 256]⟩
abbrev S2048x512 : Shape := ⟨2, ![2048, 512]⟩
abbrev S2048x128 : Shape := ⟨2, ![2048, 128]⟩
abbrev S1024x2048 : Shape := ⟨2, ![1024, 2048]⟩
abbrev S1024x128 : Shape := ⟨2, ![1024, 128]⟩
abbrev S1024x256 : Shape := ⟨2, ![1024, 256]⟩

abbrev nBuf : Space → Nat
  | .hbm => 7
  | .vmem => 16
  | .smem => 0
  | _ => 0

abbrev bufTy : (tb : Table) → Fin (tcTables nBuf tb) → BufTy
  | .hbm, ⟨0, _⟩ => ⟨S32768x512, .f32⟩
  | .hbm, ⟨1, _⟩ => ⟨S256x512, .f32⟩
  | .hbm, ⟨2, _⟩ => ⟨S128x256, .f32⟩
  | .hbm, ⟨3, _⟩ => ⟨S8192x32768, .f32⟩
  | .hbm, ⟨4, _⟩ => ⟨S2048x8192, .f32⟩
  | .hbm, ⟨5, _⟩ => ⟨S8192x256, .bf16⟩
  | .hbm, ⟨6, _⟩ => ⟨S2048x128, .f32⟩
  | .local _ .vmem, ⟨0, _⟩ => ⟨S2048x1024, .f32⟩
  | .local _ .vmem, ⟨1, _⟩ => ⟨S2048x1024, .f32⟩
  | .local _ .vmem, ⟨2, _⟩ => ⟨S1024x512, .f32⟩
  | .local _ .vmem, ⟨3, _⟩ => ⟨S1024x512, .f32⟩
  | .local _ .vmem, ⟨4, _⟩ => ⟨S256x512, .f32⟩
  | .local _ .vmem, ⟨5, _⟩ => ⟨S2048x256, .bf16⟩
  | .local _ .vmem, ⟨6, _⟩ => ⟨S2048x256, .bf16⟩
  | .local _ .vmem, ⟨7, _⟩ => ⟨S2048x512, .f32⟩
  | .local _ .vmem, ⟨8, _⟩ => ⟨S1024x2048, .f32⟩
  | .local _ .vmem, ⟨9, _⟩ => ⟨S1024x2048, .f32⟩
  | .local _ .vmem, ⟨10, _⟩ => ⟨S2048x256, .bf16⟩
  | .local _ .vmem, ⟨11, _⟩ => ⟨S2048x256, .bf16⟩
  | .local _ .vmem, ⟨12, _⟩ => ⟨S128x256, .f32⟩
  | .local _ .vmem, ⟨13, _⟩ => ⟨S1024x128, .f32⟩
  | .local _ .vmem, ⟨14, _⟩ => ⟨S1024x128, .f32⟩
  | .local _ .vmem, ⟨15, _⟩ => ⟨S1024x256, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v13 : BitVec 1 := Scalar.cmpi .eq arg1 c31_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S256x512_S256x512_0_0 : ∀ a, (![0, 0] : Fin 2 → Nat) a + S256x512.size a ≤ S256x512.size a
  h_S256x512 : 0 < S256x512.numel
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  shapeCasts_S2048x256_S2048x256 : S2048x256.ShapeCasts S2048x256
  inb_S128x256_S128x256_0_0 : ∀ a, (![0, 0] : Fin 2 → Nat) a + S128x256.size a ≤ S128x256.size a
  h_S128x256 : 0 < S128x256.numel
  inb_S1024x128_S1024x128_0_0 : ∀ a, (![0, 0] : Fin 2 → Nat) a + S1024x128.size a ≤ S1024x128.size a
  h_S1024x128 : 0 < S1024x128.numel
  dot_S2048x1024_S1024x512_S2048x512_1_0_0_1_n_n_wf : DotDims.WF S2048x1024 S1024x512 S2048x512 [1] [0] [0] [1] [] []
  dot_S2048x512_S256x512_S2048x256_1_1_0_0_n_n_wf : DotDims.WF S2048x512 S256x512 S2048x256 [1] [1] [0] [0] [] []
  dot_S1024x2048_S2048x256_S1024x256_1_0_0_1_n_n_wf : DotDims.WF S1024x2048 S2048x256 S1024x256 [1] [0] [0] [1] [] []
  dot_S1024x256_S128x256_S1024x128_1_1_0_0_n_n_wf : DotDims.WF S1024x256 S128x256 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x32768.size a
  hwx0_0 : ∀ i : grid0.Coords, EltTy.bits .f32 = 32 ∨ (Rect.block (s := S8192x32768) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x256.size a
  hwx0_3 : ∀ i : grid0.Coords, EltTy.bits .bf16 = 32 ∨ (Rect.block (s := S8192x256) S2048x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S2048x8192.size a
  hwx1_0 : ∀ i : grid1.Coords, EltTy.bits .f32 = 32 ∨ (Rect.block (s := S2048x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .bf16 = 32 ∨ (Rect.block (s := S8192x256) S2048x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S2048x128.size a
  hwx1_3 : ∀ i : grid1.Coords, EltTy.bits .f32 = 32 ∨ (Rect.block (s := S2048x128) S1024x128.size (cc1_transform_3 i) (hinb1_3 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S256x512_S2048x256_1_1_0_0_n_n : DotDims S2048x512 S256x512 S2048x256 where
  lhsContracting := [1]
  rhsContracting := [1]
  lhsNonContracting := [0]
  rhsNonContracting := [0]
  lhsBatch := []
  rhsBatch := []
  wf := dot_S2048x512_S256x512_S2048x256_1_1_0_0_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S128x256_S1024x128_1_1_0_0_n_n : DotDims S1024x256 S128x256 S1024x128 where
  lhsContracting := [1]
  rhsContracting := [1]
  lhsNonContracting := [0]
  rhsNonContracting := [0]
  lhsBatch := []
  rhsBatch := []
  wf := dot_S1024x256_S128x256_S1024x128_1_1_0_0_n_n_wf

abbrev win0_0 : Pipeline.Window sig grid0 :=
  Pipeline.Window.ofSpec (Memref.whole main_arg3) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg4) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S32768x512 : Shape := ⟨2, ![32768, 512]⟩
abbrev S256x512 : Shape := ⟨2, ![256, 512]⟩
abbrev S128x256 : Shape := ⟨2, ![128, 256]⟩
abbrev S8192x32768 : Shape := ⟨2, ![8192, 32768]⟩
abbrev S2048x8192 : Shape := ⟨2, ![2048, 8192]⟩
abbrev S8192x512 : Shape := ⟨2, ![8192, 512]⟩
abbrev S512x256 : Shape := ⟨2, ![512, 256]⟩
abbrev S8192x256 : Shape := ⟨2, ![8192, 256]⟩
abbrev S_ : Shape := ⟨0, ![]⟩
abbrev S2048x256 : Shape := ⟨2, ![2048, 256]⟩
abbrev S256x128 : Shape := ⟨2, ![256, 128]⟩
abbrev S2048x128 : Shape := ⟨2, ![2048, 128]⟩

abbrev nBuf : Space → Nat
  | .hbm => 17
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S256x512, .f32⟩
  | .hbm, ⟨2, _⟩ => ⟨S128x256, .f32⟩
  | .hbm, ⟨3, _⟩ => ⟨S8192x32768, .f32⟩
  | .hbm, ⟨4, _⟩ => ⟨S2048x8192, .f32⟩
  | .hbm, ⟨5, _⟩ => ⟨S8192x512, .f32⟩
  | .hbm, ⟨6, _⟩ => ⟨S512x256, .f32⟩
  | .hbm, ⟨7, _⟩ => ⟨S8192x256, .f32⟩
  | .hbm, ⟨8, _⟩ => ⟨S_, .f32⟩
  | .hbm, ⟨9, _⟩ => ⟨S8192x256, .f32⟩
  | .hbm, ⟨10, _⟩ => ⟨S8192x256, .f32⟩
  | .hbm, ⟨11, _⟩ => ⟨S2048x256, .f32⟩
  | .hbm, ⟨12, _⟩ => ⟨S256x128, .f32⟩
  | .hbm, ⟨13, _⟩ => ⟨S2048x128, .f32⟩
  | .hbm, ⟨14, _⟩ => ⟨S_, .f32⟩
  | .hbm, ⟨15, _⟩ => ⟨S2048x128, .f32⟩
  | .hbm, ⟨16, _⟩ => ⟨S2048x128, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_cst : Ref sig .tc := ⟨.hbm, 14, rfl⟩
abbrev main_call1_v0 : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  transposes_S256x512_S512x256_1_0 : S256x512.Transposes [1, 0] S512x256
  bcast_S_S8192x256 : S_.BroadcastsInDim S8192x256 (![] : Fin 0 → Fin S8192x256.rank)
  transposes_S128x256_S256x128_1_0 : S128x256.Transposes [1, 0] S256x128
  bcast_S_S2048x128 : S_.BroadcastsInDim S2048x128 (![] : Fin 0 → Fin S2048x128.rank)
  dot_S8192x32768_S32768x512_S8192x512_1_0_0_1_n_n_wf : DotDims.WF S8192x32768 S32768x512 S8192x512 [1] [0] [0] [1] [] []
  dot_S8192x512_S512x256_S8192x256_1_0_0_1_n_n_wf : DotDims.WF S8192x512 S512x256 S8192x256 [1] [0] [0] [1] [] []
  dot_S2048x8192_S8192x256_S2048x256_1_0_0_1_n_n_wf : DotDims.WF S2048x8192 S8192x256 S2048x256 [1] [0] [0] [1] [] []
  dot_S2048x256_S256x128_S2048x128_1_0_0_1_n_n_wf : DotDims.WF S2048x256 S256x128 S2048x128 [1] [0] [0] [1] [] []

variable [Facts₀]

def dot_S8192x32768_S32768x512_S8192x512_1_0_0_1_n_n : DotDims S8192x32768 S32768x512 S8192x512 where
  lhsContracting := [1]
  rhsContracting := [0]
  lhsNonContracting := [0]
  rhsNonContracting := [1]
  lhsBatch := []
  rhsBatch := []
  wf := dot_S8192x32768_S32768x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S2048x8192_S8192x256_S2048x256_1_0_0_1_n_n : DotDims S2048x8192 S8192x256 S2048x256 where
  lhsContracting := [1]
  rhsContracting := [0]
  lhsNonContracting := [0]
  rhsNonContracting := [1]
  lhsBatch := []
  rhsBatch := []
  wf := dot_S2048x8192_S8192x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

class Facts : Prop extends Facts₀ where

variable [Facts]
-- ==== Proof.FrB.Runs0.lean ====
/-
  The first aggregation layer's grid is 4 row blocks by 32 column tiles; the body runs in one of three ways
  according to the tile number k: at k = 0 it clears the running total before adding the tile's product, at
  0 < k < 31 it only adds, at k = 31 it adds and then writes the finished block relu(total . W2^T) into the output
  window. This module fixes what the three runs are stated over: the two tests on k decided over the grid,
  where the output window is idle, the staging memrefs at a point, the block of an operand at a point, and the
  region's resting invariant with the running total's buffer named.
-/
import proofs.«169439_j52218212385011_2_alg».proof.Proof.Gen.Kernel.Launch
import proofs.«169439_j52218212385011_2_alg».proof.Proof.Gen.Kernel.Skeleton
import proofs.«169439_j52218212385011_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the region finds them, per core
variable (V : (c : Dev nD) → (b : Ref sig .tc) → Buf (Elt F) ((c : Thread nD τ).loc b))

/-! ## An operand's block at a point -/

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The mask tile's staging buffer holds the tile at every point. -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- The feature tile's staging buffer holds the tile at every point. -/
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- The weight's staging buffer holds the whole weight at every point, though fetched only once. -/
theorem held0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The two tests on the tile number -/

/-- "k = 0", as the body computes it. -/
abbrev isFirst0 (i : grid0.Coords) : Prop := (Scalar.cmpi .ne (Scalar.extui (Scalar.cmpi .eq (BitVec.ofNat 32 (i 1).val) 0#32)) 0#32) = 1#1
theorem isFirst0_iff : ∀ t : Fin cfg0.N, isFirst0 (grid0.coords t) ↔ t.val % 32 = 0 :=
  (by decide +kernel : ∀ t : Fin grid0.N, isFirst0 (grid0.coords t) ↔ t.val % 32 = 0)
/-- "k = 31", as the body computes it. -/
abbrev isLast0 (i : grid0.Coords) : Prop := k0_cond2 i = 1#1
theorem isLast0_iff : ∀ t : Fin cfg0.N, isLast0 (grid0.coords t) ↔ t.val % 32 = 31 :=
  (by decide +kernel : ∀ t : Fin grid0.N, isLast0 (grid0.coords t) ↔ t.val % 32 = 31)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Off the last tile the output window is idle and not written back. -/
theorem idle0_3 : ∀ t : Fin cfg0.N, ¬isLast0 (grid0.coords t) → cfg0.idle 3 (grid0.coords t) = true := by decide +kernel
theorem noFlush0_3 : ∀ t : Fin cfg0.N, ¬isLast0 (grid0.coords t) → (cfg0.win 3).flush t = false := by decide +kernel
/-- On the last tile it is live. -/
theorem live0_3 : ∀ t : Fin cfg0.N, isLast0 (grid0.coords t) → cfg0.idle 3 (grid0.coords t) = false := by decide +kernel

/-! ## The memrefs the body is called with -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .bf16 := win0_3.stage (cfg0.slots t 3)
abbrev hs0_3 (t : Fin cfg0.N) : (ms0_3 t).IsWhole := hstage0_3 ((cfg0.slots t 3).cast nbuf0_3)
/-- The running total's buffer. -/
abbrev acc0 : Memref sig .tc .vmem S2048x512 .f32 := Memref.whole cc0_scratch0
abbrev accV0 : View sig .tc .vmem S2048x512 .f32 := acc0.view
/-- One staging buffer of the output window, through which its contents are stated. -/
abbrev outV0 : View sig .tc .vmem S2048x256 .bf16 := (Memref.whole cc0_stg3_0 : Memref sig .tc .vmem S2048x256 .bf16).view

/-! ## The resting invariant with the running total's buffer named -/

/-- The other region's scoped buffers, each whole at some contents: they ride along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

theorem rest0_eq (c : Dev nD) :
    (Pipeline.ΦA spec0 c : sProp 𝕄)
      = iprop(((∃ d, owns (c : Thread nD τ) acc0 fullShare d) ∗ others0 (F := F) c) ∗ (∃ r, prngReg c r)) := by
  unfold Pipeline.ΦA others0; rw [scopedRest0_eq]; simp only [acc0, owns_whole]; try rfl

end Cert.Kernel.Fr

end
-- ==== Proof.FrB.Run0A.lean ====
/-
  The body at the first tile of a row block (k = 0): the running total's buffer, whatever it held, is overwritten
  with zeros and then with zeros plus the tile's product; the mask tile, the feature tile and the weight are only read;
  the output window's buffer is not touched. The pieces the total's buffer ends with are found by running the body.
-/
import proofs.«169439_j52218212385011_2_alg».proof.Proof.FrB.Runs0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first-tile run: the list of pieces written into the running total's buffer (last first), with the proof that the
    body, started with its three inputs at x0, x1, x2, the output window at xi3 and the total's buffer at anything,
    reaches its continuation with the inputs and the output window as they were and the total's buffer with those pieces
    written. -/
noncomputable def runFirst0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : isFirst0 i) (hc1 : ¬isLast0 i)
    (x0 : Vec F S2048x1024 .f32) (x1 : Vec F S1024x512 .f32) (x2 : Vec F S256x512 .f32) :
    Σ' (L3 : List (View.Piece (Elt F) S2048x256 .bf16)), { LS : List (View.Piece (Elt F) S2048x512 .f32) //
      ∀ (xi3 : Vec F S2048x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__agg2_kernel i arg2 harg2 arg3 harg3 arg4 harg4 arg5 harg5 arg6 harg6) K } := by
  refine ⟨[], ?_, fun xi3 E K => ?run⟩
  case run =>
    simp only [cc0__agg2_kernel_eq_skeleton]; unfold cc0__agg2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Fr

end
-- ==== Proof.FrB.Run0B.lean ====
/-
  The body at a middle tile (0 < k < 31): the running total's buffer, holding xs, is overwritten with xs plus the tile's
  product; the three inputs are only read; the output window's buffer is not touched.
-/
import proofs.«169439_j52218212385011_2_alg».proof.Proof.FrB.Run0A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The middle-tile run: the pieces written into the running total's buffer (last first), with the proof that the body,
    started with its inputs at x0, x1, x2, the output window at xi3 and the total's buffer at xs, reaches its continuation
    with the inputs and the output window as they were and the total's buffer with those pieces written. -/
noncomputable def runMid0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : ¬isFirst0 i) (hc1 : ¬isLast0 i)
    (x0 : Vec F S2048x1024 .f32) (x1 : Vec F S1024x512 .f32) (x2 : Vec F S256x512 .f32) (xs : Vec F S2048x512 .f32) :
    Σ' (L3 : List (View.Piece (Elt F) S2048x256 .bf16)), { LS : List (View.Piece (Elt F) S2048x512 .f32) //
      ∀ (xi3 : Vec F S2048x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__agg2_kernel i arg2 harg2 arg3 harg3 arg4 harg4 arg5 harg5 arg6 harg6) K } := by
  refine ⟨[], ?_, fun xi3 E K => ?run⟩
  case run =>
    simp only [cc0__agg2_kernel_eq_skeleton]; unfold cc0__agg2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Fr

end
-- ==== Proof.FrB.Run0C.lean ====
/-
  The body at the last tile (k = 31): the running total's buffer, holding xs, is overwritten with xs plus the tile's
  product, and the output window's buffer, whatever it held, with relu(total . W2^T); the three inputs are only read.
-/
import proofs.«169439_j52218212385011_2_alg».proof.Proof.FrB.Run0B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last-tile run: the pieces written into the output window's buffer and into the running total's buffer (last first),
    with the proof that the body, started with its inputs at x0, x1, x2, the output window at anything and the total's buffer at
    xs, reaches its continuation with the inputs as they were and both buffers with their pieces written. -/
noncomputable def runLast0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : ¬isFirst0 i) (hc1 : isLast0 i)
    (x0 : Vec F S2048x1024 .f32) (x1 : Vec F S1024x512 .f32) (x2 : Vec F S256x512 .f32) (xs : Vec F S2048x512 .f32) :
    Σ' (L3 : List (View.Piece (Elt F) S2048x256 .bf16)), { LS : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__agg2_kernel i arg2 harg2 arg3 harg3 arg4 harg4 arg5 harg5 arg6 harg6) K } := by
  refine ⟨?_, ?_, fun E K => ?run⟩
  case run =>
    simp only [cc0__agg2_kernel_eq_skeleton]; unfold cc0__agg2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Fr

end
-- ==== Proof.FrB.Frame0.lean ====
/-
  The first aggregation layer, point by point. After the body at point t the running total's buffer holds: at the first
  tile of a row block the tile's product added to zero, at every other tile the tile's product added to what the point
  before left; the output window's buffer holds, at the last tile, relu(total . W2^T) and is otherwise untouched. These are
  stated as the read-back of the pieces each run wrote. From them: the state after each point by recursion on the point,
  the region's invariant (before the first point anything; afterwards the total's buffer at the state's total), the proof
  data, and the body's obligation at every point by the three runs.
-/
import proofs.«169439_j52218212385011_2_alg».proof.Proof.FrB.Run0C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each run leaves -/

/-- The first-tile run's pieces cover the running total's buffer. -/
theorem accCover_first0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : isFirst0 i) (hc1 : ¬isLast0 i)
    (x0 : Vec F S2048x1024 .f32) (x1 : Vec F S1024x512 .f32) (x2 : Vec F S256x512 .f32) (y : S2048x512.Idx) :
    ∃ pc ∈ (runFirst0 c i arg2 harg2 arg3 harg3 arg4 harg4 arg5 harg5 arg6 harg6 hc0 hc1 x0 x1 x2).2.1, y ∈ pc.1.set :=
  View.cover_of_tiledL (runFirst0 c i arg2 harg2 arg3 harg3 arg4 harg4 arg5 harg5 arg6 harg6 hc0 hc1 x0 x1 x2).2.1 S2048x512.size (by sl_kernel_rfl) y
/-- The total after a first tile. -/
def accFirst0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : isFirst0 i) (hc1 : ¬isLast0 i)
    (x0 : Vec F S2048x1024 .f32) (x1 : Vec F S1024x512 .f32) (x2 : Vec F S256x512 .f32) : Vec F S2048x512 .f32 :=
  accV0.read (Elt F) (accV0.writes (Elt F) accV0.junk (runFirst0 c i arg2 harg2 arg3 harg3 arg4 harg4 arg5 harg5 arg6 harg6 hc0 hc1 x0 x1 x2).2.1)

theorem accCover_mid0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : ¬isFirst0 i) (hc1 : ¬isLast0 i)
    (x0 : Vec F S2048x1024 .f32) (x1 : Vec F S1024x512 .f32) (x2 : Vec F S256x512 .f32) (xs : Vec F S2048x512 .f32) (y : S2048x512.Idx) :
    ∃ pc ∈ (runMid0 c i arg2 harg2 arg3 harg3 arg4 harg4 arg5 harg5 arg6 harg6 hc0 hc1 x0 x1 x2 xs).2.1, y ∈ pc.1.set :=
  View.cover_of_tiledL (runMid0 c i arg2 harg2 arg3 harg3 arg4 harg4 arg5 harg5 arg6 harg6 hc0 hc1 x0 x1 x2 xs).2.1 S2048x512.size (by sl_kernel_rfl) y
/-- The total after a middle tile, over the total xs before it. -/
def accMid0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : ¬isFirst0 i) (hc1 : ¬isLast0 i)
    (x0 : Vec F S2048x1024 .f32) (x1 : Vec F S1024x512 .f32) (x2 : Vec F S256x512 .f32) (xs : Vec F S2048x512 .f32) : Vec F S2048x512 .f32 :=
  accV0.read (Elt F) (accV0.writes (Elt F) accV0.junk (runMid0 c i arg2 harg2 arg3 harg3 arg4 harg4 arg5 harg5 arg6 harg6 hc0 hc1 x0 x1 x2 xs).2.1)

theorem accCover_last0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : ¬isFirst0 i) (hc1 : isLast0 i)
    (x0 : Vec F S2048x1024 .f32) (x1 : Vec F S1024x512 .f32) (x2 : Vec F S256x512 .f32) (xs : Vec F S2048x512 .f32) (y : S2048x512.Idx) :
    ∃ pc ∈ (runLast0 c i arg2 harg2 arg3 harg3 arg4 harg4 arg5 harg5 arg6 harg6 hc0 hc1 x0 x1 x2 xs).2.1, y ∈ pc.1.set :=
  View.cover_of_tiledL (runLast0 c i arg2 harg2 arg3 harg3 arg4 harg4 arg5 harg5 arg6 harg6 hc0 hc1 x0 x1 x2 xs).2.1 S2048x512.size (by sl_kernel_rfl) y
/-- The total after a last tile, over the total xs before it. -/
def accLast0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : ¬isFirst0 i) (hc1 : isLast0 i)
    (x0 : Vec F S2048x1024 .f32) (x1 : Vec F S1024x512 .f32) (x2 : Vec F S256x512 .f32) (xs : Vec F S2048x512 .f32) : Vec F S2048x512 .f32 :=
  accV0.read (Elt F) (accV0.writes (Elt F) accV0.junk (runLast0 c i arg2 harg2 arg3 harg3 arg4 harg4 arg5 harg5 arg6 harg6 hc0 hc1 x0 x1 x2 xs).2.1)
theorem outCover_last0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : ¬isFirst0 i) (hc1 : isLast0 i)
    (x0 : Vec F S2048x1024 .f32) (x1 : Vec F S1024x512 .f32) (x2 : Vec F S256x512 .f32) (xs : Vec F S2048x512 .f32) (y : S2048x256.Idx) :
    ∃ pc ∈ (runLast0 c i arg2 harg2 arg3 harg3 arg4 harg4 arg5 harg5 arg6 harg6 hc0 hc1 x0 x1 x2 xs).1, y ∈ pc.1.set :=
  View.cover_of_tiledL (runLast0 c i arg2 harg2 arg3 harg3 arg4 harg4 arg5 harg5 arg6 harg6 hc0 hc1 x0 x1 x2 xs).1 S2048x256.size (by sl_kernel_rfl) y
/-- The finished output block a last tile writes. -/
def outLast0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : ¬isFirst0 i) (hc1 : isLast0 i)
    (x0 : Vec F S2048x1024 .f32) (x1 : Vec F S1024x512 .f32) (x2 : Vec F S256x512 .f32) (xs : Vec F S2048x512 .f32) : Vec F S2048x256 .bf16 :=
  outV0.read (Elt F) (outV0.writes (Elt F) outV0.junk (runLast0 c i arg2 harg2 arg3 harg3 arg4 harg4 arg5 harg5 arg6 harg6 hc0 hc1 x0 x1 x2 xs).1)

/-- Placeholders: the output window where it is idle (nothing consults it), the total before the very first point. -/
def idleOut0 : Vec F S2048x256 .bf16 := outV0.read (Elt F) outV0.junk
def noAcc0 : Vec F S2048x512 .f32 := accV0.read (Elt F) accV0.junk

/-! ## The state point by point -/

/-- One point's step: the output window's buffer and the running total after the body at t, given the total before it. -/
def stepAt0 (c : Dev nD) (t : Fin cfg0.N) (prev : Vec F S2048x512 .f32) : Vec F S2048x256 .bf16 × Vec F S2048x512 .f32 :=
  if h0 : t.val % 32 = 0 then
    if h1 : t.val % 32 = 31 then (idleOut0, prev)
    else (idleOut0, accFirst0 c (grid0.coords t) (ms0_0 t) (hs0_0 t) (ms0_1 t) (hs0_1 t) (ms0_2 t) (hs0_2 t) (ms0_3 t) (hs0_3 t) acc0 (Memref.isWhole_whole _) ((isFirst0_iff t).mpr h0) (fun h => h1 ((isLast0_iff t).mp h)) (blk0 V c 0 t) (blk0 V c 1 t) (blk0 V c 2 t))
  else
    if h1 : t.val % 32 = 31 then
      (outLast0 c (grid0.coords t) (ms0_0 t) (hs0_0 t) (ms0_1 t) (hs0_1 t) (ms0_2 t) (hs0_2 t) (ms0_3 t) (hs0_3 t) acc0 (Memref.isWhole_whole _) (fun h => h0 ((isFirst0_iff t).mp h)) ((isLast0_iff t).mpr h1) (blk0 V c 0 t) (blk0 V c 1 t) (blk0 V c 2 t) prev,
       accLast0 c (grid0.coords t) (ms0_0 t) (hs0_0 t) (ms0_1 t) (hs0_1 t) (ms0_2 t) (hs0_2 t) (ms0_3 t) (hs0_3 t) acc0 (Memref.isWhole_whole _) (fun h => h0 ((isFirst0_iff t).mp h)) ((isLast0_iff t).mpr h1) (blk0 V c 0 t) (blk0 V c 1 t) (blk0 V c 2 t) prev)
    else (idleOut0, accMid0 c (grid0.coords t) (ms0_0 t) (hs0_0 t) (ms0_1 t) (hs0_1 t) (ms0_2 t) (hs0_2 t) (ms0_3 t) (hs0_3 t) acc0 (Memref.isWhole_whole _) (fun h => h0 ((isFirst0_iff t).mp h)) (fun h => h1 ((isLast0_iff t).mp h)) (blk0 V c 0 t) (blk0 V c 1 t) (blk0 V c 2 t) prev)

/-- The state after the body at position n: the steps folded from the first point. -/
def stateAt0 (c : Dev nD) : (n : ℕ) → n < cfg0.N → Vec F S2048x256 .bf16 × Vec F S2048x512 .f32
  | 0, hn => stepAt0 V c ⟨0, hn⟩ noAcc0
  | n + 1, hn => stepAt0 V c ⟨n + 1, hn⟩ (stateAt0 c n (Nat.lt_of_succ_lt hn)).2

/-- The total before a point that is not the first of all. -/
abbrev prevAcc0 (c : Dev nD) (t : Fin cfg0.N) : Vec F S2048x512 .f32 :=
  (stateAt0 V c (t.val - 1) (Nat.lt_of_le_of_lt (Nat.sub_le _ _) t.isLt)).2

theorem stateAt0_pos (c : Dev nD) (t : Fin cfg0.N) (hz : t.val ≠ 0) :
    stateAt0 V c t.val t.isLt = stepAt0 V c t (prevAcc0 V c t) := by
  obtain ⟨n, hn⟩ := t
  cases n with
  | zero => exact absurd rfl hz
  | succ n => rfl

theorem stepAt0_first (c : Dev nD) (t : Fin cfg0.N) (prev : Vec F S2048x512 .f32) (h0 : t.val % 32 = 0) (h1 : ¬t.val % 32 = 31) :
    stepAt0 V c t prev = (idleOut0, accFirst0 c (grid0.coords t) (ms0_0 t) (hs0_0 t) (ms0_1 t) (hs0_1 t) (ms0_2 t) (hs0_2 t) (ms0_3 t) (hs0_3 t) acc0 (Memref.isWhole_whole _) ((isFirst0_iff t).mpr h0) (fun h => h1 ((isLast0_iff t).mp h)) (blk0 V c 0 t) (blk0 V c 1 t) (blk0 V c 2 t)) := by
  unfold stepAt0; rw [dif_pos h0, dif_neg h1]
theorem stepAt0_mid (c : Dev nD) (t : Fin cfg0.N) (prev : Vec F S2048x512 .f32) (h0 : ¬t.val % 32 = 0) (h1 : ¬t.val % 32 = 31) :
    stepAt0 V c t prev = (idleOut0, accMid0 c (grid0.coords t) (ms0_0 t) (hs0_0 t) (ms0_1 t) (hs0_1 t) (ms0_2 t) (hs0_2 t) (ms0_3 t) (hs0_3 t) acc0 (Memref.isWhole_whole _) (fun h => h0 ((isFirst0_iff t).mp h)) (fun h => h1 ((isLast0_iff t).mp h)) (blk0 V c 0 t) (blk0 V c 1 t) (blk0 V c 2 t) prev) := by
  unfold stepAt0; rw [dif_neg h0, dif_neg h1]
theorem stepAt0_last (c : Dev nD) (t : Fin cfg0.N) (prev : Vec F S2048x512 .f32) (h0 : ¬t.val % 32 = 0) (h1 : t.val % 32 = 31) :
    stepAt0 V c t prev =
      (outLast0 c (grid0.coords t) (ms0_0 t) (hs0_0 t) (ms0_1 t) (hs0_1 t) (ms0_2 t) (hs0_2 t) (ms0_3 t) (hs0_3 t) acc0 (Memref.isWhole_whole _) (fun h => h0 ((isFirst0_iff t).mp h)) ((isLast0_iff t).mpr h1) (blk0 V c 0 t) (blk0 V c 1 t) (blk0 V c 2 t) prev,
       accLast0 c (grid0.coords t) (ms0_0 t) (hs0_0 t) (ms0_1 t) (hs0_1 t) (ms0_2 t) (hs0_2 t) (ms0_3 t) (hs0_3 t) acc0 (Memref.isWhole_whole _) (fun h => h0 ((isFirst0_iff t).mp h)) ((isLast0_iff t).mpr h1) (blk0 V c 0 t) (blk0 V c 1 t) (blk0 V c 2 t) prev) := by
  unfold stepAt0; rw [dif_neg h0, dif_pos h1]

theorem stateAt0_first (c : Dev nD) (t : Fin cfg0.N) (h0 : t.val % 32 = 0) (h1 : ¬t.val % 32 = 31) :
    stateAt0 V c t.val t.isLt = (idleOut0, accFirst0 c (grid0.coords t) (ms0_0 t) (hs0_0 t) (ms0_1 t) (hs0_1 t) (ms0_2 t) (hs0_2 t) (ms0_3 t) (hs0_3 t) acc0 (Memref.isWhole_whole _) ((isFirst0_iff t).mpr h0) (fun h => h1 ((isLast0_iff t).mp h)) (blk0 V c 0 t) (blk0 V c 1 t) (blk0 V c 2 t)) := by
  obtain ⟨n, hn⟩ := t
  cases n with
  | zero => exact stepAt0_first V c ⟨0, hn⟩ _ h0 h1
  | succ n => exact stepAt0_first V c ⟨n + 1, hn⟩ _ h0 h1

theorem stateAt0_mid (c : Dev nD) (t : Fin cfg0.N) (h0 : ¬t.val % 32 = 0) (h1 : ¬t.val % 32 = 31) :
    stateAt0 V c t.val t.isLt = (idleOut0, accMid0 c (grid0.coords t) (ms0_0 t) (hs0_0 t) (ms0_1 t) (hs0_1 t) (ms0_2 t) (hs0_2 t) (ms0_3 t) (hs0_3 t) acc0 (Memref.isWhole_whole _) (fun h => h0 ((isFirst0_iff t).mp h)) (fun h => h1 ((isLast0_iff t).mp h)) (blk0 V c 0 t) (blk0 V c 1 t) (blk0 V c 2 t) (prevAcc0 V c t)) := by
  rw [stateAt0_pos V c t (fun hz => h0 (by rw [hz]))]
  exact stepAt0_mid V c t _ h0 h1

theorem stateAt0_last (c : Dev nD) (t : Fin cfg0.N) (h0 : ¬t.val % 32 = 0) (h1 : t.val % 32 = 31) :
    stateAt0 V c t.val t.isLt =
      (outLast0 c (grid0.coords t) (ms0_0 t) (hs0_0 t) (ms0_1 t) (hs0_1 t) (ms0_2 t) (hs0_2 t) (ms0_3 t) (hs0_3 t) acc0 (Memref.isWhole_whole _) (fun h => h0 ((isFirst0_iff t).mp h)) ((isLast0_iff t).mpr h1) (blk0 V c 0 t) (blk0 V c 1 t) (blk0 V c 2 t) (prevAcc0 V c t),
       accLast0 c (grid0.coords t) (ms0_0 t) (hs0_0 t) (ms0_1 t) (hs0_1 t) (ms0_2 t) (hs0_2 t) (ms0_3 t) (hs0_3 t) acc0 (Memref.isWhole_whole _) (fun h => h0 ((isFirst0_iff t).mp h)) ((isLast0_iff t).mpr h1) (blk0 V c 0 t) (blk0 V c 1 t) (blk0 V c 2 t) (prevAcc0 V c t)) := by
  rw [stateAt0_pos V c t (fun hz => h0 (by rw [hz]))]
  exact stepAt0_last V c t _ h0 h1

/-! ## The region's invariant -/

/-- Before position n: at the start the resting invariant; afterwards the same with the running total's buffer at what
    the point before left in it. -/
def inv0 (c : Dev nD) : (n : ℕ) → n ≤ cfg0.N → sProp 𝕄
  | 0, _ => Pipeline.ΦA spec0 c
  | n + 1, hn => iprop((owns (c : Thread nD τ) acc0 fullShare ((stateAt0 V c n hn).2) ∗ others0 (F := F) c) ∗ (∃ r, prngReg c r))

theorem inv0_zero (c : Dev nD) (n : ℕ) (h : n ≤ cfg0.N) (hz : n = 0) : inv0 V c n h = Pipeline.ΦA spec0 c := by
  subst hz; rfl
theorem inv0_succ (c : Dev nD) (n : ℕ) (hn : n < cfg0.N) :
    inv0 V c (n + 1) hn = iprop((owns (c : Thread nD τ) acc0 fullShare ((stateAt0 V c n hn).2) ∗ others0 (F := F) c) ∗ (∃ r, prngReg c r)) := rfl
theorem inv0_pos (c : Dev nD) (n : ℕ) (h : n ≤ cfg0.N) (hz : n ≠ 0) :
    inv0 V c n h = iprop((owns (c : Thread nD τ) acc0 fullShare ((stateAt0 V c (n - 1) (by omega)).2) ∗ others0 (F := F) c) ∗ (∃ r, prngReg c r)) := by
  cases n with
  | zero => exact absurd rfl hz
  | succ n => rfl

/-! ## The proof data -/

/-- The pipeline's proof data on core c: the arrays as found; after the body each input's buffer at its block and the
    output window's at the state's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => (stateAt0 V c t.val t.isLt).1
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem inv0_castSucc (c : Dev nD) (t : Fin cfg0.N) :
    (dat0 V c).Φ t.castSucc = inv0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = (stateAt0 V c t.val t.isLt).1 := by dsimp only [dat0]
theorem before0_0 (c : Dev nD) (t : Fin cfg0.N) (d) : (dat0 V c).before 0 t d = blk0 V c 0 t :=
  held0_0 V (dat0 V c) (A_eq0 V c 0) (after0_0 V c) t d
theorem before0_1 (c : Dev nD) (t : Fin cfg0.N) (d) : (dat0 V c).before 1 t d = blk0 V c 1 t :=
  held0_1 V (dat0 V c) (A_eq0 V c 1) (after0_1 V c) t d
theorem before0_2 (c : Dev nD) (t : Fin cfg0.N) (d) : (dat0 V c).before 2 t d = blk0 V c 2 t :=
  held0_2 V (dat0 V c) (A_eq0 V c 2) (after0_2 V c) t d

/-! ## The body's obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the three inputs' buffers hold their blocks; the tile number says which run applies; the invariant
    hands the body the running total at what the point before left (at anything at the very first point) and takes it back
    at this point's total; an idle output window is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = inv0 V c (t.val + 1) t.isLt from rfl, inv0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  have hN : t.val < 128 := lt_of_lt_of_eq t.isLt (show cfg0.N = 128 from N_0)
  by_cases h1 : t.val % 32 = 31
  · have h0 : ¬t.val % 32 = 0 := by omega
    have hz : t.val ≠ 0 := by omega
    rw [show (dat0 V c).leavesExact 3 t = owns (c : Thread nD τ) (ms0_3 t) fullShare ((dat0 V c).after 3 t) from by
      unfold Dat.leavesExact; rw [live0_3 t ((isLast0_iff t).mpr h1)], after0_3]
    rw [stateAt0_last V c t h0 h1]
    unfold outLast0 accLast0; (try dsimp only)
    rw [inv0_castSucc V c t, inv0_pos V c _ _ hz]
    iintro ⟨⟨⟨HS, Hoth⟩, Hg⟩, Ho, ⟨%d0, H0⟩, ⟨%d1, H1⟩, ⟨%d2, H2⟩, ⟨%d3, H3⟩⟩
    iapply ((runLast0 c (grid0.coords t) _ _ _ _ _ _ _ _ _ _ (fun h => h0 ((isFirst0_iff t).mp h)) ((isLast0_iff t).mpr h1) (blk0 V c 0 t) (blk0 V c 1 t) (blk0 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hoth Hg]
    · isplitl [HS Hoth]
      · isplitl [HS]
        · unfold owns; iexists _; isplitr
          swap; · iexact HS
          ipureintro; exact View.read_writes_of_cover _ _ _ _ _ (accCover_last0 c _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (outCover_last0 c _ _ _ _ _ _ _ _ _ _ _ _ _ _ _ _ _)
  · rw [Dat.leavesExact_idle (dat0 V c) 3 t (idle0_3 t (fun h => h1 ((isLast0_iff t).mp h))) (noFlush0_3 t (fun h => h1 ((isLast0_iff t).mp h)))]
    by_cases h0 : t.val % 32 = 0
    · rw [stateAt0_first V c t h0 h1]
      unfold accFirst0; (try dsimp only)
      by_cases hz : t.val = 0
      · rw [inv0_castSucc V c t, inv0_zero V c _ _ hz, rest0_eq]
        iintro ⟨⟨⟨HS, Hoth⟩, Hg⟩, Ho, ⟨%d0, H0⟩, ⟨%d1, H1⟩, ⟨%d2, H2⟩, ⟨%d3, H3⟩⟩
        iapply ((runFirst0 c (grid0.coords t) _ _ _ _ _ _ _ _ _ _ ((isFirst0_iff t).mpr h0) (fun h => h1 ((isLast0_iff t).mp h)) (blk0 V c 0 t) (blk0 V c 1 t) (blk0 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCover_first0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [inv0_castSucc V c t, inv0_pos V c _ _ hz]
        iintro ⟨⟨⟨HS, Hoth⟩, Hg⟩, Ho, ⟨%d0, H0⟩, ⟨%d1, H1⟩, ⟨%d2, H2⟩, ⟨%d3, H3⟩⟩
        iapply ((runFirst0 c (grid0.coords t) _ _ _ _ _ _ _ _ _ _ ((isFirst0_iff t).mpr h0) (fun h => h1 ((isLast0_iff t).mp h)) (blk0 V c 0 t) (blk0 V c 1 t) (blk0 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCover_first0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
    · have hz : t.val ≠ 0 := fun hz => h0 (by rw [hz])
      rw [stateAt0_mid V c t h0 h1]
      unfold accMid0; (try dsimp only)
      rw [inv0_castSucc V c t, inv0_pos V c _ _ hz]
      iintro ⟨⟨⟨HS, Hoth⟩, Hg⟩, Ho, ⟨%d0, H0⟩, ⟨%d1, H1⟩, ⟨%d2, H2⟩, ⟨%d3, H3⟩⟩
      iapply ((runMid0 c (grid0.coords t) _ _ _ _ _ _ _ _ _ _ (fun h => h0 ((isFirst0_iff t).mp h)) (fun h => h1 ((isLast0_iff t).mp h)) (blk0 V c 0 t) (blk0 V c 1 t) (blk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accCover_mid0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = inv0 V c 0 (Nat.zero_le _) from rfl, inv0_zero V c 0 _ rfl]
  try exact Idealize.SL.BI.Entails.refl _

/-- After the last point the invariant gives the resting invariant back: the total's named contents are forgotten. -/
theorem hout0 (c : Dev nD) : (dat0 V c).Φ (Fin.last cfg0.N) ⊢ (Pipeline.ΦA spec0 c : sProp 𝕄) := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 128 := N_0; omega), rest0_eq]
  iintro ⟨⟨HS, Hoth⟩, Hg⟩
  isplitl [HS Hoth]
  · isplitl [HS]
    · iexists _; iexact HS
    iexact Hoth
  iexact Hg

end Cert.Kernel.Fr

end
-- ==== Proof.FrB.Runs1.lean ====
/-
  The second aggregation layer's grid is 2 row blocks by 4 column tiles; the body runs in one of three ways
  according to the tile number k: at k = 0 it clears the running total before adding the tile's product, at
  0 < k < 3 it only adds, at k = 3 it adds and then writes the finished block relu(total . W1^T) into the output
  window. This module fixes what the three runs are stated over: the two tests on k decided over the grid,
  where the output window is idle, the staging memrefs at a point, the block of an operand at a point, and the
  region's resting invariant with the running total's buffer named. In the list of the core's buffers that ride
  along, the total's buffer comes last; separating conjunction is commutative and associative, so the resting
  invariant is restated with the total's buffer first.
-/
import proofs.«169439_j52218212385011_2_alg».proof.Proof.Gen.Kernel.Launch
import proofs.«169439_j52218212385011_2_alg».proof.Proof.Gen.Kernel.Skeleton
import proofs.«169439_j52218212385011_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the region finds them, per core
variable (V : (c : Dev nD) → (b : Ref sig .tc) → Buf (Elt F) ((c : Thread nD τ).loc b))

/-! ## An operand's block at a point -/

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The mask tile's staging buffer holds the tile at every point. -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- The hidden tile's staging buffer holds the tile at every point. -/
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
/-- The weight's staging buffer holds the whole weight at every point, though fetched only once. -/
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The two tests on the tile number -/

/-- "k = 0", as the body computes it. -/
abbrev isFirst1 (i : grid1.Coords) : Prop := (Scalar.cmpi .ne (Scalar.extui (Scalar.cmpi .eq (BitVec.ofNat 32 (i 1).val) 0#32)) 0#32) = 1#1
theorem isFirst1_iff : ∀ t : Fin cfg1.N, isFirst1 (grid1.coords t) ↔ t.val % 4 = 0 :=
  (by decide +kernel : ∀ t : Fin grid1.N, isFirst1 (grid1.coords t) ↔ t.val % 4 = 0)
/-- "k = 3", as the body computes it. -/
abbrev isLast1 (i : grid1.Coords) : Prop := k1_cond2 i = 1#1
theorem isLast1_iff : ∀ t : Fin cfg1.N, isLast1 (grid1.coords t) ↔ t.val % 4 = 3 :=
  (by decide +kernel : ∀ t : Fin grid1.N, isLast1 (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Off the last tile the output window is idle and not written back. -/
theorem idle1_3 : ∀ t : Fin cfg1.N, ¬isLast1 (grid1.coords t) → cfg1.idle 3 (grid1.coords t) = true := by decide +kernel
theorem noFlush1_3 : ∀ t : Fin cfg1.N, ¬isLast1 (grid1.coords t) → (cfg1.win 3).flush t = false := by decide +kernel
/-- On the last tile it is live. -/
theorem live1_3 : ∀ t : Fin cfg1.N, isLast1 (grid1.coords t) → cfg1.idle 3 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The running total's buffer. -/
abbrev acc1 : Memref sig .tc .vmem S1024x256 .f32 := Memref.whole cc1_scratch0
abbrev accV1 : View sig .tc .vmem S1024x256 .f32 := acc1.view
/-- One staging buffer of the output window, through which its contents are stated. -/
abbrev outV1 : View sig .tc .vmem S1024x128 .f32 := (Memref.whole cc1_stg3_0 : Memref sig .tc .vmem S1024x128 .f32).view

/-! ## The resting invariant with the running total's buffer named -/

/-- The other region's scoped buffers, each whole at some contents: they ride along untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- Eight conjuncts followed by a ninth are the ninth followed by the eight. -/
theorem last_first (P1 P2 P3 P4 P5 P6 P7 P8 X : sProp 𝕄) :
    iprop(P1 ∗ P2 ∗ P3 ∗ P4 ∗ P5 ∗ P6 ∗ P7 ∗ P8 ∗ X) = iprop(X ∗ P1 ∗ P2 ∗ P3 ∗ P4 ∗ P5 ∗ P6 ∗ P7 ∗ P8) := by
  have h₁ : iprop(P1 ∗ P2 ∗ P3 ∗ P4 ∗ P5 ∗ P6 ∗ P7 ∗ P8 ∗ X) ⊢ iprop(X ∗ P1 ∗ P2 ∗ P3 ∗ P4 ∗ P5 ∗ P6 ∗ P7 ∗ P8) := by
    iintro ⟨H1, H2, H3, H4, H5, H6, H7, H8, HX⟩
    isplitl [HX]; · iexact HX
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  have h₂ : iprop(X ∗ P1 ∗ P2 ∗ P3 ∗ P4 ∗ P5 ∗ P6 ∗ P7 ∗ P8) ⊢ iprop(P1 ∗ P2 ∗ P3 ∗ P4 ∗ P5 ∗ P6 ∗ P7 ∗ P8 ∗ X) := by
    iintro ⟨HX, H1, H2, H3, H4, H5, H6, H7, H8⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HX
  exact Idealize.SL.BI.equiv_iff.mp ⟨h₁, h₂⟩

theorem rest1_eq (c : Dev nD) :
    (Pipeline.ΦA spec1 c : sProp 𝕄)
      = iprop(((∃ d, owns (c : Thread nD τ) acc1 fullShare d) ∗ others1 (F := F) c) ∗ (∃ r, prngReg c r)) := by
  unfold Pipeline.ΦA others1; rw [scopedRest1_eq, last_first]; simp only [acc1, owns_whole]; try rfl

end Cert.Kernel.Fr

end
-- ==== Proof.FrB.Run1A.lean ====
/-
  The body at the first tile of a row block (k = 0): the running total's buffer, whatever it held, is overwritten
  with zeros and then with zeros plus the tile's product; the mask tile, the hidden tile and the weight are only read;
  the output window's buffer is not touched. The pieces the total's buffer ends with are found by running the body.
-/
import proofs.«169439_j52218212385011_2_alg».proof.Proof.FrB.Runs1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first-tile run: the list of pieces written into the running total's buffer (last first), with the proof that the
    body, started with its three inputs at x0, x1, x2, the output window at xi3 and the total's buffer at anything,
    reaches its continuation with the inputs and the output window as they were and the total's buffer with those pieces
    written. -/
noncomputable def runFirst1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : isFirst1 i) (hc1 : ¬isLast1 i)
    (x0 : Vec F S1024x2048 .f32) (x1 : Vec F S2048x256 .bf16) (x2 : Vec F S128x256 .f32) :
    Σ' (L3 : List (View.Piece (Elt F) S1024x128 .f32)), { LS : List (View.Piece (Elt F) S1024x256 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__agg1_kernel i arg2 harg2 arg3 harg3 arg4 harg4 arg5 harg5 arg6 harg6) K } := by
  refine ⟨[], ?_, fun xi3 E K => ?run⟩
  case run =>
    simp only [cc1__agg1_kernel_eq_skeleton]; unfold cc1__agg1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Fr

end
-- ==== Proof.FrB.Run1B.lean ====
/-
  The body at a middle tile (0 < k < 3): the running total's buffer, holding xs, is overwritten with xs plus the tile's
  product; the three inputs are only read; the output window's buffer is not touched.
-/
import proofs.«169439_j52218212385011_2_alg».proof.Proof.FrB.Run1A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The middle-tile run: the pieces written into the running total's buffer (last first), with the proof that the body,
    started with its inputs at x0, x1, x2, the output window at xi3 and the total's buffer at xs, reaches its continuation
    with the inputs and the output window as they were and the total's buffer with those pieces written. -/
noncomputable def runMid1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : ¬isFirst1 i) (hc1 : ¬isLast1 i)
    (x0 : Vec F S1024x2048 .f32) (x1 : Vec F S2048x256 .bf16) (x2 : Vec F S128x256 .f32) (xs : Vec F S1024x256 .f32) :
    Σ' (L3 : List (View.Piece (Elt F) S1024x128 .f32)), { LS : List (View.Piece (Elt F) S1024x256 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__agg1_kernel i arg2 harg2 arg3 harg3 arg4 harg4 arg5 harg5 arg6 harg6) K } := by
  refine ⟨[], ?_, fun xi3 E K => ?run⟩
  case run =>
    simp only [cc1__agg1_kernel_eq_skeleton]; unfold cc1__agg1_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Fr

end
-- ==== Proof.FrB.Run1C.lean ====
/-
  The body at the last tile (k = 3): the running total's buffer, holding xs, is overwritten with xs plus the tile's
  product, and the output window's buffer, whatever it held, with relu(total . W1^T); the three inputs are only read.
-/
import proofs.«169439_j52218212385011_2_alg».proof.Proof.FrB.Run1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last-tile run: the pieces written into the output window's buffer and into the running total's buffer (last first),
    with the proof that the body, started with its inputs at x0, x1, x2, the output window at anything and the total's buffer at
    xs, reaches its continuation with the inputs as they were and both buffers with their pieces written. -/
noncomputable def runLast1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : ¬isFirst1 i) (hc1 : isLast1 i)
    (x0 : Vec F S1024x2048 .f32) (x1 : Vec F S2048x256 .bf16) (x2 : Vec F S128x256 .f32) (xs : Vec F S1024x256 .f32) :
    Σ' (L3 : List (View.Piece (Elt F) S1024x128 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__agg1_kernel i arg2 harg2 arg3 harg3 arg4 harg4 arg5 harg5 arg6 harg6) K } := by
  refine ⟨?_, ?_, fun E K => ?run⟩
  case run =>
    simp only [cc1__agg1_kernel_eq_skeleton]; unfold cc1__agg1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Fr

end
-- ==== Proof.FrB.Frame1.lean ====
/-
  The second aggregation layer, point by point. After the body at point t the running total's buffer holds: at the first
  tile of a row block the tile's product added to zero, at every other tile the tile's product added to what the point
  before left; the output window's buffer holds, at the last tile, relu(total . W1^T) and is otherwise untouched. These are
  stated as the read-back of the pieces each run wrote. From them: the state after each point by recursion on the point,
  the region's invariant (before the first point anything; afterwards the total's buffer at the state's total), the proof
  data, and the body's obligation at every point by the three runs.
-/
import proofs.«169439_j52218212385011_2_alg».proof.Proof.FrB.Run1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each run leaves -/

/-- The first-tile run's pieces cover the running total's buffer. -/
theorem accCover_first1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : isFirst1 i) (hc1 : ¬isLast1 i)
    (x0 : Vec F S1024x2048 .f32) (x1 : Vec F S2048x256 .bf16) (x2 : Vec F S128x256 .f32) (y : S1024x256.Idx) :
    ∃ pc ∈ (runFirst1 c i arg2 harg2 arg3 harg3 arg4 harg4 arg5 harg5 arg6 harg6 hc0 hc1 x0 x1 x2).2.1, y ∈ pc.1.set :=
  View.cover_of_tiledL (runFirst1 c i arg2 harg2 arg3 harg3 arg4 harg4 arg5 harg5 arg6 harg6 hc0 hc1 x0 x1 x2).2.1 S1024x256.size (by sl_kernel_rfl) y
/-- The total after a first tile. -/
def accFirst1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : isFirst1 i) (hc1 : ¬isLast1 i)
    (x0 : Vec F S1024x2048 .f32) (x1 : Vec F S2048x256 .bf16) (x2 : Vec F S128x256 .f32) : Vec F S1024x256 .f32 :=
  accV1.read (Elt F) (accV1.writes (Elt F) accV1.junk (runFirst1 c i arg2 harg2 arg3 harg3 arg4 harg4 arg5 harg5 arg6 harg6 hc0 hc1 x0 x1 x2).2.1)

theorem accCover_mid1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : ¬isFirst1 i) (hc1 : ¬isLast1 i)
    (x0 : Vec F S1024x2048 .f32) (x1 : Vec F S2048x256 .bf16) (x2 : Vec F S128x256 .f32) (xs : Vec F S1024x256 .f32) (y : S1024x256.Idx) :
    ∃ pc ∈ (runMid1 c i arg2 harg2 arg3 harg3 arg4 harg4 arg5 harg5 arg6 harg6 hc0 hc1 x0 x1 x2 xs).2.1, y ∈ pc.1.set :=
  View.cover_of_tiledL (runMid1 c i arg2 harg2 arg3 harg3 arg4 harg4 arg5 harg5 arg6 harg6 hc0 hc1 x0 x1 x2 xs).2.1 S1024x256.size (by sl_kernel_rfl) y
/-- The total after a middle tile, over the total xs before it. -/
def accMid1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : ¬isFirst1 i) (hc1 : ¬isLast1 i)
    (x0 : Vec F S1024x2048 .f32) (x1 : Vec F S2048x256 .bf16) (x2 : Vec F S128x256 .f32) (xs : Vec F S1024x256 .f32) : Vec F S1024x256 .f32 :=
  accV1.read (Elt F) (accV1.writes (Elt F) accV1.junk (runMid1 c i arg2 harg2 arg3 harg3 arg4 harg4 arg5 harg5 arg6 harg6 hc0 hc1 x0 x1 x2 xs).2.1)

theorem accCover_last1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : ¬isFirst1 i) (hc1 : isLast1 i)
    (x0 : Vec F S1024x2048 .f32) (x1 : Vec F S2048x256 .bf16) (x2 : Vec F S128x256 .f32) (xs : Vec F S1024x256 .f32) (y : S1024x256.Idx) :
    ∃ pc ∈ (runLast1 c i arg2 harg2 arg3 harg3 arg4 harg4 arg5 harg5 arg6 harg6 hc0 hc1 x0 x1 x2 xs).2.1, y ∈ pc.1.set :=
  View.cover_of_tiledL (runLast1 c i arg2 harg2 arg3 harg3 arg4 harg4 arg5 harg5 arg6 harg6 hc0 hc1 x0 x1 x2 xs).2.1 S1024x256.size (by sl_kernel_rfl) y
/-- The total after a last tile, over the total xs before it. -/
def accLast1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : ¬isFirst1 i) (hc1 : isLast1 i)
    (x0 : Vec F S1024x2048 .f32) (x1 : Vec F S2048x256 .bf16) (x2 : Vec F S128x256 .f32) (xs : Vec F S1024x256 .f32) : Vec F S1024x256 .f32 :=
  accV1.read (Elt F) (accV1.writes (Elt F) accV1.junk (runLast1 c i arg2 harg2 arg3 harg3 arg4 harg4 arg5 harg5 arg6 harg6 hc0 hc1 x0 x1 x2 xs).2.1)
theorem outCover_last1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : ¬isFirst1 i) (hc1 : isLast1 i)
    (x0 : Vec F S1024x2048 .f32) (x1 : Vec F S2048x256 .bf16) (x2 : Vec F S128x256 .f32) (xs : Vec F S1024x256 .f32) (y : S1024x128.Idx) :
    ∃ pc ∈ (runLast1 c i arg2 harg2 arg3 harg3 arg4 harg4 arg5 harg5 arg6 harg6 hc0 hc1 x0 x1 x2 xs).1, y ∈ pc.1.set :=
  View.cover_of_tiledL (runLast1 c i arg2 harg2 arg3 harg3 arg4 harg4 arg5 harg5 arg6 harg6 hc0 hc1 x0 x1 x2 xs).1 S1024x128.size (by sl_kernel_rfl) y
/-- The finished output block a last tile writes. -/
def outLast1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : ¬isFirst1 i) (hc1 : isLast1 i)
    (x0 : Vec F S1024x2048 .f32) (x1 : Vec F S2048x256 .bf16) (x2 : Vec F S128x256 .f32) (xs : Vec F S1024x256 .f32) : Vec F S1024x128 .f32 :=
  outV1.read (Elt F) (outV1.writes (Elt F) outV1.junk (runLast1 c i arg2 harg2 arg3 harg3 arg4 harg4 arg5 harg5 arg6 harg6 hc0 hc1 x0 x1 x2 xs).1)

/-- Placeholders: the output window where it is idle (nothing consults it), the total before the very first point. -/
def idleOut1 : Vec F S1024x128 .f32 := outV1.read (Elt F) outV1.junk
def noAcc1 : Vec F S1024x256 .f32 := accV1.read (Elt F) accV1.junk

/-! ## The state point by point -/

/-- One point's step: the output window's buffer and the running total after the body at t, given the total before it. -/
def stepAt1 (c : Dev nD) (t : Fin cfg1.N) (prev : Vec F S1024x256 .f32) : Vec F S1024x128 .f32 × Vec F S1024x256 .f32 :=
  if h0 : t.val % 4 = 0 then
    if h1 : t.val % 4 = 3 then (idleOut1, prev)
    else (idleOut1, accFirst1 c (grid1.coords t) (ms1_0 t) (hs1_0 t) (ms1_1 t) (hs1_1 t) (ms1_2 t) (hs1_2 t) (ms1_3 t) (hs1_3 t) acc1 (Memref.isWhole_whole _) ((isFirst1_iff t).mpr h0) (fun h => h1 ((isLast1_iff t).mp h)) (blk1 V c 0 t) (blk1 V c 1 t) (blk1 V c 2 t))
  else
    if h1 : t.val % 4 = 3 then
      (outLast1 c (grid1.coords t) (ms1_0 t) (hs1_0 t) (ms1_1 t) (hs1_1 t) (ms1_2 t) (hs1_2 t) (ms1_3 t) (hs1_3 t) acc1 (Memref.isWhole_whole _) (fun h => h0 ((isFirst1_iff t).mp h)) ((isLast1_iff t).mpr h1) (blk1 V c 0 t) (blk1 V c 1 t) (blk1 V c 2 t) prev,
       accLast1 c (grid1.coords t) (ms1_0 t) (hs1_0 t) (ms1_1 t) (hs1_1 t) (ms1_2 t) (hs1_2 t) (ms1_3 t) (hs1_3 t) acc1 (Memref.isWhole_whole _) (fun h => h0 ((isFirst1_iff t).mp h)) ((isLast1_iff t).mpr h1) (blk1 V c 0 t) (blk1 V c 1 t) (blk1 V c 2 t) prev)
    else (idleOut1, accMid1 c (grid1.coords t) (ms1_0 t) (hs1_0 t) (ms1_1 t) (hs1_1 t) (ms1_2 t) (hs1_2 t) (ms1_3 t) (hs1_3 t) acc1 (Memref.isWhole_whole _) (fun h => h0 ((isFirst1_iff t).mp h)) (fun h => h1 ((isLast1_iff t).mp h)) (blk1 V c 0 t) (blk1 V c 1 t) (blk1 V c 2 t) prev)

/-- The state after the body at position n: the steps folded from the first point. -/
def stateAt1 (c : Dev nD) : (n : ℕ) → n < cfg1.N → Vec F S1024x128 .f32 × Vec F S1024x256 .f32
  | 0, hn => stepAt1 V c ⟨0, hn⟩ noAcc1
  | n + 1, hn => stepAt1 V c ⟨n + 1, hn⟩ (stateAt1 c n (Nat.lt_of_succ_lt hn)).2

/-- The total before a point that is not the first of all. -/
abbrev prevAcc1 (c : Dev nD) (t : Fin cfg1.N) : Vec F S1024x256 .f32 :=
  (stateAt1 V c (t.val - 1) (Nat.lt_of_le_of_lt (Nat.sub_le _ _) t.isLt)).2

theorem stateAt1_pos (c : Dev nD) (t : Fin cfg1.N) (hz : t.val ≠ 0) :
    stateAt1 V c t.val t.isLt = stepAt1 V c t (prevAcc1 V c t) := by
  obtain ⟨n, hn⟩ := t
  cases n with
  | zero => exact absurd rfl hz
  | succ n => rfl

theorem stepAt1_first (c : Dev nD) (t : Fin cfg1.N) (prev : Vec F S1024x256 .f32) (h0 : t.val % 4 = 0) (h1 : ¬t.val % 4 = 3) :
    stepAt1 V c t prev = (idleOut1, accFirst1 c (grid1.coords t) (ms1_0 t) (hs1_0 t) (ms1_1 t) (hs1_1 t) (ms1_2 t) (hs1_2 t) (ms1_3 t) (hs1_3 t) acc1 (Memref.isWhole_whole _) ((isFirst1_iff t).mpr h0) (fun h => h1 ((isLast1_iff t).mp h)) (blk1 V c 0 t) (blk1 V c 1 t) (blk1 V c 2 t)) := by
  unfold stepAt1; rw [dif_pos h0, dif_neg h1]
theorem stepAt1_mid (c : Dev nD) (t : Fin cfg1.N) (prev : Vec F S1024x256 .f32) (h0 : ¬t.val % 4 = 0) (h1 : ¬t.val % 4 = 3) :
    stepAt1 V c t prev = (idleOut1, accMid1 c (grid1.coords t) (ms1_0 t) (hs1_0 t) (ms1_1 t) (hs1_1 t) (ms1_2 t) (hs1_2 t) (ms1_3 t) (hs1_3 t) acc1 (Memref.isWhole_whole _) (fun h => h0 ((isFirst1_iff t).mp h)) (fun h => h1 ((isLast1_iff t).mp h)) (blk1 V c 0 t) (blk1 V c 1 t) (blk1 V c 2 t) prev) := by
  unfold stepAt1; rw [dif_neg h0, dif_neg h1]
theorem stepAt1_last (c : Dev nD) (t : Fin cfg1.N) (prev : Vec F S1024x256 .f32) (h0 : ¬t.val % 4 = 0) (h1 : t.val % 4 = 3) :
    stepAt1 V c t prev =
      (outLast1 c (grid1.coords t) (ms1_0 t) (hs1_0 t) (ms1_1 t) (hs1_1 t) (ms1_2 t) (hs1_2 t) (ms1_3 t) (hs1_3 t) acc1 (Memref.isWhole_whole _) (fun h => h0 ((isFirst1_iff t).mp h)) ((isLast1_iff t).mpr h1) (blk1 V c 0 t) (blk1 V c 1 t) (blk1 V c 2 t) prev,
       accLast1 c (grid1.coords t) (ms1_0 t) (hs1_0 t) (ms1_1 t) (hs1_1 t) (ms1_2 t) (hs1_2 t) (ms1_3 t) (hs1_3 t) acc1 (Memref.isWhole_whole _) (fun h => h0 ((isFirst1_iff t).mp h)) ((isLast1_iff t).mpr h1) (blk1 V c 0 t) (blk1 V c 1 t) (blk1 V c 2 t) prev) := by
  unfold stepAt1; rw [dif_neg h0, dif_pos h1]

theorem stateAt1_first (c : Dev nD) (t : Fin cfg1.N) (h0 : t.val % 4 = 0) (h1 : ¬t.val % 4 = 3) :
    stateAt1 V c t.val t.isLt = (idleOut1, accFirst1 c (grid1.coords t) (ms1_0 t) (hs1_0 t) (ms1_1 t) (hs1_1 t) (ms1_2 t) (hs1_2 t) (ms1_3 t) (hs1_3 t) acc1 (Memref.isWhole_whole _) ((isFirst1_iff t).mpr h0) (fun h => h1 ((isLast1_iff t).mp h)) (blk1 V c 0 t) (blk1 V c 1 t) (blk1 V c 2 t)) := by
  obtain ⟨n, hn⟩ := t
  cases n with
  | zero => exact stepAt1_first V c ⟨0, hn⟩ _ h0 h1
  | succ n => exact stepAt1_first V c ⟨n + 1, hn⟩ _ h0 h1

theorem stateAt1_mid (c : Dev nD) (t : Fin cfg1.N) (h0 : ¬t.val % 4 = 0) (h1 : ¬t.val % 4 = 3) :
    stateAt1 V c t.val t.isLt = (idleOut1, accMid1 c (grid1.coords t) (ms1_0 t) (hs1_0 t) (ms1_1 t) (hs1_1 t) (ms1_2 t) (hs1_2 t) (ms1_3 t) (hs1_3 t) acc1 (Memref.isWhole_whole _) (fun h => h0 ((isFirst1_iff t).mp h)) (fun h => h1 ((isLast1_iff t).mp h)) (blk1 V c 0 t) (blk1 V c 1 t) (blk1 V c 2 t) (prevAcc1 V c t)) := by
  rw [stateAt1_pos V c t (fun hz => h0 (by rw [hz]))]
  exact stepAt1_mid V c t _ h0 h1

theorem stateAt1_last (c : Dev nD) (t : Fin cfg1.N) (h0 : ¬t.val % 4 = 0) (h1 : t.val % 4 = 3) :
    stateAt1 V c t.val t.isLt =
      (outLast1 c (grid1.coords t) (ms1_0 t) (hs1_0 t) (ms1_1 t) (hs1_1 t) (ms1_2 t) (hs1_2 t) (ms1_3 t) (hs1_3 t) acc1 (Memref.isWhole_whole _) (fun h => h0 ((isFirst1_iff t).mp h)) ((isLast1_iff t).mpr h1) (blk1 V c 0 t) (blk1 V c 1 t) (blk1 V c 2 t) (prevAcc1 V c t),
       accLast1 c (grid1.coords t) (ms1_0 t) (hs1_0 t) (ms1_1 t) (hs1_1 t) (ms1_2 t) (hs1_2 t) (ms1_3 t) (hs1_3 t) acc1 (Memref.isWhole_whole _) (fun h => h0 ((isFirst1_iff t).mp h)) ((isLast1_iff t).mpr h1) (blk1 V c 0 t) (blk1 V c 1 t) (blk1 V c 2 t) (prevAcc1 V c t)) := by
  rw [stateAt1_pos V c t (fun hz => h0 (by rw [hz]))]
  exact stepAt1_last V c t _ h0 h1

/-! ## The region's invariant -/

/-- Before position n: at the start the resting invariant; afterwards the same with the running total's buffer at what
    the point before left in it. -/
def inv1 (c : Dev nD) : (n : ℕ) → n ≤ cfg1.N → sProp 𝕄
  | 0, _ => Pipeline.ΦA spec1 c
  | n + 1, hn => iprop((owns (c : Thread nD τ) acc1 fullShare ((stateAt1 V c n hn).2) ∗ others1 (F := F) c) ∗ (∃ r, prngReg c r))

theorem inv1_zero (c : Dev nD) (n : ℕ) (h : n ≤ cfg1.N) (hz : n = 0) : inv1 V c n h = Pipeline.ΦA spec1 c := by
  subst hz; rfl
theorem inv1_succ (c : Dev nD) (n : ℕ) (hn : n < cfg1.N) :
    inv1 V c (n + 1) hn = iprop((owns (c : Thread nD τ) acc1 fullShare ((stateAt1 V c n hn).2) ∗ others1 (F := F) c) ∗ (∃ r, prngReg c r)) := rfl
theorem inv1_pos (c : Dev nD) (n : ℕ) (h : n ≤ cfg1.N) (hz : n ≠ 0) :
    inv1 V c n h = iprop((owns (c : Thread nD τ) acc1 fullShare ((stateAt1 V c (n - 1) (by omega)).2) ∗ others1 (F := F) c) ∗ (∃ r, prngReg c r)) := by
  cases n with
  | zero => exact absurd rfl hz
  | succ n => rfl

/-! ## The proof data -/

/-- The pipeline's proof data on core c: the arrays as found; after the body each input's buffer at its block and the
    output window's at the state's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (stateAt1 V c t.val t.isLt).1
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem inv1_castSucc (c : Dev nD) (t : Fin cfg1.N) :
    (dat1 V c).Φ t.castSucc = inv1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = (stateAt1 V c t.val t.isLt).1 := by dsimp only [dat1]
theorem before1_0 (c : Dev nD) (t : Fin cfg1.N) (d) : (dat1 V c).before 0 t d = blk1 V c 0 t :=
  held1_0 V (dat1 V c) (A_eq1 V c 0) (after1_0 V c) t d
theorem before1_1 (c : Dev nD) (t : Fin cfg1.N) (d) : (dat1 V c).before 1 t d = blk1 V c 1 t :=
  held1_1 V (dat1 V c) (A_eq1 V c 1) (after1_1 V c) t d
theorem before1_2 (c : Dev nD) (t : Fin cfg1.N) (d) : (dat1 V c).before 2 t d = blk1 V c 2 t :=
  held1_2 V (dat1 V c) (A_eq1 V c 2) (after1_2 V c) t d

/-! ## The body's obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the three inputs' buffers hold their blocks; the tile number says which run applies; the invariant
    hands the body the running total at what the point before left (at anything at the very first point) and takes it back
    at this point's total; an idle output window is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = inv1 V c (t.val + 1) t.isLt from rfl, inv1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  have hN : t.val < 8 := lt_of_lt_of_eq t.isLt (show cfg1.N = 8 from N_1)
  by_cases h1 : t.val % 4 = 3
  · have h0 : ¬t.val % 4 = 0 := by omega
    have hz : t.val ≠ 0 := by omega
    rw [show (dat1 V c).leavesExact 3 t = owns (c : Thread nD τ) (ms1_3 t) fullShare ((dat1 V c).after 3 t) from by
      unfold Dat.leavesExact; rw [live1_3 t ((isLast1_iff t).mpr h1)], after1_3]
    rw [stateAt1_last V c t h0 h1]
    unfold outLast1 accLast1; (try dsimp only)
    rw [inv1_castSucc V c t, inv1_pos V c _ _ hz]
    iintro ⟨⟨⟨HS, Hoth⟩, Hg⟩, Ho, ⟨%d0, H0⟩, ⟨%d1, H1⟩, ⟨%d2, H2⟩, ⟨%d3, H3⟩⟩
    iapply ((runLast1 c (grid1.coords t) _ _ _ _ _ _ _ _ _ _ (fun h => h0 ((isFirst1_iff t).mp h)) ((isLast1_iff t).mpr h1) (blk1 V c 0 t) (blk1 V c 1 t) (blk1 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hoth Hg]
    · isplitl [HS Hoth]
      · isplitl [HS]
        · unfold owns; iexists _; isplitr
          swap; · iexact HS
          ipureintro; exact View.read_writes_of_cover _ _ _ _ _ (accCover_last1 c _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (outCover_last1 c _ _ _ _ _ _ _ _ _ _ _ _ _ _ _ _ _)
  · rw [Dat.leavesExact_idle (dat1 V c) 3 t (idle1_3 t (fun h => h1 ((isLast1_iff t).mp h))) (noFlush1_3 t (fun h => h1 ((isLast1_iff t).mp h)))]
    by_cases h0 : t.val % 4 = 0
    · rw [stateAt1_first V c t h0 h1]
      unfold accFirst1; (try dsimp only)
      by_cases hz : t.val = 0
      · rw [inv1_castSucc V c t, inv1_zero V c _ _ hz, rest1_eq]
        iintro ⟨⟨⟨HS, Hoth⟩, Hg⟩, Ho, ⟨%d0, H0⟩, ⟨%d1, H1⟩, ⟨%d2, H2⟩, ⟨%d3, H3⟩⟩
        iapply ((runFirst1 c (grid1.coords t) _ _ _ _ _ _ _ _ _ _ ((isFirst1_iff t).mpr h0) (fun h => h1 ((isLast1_iff t).mp h)) (blk1 V c 0 t) (blk1 V c 1 t) (blk1 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCover_first1 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [inv1_castSucc V c t, inv1_pos V c _ _ hz]
        iintro ⟨⟨⟨HS, Hoth⟩, Hg⟩, Ho, ⟨%d0, H0⟩, ⟨%d1, H1⟩, ⟨%d2, H2⟩, ⟨%d3, H3⟩⟩
        iapply ((runFirst1 c (grid1.coords t) _ _ _ _ _ _ _ _ _ _ ((isFirst1_iff t).mpr h0) (fun h => h1 ((isLast1_iff t).mp h)) (blk1 V c 0 t) (blk1 V c 1 t) (blk1 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCover_first1 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
    · have hz : t.val ≠ 0 := fun hz => h0 (by rw [hz])
      rw [stateAt1_mid V c t h0 h1]
      unfold accMid1; (try dsimp only)
      rw [inv1_castSucc V c t, inv1_pos V c _ _ hz]
      iintro ⟨⟨⟨HS, Hoth⟩, Hg⟩, Ho, ⟨%d0, H0⟩, ⟨%d1, H1⟩, ⟨%d2, H2⟩, ⟨%d3, H3⟩⟩
      iapply ((runMid1 c (grid1.coords t) _ _ _ _ _ _ _ _ _ _ (fun h => h0 ((isFirst1_iff t).mp h)) (fun h => h1 ((isLast1_iff t).mp h)) (blk1 V c 0 t) (blk1 V c 1 t) (blk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accCover_mid1 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = inv1 V c 0 (Nat.zero_le _) from rfl, inv1_zero V c 0 _ rfl]
  try exact Idealize.SL.BI.Entails.refl _

/-- After the last point the invariant gives the resting invariant back: the total's named contents are forgotten. -/
theorem hout1 (c : Dev nD) : (dat1 V c).Φ (Fin.last cfg1.N) ⊢ (Pipeline.ΦA spec1 c : sProp 𝕄) := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 8 := N_1; omega), rest1_eq]
  iintro ⟨⟨HS, Hoth⟩, Hg⟩
  isplitl [HS Hoth]
  · isplitl [HS]
    · iexists _; iexact HS
    iexact Hoth
  iexact Hg

end Cert.Kernel.Fr

end
-- ==== Proof.FrB.Assembly.lean ====
/-
  The whole program: the two layers one after the other. Between them every unscoped buffer of a core is held whole:
  at launch at the launch memory; after the first layer the same with each of its arrays at what its pipeline leaves
  (the inputs as found, the intermediate array with every finished block written back); after the second layer likewise.
  Each layer is a segment of the main function built from its proof data and body obligation; the launch theorem for a
  list of segments then gives: every weakly fair execution terminates, and in every final memory each unscoped buffer
  holds the last of these contents.
-/
import proofs.«169439_j52218212385011_2_alg».proof.Proof.FrB.Frame0
import proofs.«169439_j52218212385011_2_alg».proof.Proof.FrB.Frame1
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- At launch. -/
abbrev E0 : Dev nD → Valuation τ sig (Elt F) := fun c b => m (c, b)
abbrev Vr0 : (c : Dev nD) → (b : Ref sig .tc) → Buf (Elt F) ((c : Thread nD τ).loc b) := fun c b => E0 m c b
/-- After the first layer: its arrays at what its pipeline leaves, every other buffer as before. -/
def E1 (c : Dev nD) : Valuation τ sig (Elt F) :=
  Pipeline.withArrays spec0 c (E0 m c) fun w => (dat0 (Vr0 m) c).arrAt w cfg0.N
theorem E1_arr (c : Dev nD) (w : Fin cfg0.W) :
    E1 m c (Proc.devRef .tc (Pipeline.arrRef spec0 w)) = (dat0 (Vr0 m) c).arrAt w cfg0.N := by
  unfold E1; exact Pipeline.withArrays_arr spec0 launch0.win.arr_inj c _ _ w
theorem E1_of_ne (c : Dev nD) (b : Ref sig .tc) (hb : ∀ w, Pipeline.arrRef spec0 w ≠ b) :
    E1 m c (Proc.devRef .tc b) = E0 m c (Proc.devRef .tc b) := by
  unfold E1; exact Pipeline.withArrays_of_ne spec0 c _ _ b hb
abbrev Vr1 : (c : Dev nD) → (b : Ref sig .tc) → Buf (Elt F) ((c : Thread nD τ).loc b) := fun c b => E1 m c b
theorem hF0 (c : Dev nD) (w : Fin cfg0.W) : (dat0 (Vr0 m) c).arrAt w cfg0.N = Vr1 m c (Pipeline.arrRef spec0 w) :=
  (E1_arr m c w).symm
theorem hrest0 (c : Dev nD) : ∀ b, b ∉ Finset.univ.image (Pipeline.arrRef spec0) → Vr1 m c b = Vr0 m c b :=
  fun b hb => E1_of_ne m c b fun w e => hb (Finset.mem_image.mpr ⟨w, Finset.mem_univ _, e⟩)
/-- After the second layer. -/
def E2 (c : Dev nD) : Valuation τ sig (Elt F) :=
  Pipeline.withArrays spec1 c (E1 m c) fun w => (dat1 (Vr1 m) c).arrAt w cfg1.N
theorem E2_arr (c : Dev nD) (w : Fin cfg1.W) :
    E2 m c (Proc.devRef .tc (Pipeline.arrRef spec1 w)) = (dat1 (Vr1 m) c).arrAt w cfg1.N := by
  unfold E2; exact Pipeline.withArrays_arr spec1 launch1.win.arr_inj c _ _ w
theorem E2_of_ne (c : Dev nD) (b : Ref sig .tc) (hb : ∀ w, Pipeline.arrRef spec1 w ≠ b) :
    E2 m c (Proc.devRef .tc b) = E1 m c (Proc.devRef .tc b) := by
  unfold E2; exact Pipeline.withArrays_of_ne spec1 c _ _ b hb
abbrev Vr2 : (c : Dev nD) → (b : Ref sig .tc) → Buf (Elt F) ((c : Thread nD τ).loc b) := fun c b => E2 m c b
theorem hF1 (c : Dev nD) (w : Fin cfg1.W) : (dat1 (Vr1 m) c).arrAt w cfg1.N = Vr2 m c (Pipeline.arrRef spec1 w) :=
  (E2_arr m c w).symm
theorem hrest1 (c : Dev nD) : ∀ b, b ∉ Finset.univ.image (Pipeline.arrRef spec1) → Vr2 m c b = Vr1 m c b :=
  fun b hb => E2_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Both pipelines' proof data, each at its layer's entry contents. -/
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (E2 m c) ∗ ∃ r, prngReg c r)

/-! ## The layers as segments -/

set_option backward.isDefEq.respectTransparency.types false in
/-- Region 0 as a segment of @main over the thread state: entered from every unscoped buffer at E0, left at E1. Its
    arrays are split out of the unscoped buffers and put back at the exit contents; the generator register goes into the
    region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (E0 m c) ∗ R c)
  post c := iprop(StableHlo.held (c : Thread nD τ) (Pipeline.ucRefs τ sig) (E1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr0 m) c)
    unfold Pipeline.ΦA
    iintro ⟨Hp, -, Hr⟩
    isplitl [Hr]; · iexact Hr
    iexact Hp
  hout c := by
    rw [Pipeline.ownSems0_none]
    refine BIBase.Entails.trans (hout0 (Vr0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main over the thread state: entered from every unscoped buffer at E1, left at E2. Its
    arrays are split out of the unscoped buffers and put back at the exit contents; the generator register goes into the
    region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (E1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr1 m) c)
    unfold Pipeline.ΦA
    iintro ⟨Hp, -, Hr⟩
    isplitl [Hr]; · iexact Hr
    iexact Hp
  hout c := by
    rw [Pipeline.ownSems0_none]
    refine BIBase.Entails.trans (hout1 (Vr1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr1 m c) (Vr2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- Every weakly fair execution of the main function from memory m with zero counters terminates, nothing faulting, and in
    every final memory each unscoped buffer of each core holds the contents after the second layer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = E2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E2 m c b)
    (hfin := fun c s' => by
      iintro ⟨⟨Hh, -⟩, HSI⟩
      unfold StableHlo.held
      imodintro
      iapply (pointsTo_read_all (Pipeline.ucRefs τ sig) (fun b => (((c : Thread nD τ)).1, b)) (E2 m c) s')
      isplitl [Hh] <;> iassumption)
    (hQ := fun s h c => h c)

end Cert.Kernel.Fr

end
-- ==== Proof.FrB.Final.lean ====
/-
  What the last boundary holds at the buffers the claims speak of. No layer writes an argument: the first layer reads
  features, weight2 and mask2 through input windows and the second reads mask1 and weight1 so, and an input window's array
  ends as it was found; so each argument ends as launched. The result buffer is the second layer's output array, whose
  final contents are what its pipeline's write-backs leave; the second layer finds the intermediate array at what the
  first layer's write-backs left, and its other two inputs as launched.
-/
import proofs.«169439_j52218212385011_2_alg».proof.Proof.FrB.Assembly

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the second layer finds -/

theorem Vr1_main_v0 (c : Dev nD) : Vr1 m c main_v0 = (dat0 (Vr0 m) c).arrAt 3 cfg0.N := E1_arr m c 3
theorem Vr1_main_arg4 (c : Dev nD) : Vr1 m c main_arg4 = m ((c : Thread nD τ).loc main_arg4) :=
  (E1_of_ne m c main_arg4 (by decide)).trans rfl
theorem Vr1_main_arg2 (c : Dev nD) : Vr1 m c main_arg2 = m ((c : Thread nD τ).loc main_arg2) :=
  (E1_of_ne m c main_arg2 (by decide)).trans rfl

/-! ## The last boundary at the arguments and at the result -/

theorem E2_main_arg0 (c : Dev nD) : E2 m c (Proc.devRef .tc main_arg0) = m ((c : Thread nD τ).loc main_arg0) :=
  calc E2 m c (Proc.devRef .tc main_arg0)
    _ = E1 m c (Proc.devRef .tc main_arg0) := E2_of_ne m c main_arg0 (by decide)
    _ = E0 m c (Proc.devRef .tc main_arg0) := (E1_arr m c 1).trans (((dat0 (Vr0 m) c).arrAt_in 1 rfl _).trans (A_eq0 (Vr0 m) c 1))
    _ = m ((c : Thread nD τ).loc main_arg0) := rfl
theorem E2_main_arg1 (c : Dev nD) : E2 m c (Proc.devRef .tc main_arg1) = m ((c : Thread nD τ).loc main_arg1) :=
  calc E2 m c (Proc.devRef .tc main_arg1)
    _ = E1 m c (Proc.devRef .tc main_arg1) := E2_of_ne m c main_arg1 (by decide)
    _ = E0 m c (Proc.devRef .tc main_arg1) := (E1_arr m c 2).trans (((dat0 (Vr0 m) c).arrAt_in 2 rfl _).trans (A_eq0 (Vr0 m) c 2))
    _ = m ((c : Thread nD τ).loc main_arg1) := rfl
theorem E2_main_arg3 (c : Dev nD) : E2 m c (Proc.devRef .tc main_arg3) = m ((c : Thread nD τ).loc main_arg3) :=
  calc E2 m c (Proc.devRef .tc main_arg3)
    _ = E1 m c (Proc.devRef .tc main_arg3) := E2_of_ne m c main_arg3 (by decide)
    _ = E0 m c (Proc.devRef .tc main_arg3) := (E1_arr m c 0).trans (((dat0 (Vr0 m) c).arrAt_in 0 rfl _).trans (A_eq0 (Vr0 m) c 0))
    _ = m ((c : Thread nD τ).loc main_arg3) := rfl
theorem E2_main_arg4 (c : Dev nD) : E2 m c (Proc.devRef .tc main_arg4) = m ((c : Thread nD τ).loc main_arg4) :=
  calc E2 m c (Proc.devRef .tc main_arg4)
    _ = E1 m c (Proc.devRef .tc main_arg4) := (E2_arr m c 0).trans (((dat1 (Vr1 m) c).arrAt_in 0 rfl _).trans (A_eq1 (Vr1 m) c 0))
    _ = m ((c : Thread nD τ).loc main_arg4) := Vr1_main_arg4 m c
theorem E2_main_arg2 (c : Dev nD) : E2 m c (Proc.devRef .tc main_arg2) = m ((c : Thread nD τ).loc main_arg2) :=
  calc E2 m c (Proc.devRef .tc main_arg2)
    _ = E1 m c (Proc.devRef .tc main_arg2) := (E2_arr m c 2).trans (((dat1 (Vr1 m) c).arrAt_in 2 rfl _).trans (A_eq1 (Vr1 m) c 2))
    _ = m ((c : Thread nD τ).loc main_arg2) := Vr1_main_arg2 m c
theorem E2_main_v1 (c : Dev nD) : E2 m c (Proc.devRef .tc main_v1) = (dat1 (Vr1 m) c).arrAt 3 cfg1.N := E2_arr m c 3

/-! ## The two runs the claims take -/

/-- The run with the result named: the result buffer ends at the second pipeline's output array, each argument as launched. -/
theorem run_result : θ_run defs (onTc (τ := τ) (main (F := F))) ⟨m, fun _ => 0, ρ⟩ (fun r => ∀ c : Dev nD,
      r.2.mem ((c.tc : Thread nD τ).loc main_v1) = (dat1 (Vr1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v1 (by decide))).trans (E2_main_v1 m c),
     (h c _ (mem_uc main_arg0 (by decide))).trans (E2_main_arg0 m c),
     (h c _ (mem_uc main_arg1 (by decide))).trans (E2_main_arg1 m c),
     (h c _ (mem_uc main_arg2 (by decide))).trans (E2_main_arg2 m c),
     (h c _ (mem_uc main_arg3 (by decide))).trans (E2_main_arg3 m c),
     (h c _ (mem_uc main_arg4 (by decide))).trans (E2_main_arg4 m c)⟩) (run_all m ρ)

/-- The frame: every execution terminates without a fault and each argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_result m ρ)

end Cert.Kernel.Fr

end
-- ==== Proof.FrI.Runs0.lean ====
/-
  The first aggregation layer's grid is 4 row blocks by 32 column tiles; the body runs in one of three ways
  according to the tile number k: at k = 0 it clears the running total before adding the tile's product, at
  0 < k < 31 it only adds, at k = 31 it adds and then writes the finished block relu(total . W2^T) into the output
  window. This module fixes what the three runs are stated over: the two tests on k decided over the grid,
  where the output window is idle, the staging memrefs at a point, the block of an operand at a point, and the
  region's resting invariant with the running total's buffer named.
-/
import proofs.«169439_j52218212385011_2_alg».proof.Proof.Gen.KernelIdeal.Launch
import proofs.«169439_j52218212385011_2_alg».proof.Proof.Gen.KernelIdeal.Skeleton
import proofs.«169439_j52218212385011_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the region finds them, per core
variable (V : (c : Dev nD) → (b : Ref sig .tc) → Buf (Elt F) ((c : Thread nD τ).loc b))

/-! ## An operand's block at a point -/

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The mask tile's staging buffer holds the tile at every point. -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- The feature tile's staging buffer holds the tile at every point. -/
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
/-- The weight's staging buffer holds the whole weight at every point, though fetched only once. -/
theorem held0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The two tests on the tile number -/

/-- "k = 0", as the body computes it. -/
abbrev isFirst0 (i : grid0.Coords) : Prop := (Scalar.cmpi .ne (Scalar.extui (Scalar.cmpi .eq (BitVec.ofNat 32 (i 1).val) 0#32)) 0#32) = 1#1
theorem isFirst0_iff : ∀ t : Fin cfg0.N, isFirst0 (grid0.coords t) ↔ t.val % 32 = 0 :=
  (by decide +kernel : ∀ t : Fin grid0.N, isFirst0 (grid0.coords t) ↔ t.val % 32 = 0)
/-- "k = 31", as the body computes it. -/
abbrev isLast0 (i : grid0.Coords) : Prop := k0_cond2 i = 1#1
theorem isLast0_iff : ∀ t : Fin cfg0.N, isLast0 (grid0.coords t) ↔ t.val % 32 = 31 :=
  (by decide +kernel : ∀ t : Fin grid0.N, isLast0 (grid0.coords t) ↔ t.val % 32 = 31)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Off the last tile the output window is idle and not written back. -/
theorem idle0_3 : ∀ t : Fin cfg0.N, ¬isLast0 (grid0.coords t) → cfg0.idle 3 (grid0.coords t) = true := by decide +kernel
theorem noFlush0_3 : ∀ t : Fin cfg0.N, ¬isLast0 (grid0.coords t) → (cfg0.win 3).flush t = false := by decide +kernel
/-- On the last tile it is live. -/
theorem live0_3 : ∀ t : Fin cfg0.N, isLast0 (grid0.coords t) → cfg0.idle 3 (grid0.coords t) = false := by decide +kernel

/-! ## The memrefs the body is called with -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x256 .bf16 := win0_3.stage (cfg0.slots t 3)
abbrev hs0_3 (t : Fin cfg0.N) : (ms0_3 t).IsWhole := hstage0_3 ((cfg0.slots t 3).cast nbuf0_3)
/-- The running total's buffer. -/
abbrev acc0 : Memref sig .tc .vmem S2048x512 .f32 := Memref.whole cc0_scratch0
abbrev accV0 : View sig .tc .vmem S2048x512 .f32 := acc0.view
/-- One staging buffer of the output window, through which its contents are stated. -/
abbrev outV0 : View sig .tc .vmem S2048x256 .bf16 := (Memref.whole cc0_stg3_0 : Memref sig .tc .vmem S2048x256 .bf16).view

/-! ## The resting invariant with the running total's buffer named -/

/-- The other region's scoped buffers, each whole at some contents: they ride along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

theorem rest0_eq (c : Dev nD) :
    (Pipeline.ΦA spec0 c : sProp 𝕄)
      = iprop(((∃ d, owns (c : Thread nD τ) acc0 fullShare d) ∗ others0 (F := F) c) ∗ (∃ r, prngReg c r)) := by
  unfold Pipeline.ΦA others0; rw [scopedRest0_eq]; simp only [acc0, owns_whole]; try rfl

end Cert.KernelIdeal.Fr

end
-- ==== Proof.FrI.Run0A.lean ====
/-
  The body at the first tile of a row block (k = 0): the running total's buffer, whatever it held, is overwritten
  with zeros and then with zeros plus the tile's product; the mask tile, the feature tile and the weight are only read;
  the output window's buffer is not touched. The pieces the total's buffer ends with are found by running the body.
-/
import proofs.«169439_j52218212385011_2_alg».proof.Proof.FrI.Runs0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first-tile run: the list of pieces written into the running total's buffer (last first), with the proof that the
    body, started with its three inputs at x0, x1, x2, the output window at xi3 and the total's buffer at anything,
    reaches its continuation with the inputs and the output window as they were and the total's buffer with those pieces
    written. -/
noncomputable def runFirst0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : isFirst0 i) (hc1 : ¬isLast0 i)
    (x0 : Vec F S2048x1024 .f32) (x1 : Vec F S1024x512 .f32) (x2 : Vec F S256x512 .f32) :
    Σ' (L3 : List (View.Piece (Elt F) S2048x256 .bf16)), { LS : List (View.Piece (Elt F) S2048x512 .f32) //
      ∀ (xi3 : Vec F S2048x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__agg2_kernel i arg2 harg2 arg3 harg3 arg4 harg4 arg5 harg5 arg6 harg6) K } := by
  refine ⟨[], ?_, fun xi3 E K => ?run⟩
  case run =>
    simp only [cc0__agg2_kernel_eq_skeleton]; unfold cc0__agg2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Fr

end
-- ==== Proof.FrI.Run0B.lean ====
/-
  The body at a middle tile (0 < k < 31): the running total's buffer, holding xs, is overwritten with xs plus the tile's
  product; the three inputs are only read; the output window's buffer is not touched.
-/
import proofs.«169439_j52218212385011_2_alg».proof.Proof.FrI.Run0A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The middle-tile run: the pieces written into the running total's buffer (last first), with the proof that the body,
    started with its inputs at x0, x1, x2, the output window at xi3 and the total's buffer at xs, reaches its continuation
    with the inputs and the output window as they were and the total's buffer with those pieces written. -/
noncomputable def runMid0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : ¬isFirst0 i) (hc1 : ¬isLast0 i)
    (x0 : Vec F S2048x1024 .f32) (x1 : Vec F S1024x512 .f32) (x2 : Vec F S256x512 .f32) (xs : Vec F S2048x512 .f32) :
    Σ' (L3 : List (View.Piece (Elt F) S2048x256 .bf16)), { LS : List (View.Piece (Elt F) S2048x512 .f32) //
      ∀ (xi3 : Vec F S2048x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__agg2_kernel i arg2 harg2 arg3 harg3 arg4 harg4 arg5 harg5 arg6 harg6) K } := by
  refine ⟨[], ?_, fun xi3 E K => ?run⟩
  case run =>
    simp only [cc0__agg2_kernel_eq_skeleton]; unfold cc0__agg2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Fr

end
-- ==== Proof.FrI.Run0C.lean ====
/-
  The body at the last tile (k = 31): the running total's buffer, holding xs, is overwritten with xs plus the tile's
  product, and the output window's buffer, whatever it held, with relu(total . W2^T); the three inputs are only read.
-/
import proofs.«169439_j52218212385011_2_alg».proof.Proof.FrI.Run0B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last-tile run: the pieces written into the output window's buffer and into the running total's buffer (last first),
    with the proof that the body, started with its inputs at x0, x1, x2, the output window at anything and the total's buffer at
    xs, reaches its continuation with the inputs as they were and both buffers with their pieces written. -/
noncomputable def runLast0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : ¬isFirst0 i) (hc1 : isLast0 i)
    (x0 : Vec F S2048x1024 .f32) (x1 : Vec F S1024x512 .f32) (x2 : Vec F S256x512 .f32) (xs : Vec F S2048x512 .f32) :
    Σ' (L3 : List (View.Piece (Elt F) S2048x256 .bf16)), { LS : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__agg2_kernel i arg2 harg2 arg3 harg3 arg4 harg4 arg5 harg5 arg6 harg6) K } := by
  refine ⟨?_, ?_, fun E K => ?run⟩
  case run =>
    simp only [cc0__agg2_kernel_eq_skeleton]; unfold cc0__agg2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Fr

end
-- ==== Proof.FrI.Frame0.lean ====
/-
  The first aggregation layer, point by point. After the body at point t the running total's buffer holds: at the first
  tile of a row block the tile's product added to zero, at every other tile the tile's product added to what the point
  before left; the output window's buffer holds, at the last tile, relu(total . W2^T) and is otherwise untouched. These are
  stated as the read-back of the pieces each run wrote. From them: the state after each point by recursion on the point,
  the region's invariant (before the first point anything; afterwards the total's buffer at the state's total), the proof
  data, and the body's obligation at every point by the three runs.
-/
import proofs.«169439_j52218212385011_2_alg».proof.Proof.FrI.Run0C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each run leaves -/

/-- The first-tile run's pieces cover the running total's buffer. -/
theorem accCover_first0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : isFirst0 i) (hc1 : ¬isLast0 i)
    (x0 : Vec F S2048x1024 .f32) (x1 : Vec F S1024x512 .f32) (x2 : Vec F S256x512 .f32) (y : S2048x512.Idx) :
    ∃ pc ∈ (runFirst0 c i arg2 harg2 arg3 harg3 arg4 harg4 arg5 harg5 arg6 harg6 hc0 hc1 x0 x1 x2).2.1, y ∈ pc.1.set :=
  View.cover_of_tiledL (runFirst0 c i arg2 harg2 arg3 harg3 arg4 harg4 arg5 harg5 arg6 harg6 hc0 hc1 x0 x1 x2).2.1 S2048x512.size (by sl_kernel_rfl) y
/-- The total after a first tile. -/
def accFirst0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : isFirst0 i) (hc1 : ¬isLast0 i)
    (x0 : Vec F S2048x1024 .f32) (x1 : Vec F S1024x512 .f32) (x2 : Vec F S256x512 .f32) : Vec F S2048x512 .f32 :=
  accV0.read (Elt F) (accV0.writes (Elt F) accV0.junk (runFirst0 c i arg2 harg2 arg3 harg3 arg4 harg4 arg5 harg5 arg6 harg6 hc0 hc1 x0 x1 x2).2.1)

theorem accCover_mid0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : ¬isFirst0 i) (hc1 : ¬isLast0 i)
    (x0 : Vec F S2048x1024 .f32) (x1 : Vec F S1024x512 .f32) (x2 : Vec F S256x512 .f32) (xs : Vec F S2048x512 .f32) (y : S2048x512.Idx) :
    ∃ pc ∈ (runMid0 c i arg2 harg2 arg3 harg3 arg4 harg4 arg5 harg5 arg6 harg6 hc0 hc1 x0 x1 x2 xs).2.1, y ∈ pc.1.set :=
  View.cover_of_tiledL (runMid0 c i arg2 harg2 arg3 harg3 arg4 harg4 arg5 harg5 arg6 harg6 hc0 hc1 x0 x1 x2 xs).2.1 S2048x512.size (by sl_kernel_rfl) y
/-- The total after a middle tile, over the total xs before it. -/
def accMid0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : ¬isFirst0 i) (hc1 : ¬isLast0 i)
    (x0 : Vec F S2048x1024 .f32) (x1 : Vec F S1024x512 .f32) (x2 : Vec F S256x512 .f32) (xs : Vec F S2048x512 .f32) : Vec F S2048x512 .f32 :=
  accV0.read (Elt F) (accV0.writes (Elt F) accV0.junk (runMid0 c i arg2 harg2 arg3 harg3 arg4 harg4 arg5 harg5 arg6 harg6 hc0 hc1 x0 x1 x2 xs).2.1)

theorem accCover_last0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : ¬isFirst0 i) (hc1 : isLast0 i)
    (x0 : Vec F S2048x1024 .f32) (x1 : Vec F S1024x512 .f32) (x2 : Vec F S256x512 .f32) (xs : Vec F S2048x512 .f32) (y : S2048x512.Idx) :
    ∃ pc ∈ (runLast0 c i arg2 harg2 arg3 harg3 arg4 harg4 arg5 harg5 arg6 harg6 hc0 hc1 x0 x1 x2 xs).2.1, y ∈ pc.1.set :=
  View.cover_of_tiledL (runLast0 c i arg2 harg2 arg3 harg3 arg4 harg4 arg5 harg5 arg6 harg6 hc0 hc1 x0 x1 x2 xs).2.1 S2048x512.size (by sl_kernel_rfl) y
/-- The total after a last tile, over the total xs before it. -/
def accLast0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : ¬isFirst0 i) (hc1 : isLast0 i)
    (x0 : Vec F S2048x1024 .f32) (x1 : Vec F S1024x512 .f32) (x2 : Vec F S256x512 .f32) (xs : Vec F S2048x512 .f32) : Vec F S2048x512 .f32 :=
  accV0.read (Elt F) (accV0.writes (Elt F) accV0.junk (runLast0 c i arg2 harg2 arg3 harg3 arg4 harg4 arg5 harg5 arg6 harg6 hc0 hc1 x0 x1 x2 xs).2.1)
theorem outCover_last0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : ¬isFirst0 i) (hc1 : isLast0 i)
    (x0 : Vec F S2048x1024 .f32) (x1 : Vec F S1024x512 .f32) (x2 : Vec F S256x512 .f32) (xs : Vec F S2048x512 .f32) (y : S2048x256.Idx) :
    ∃ pc ∈ (runLast0 c i arg2 harg2 arg3 harg3 arg4 harg4 arg5 harg5 arg6 harg6 hc0 hc1 x0 x1 x2 xs).1, y ∈ pc.1.set :=
  View.cover_of_tiledL (runLast0 c i arg2 harg2 arg3 harg3 arg4 harg4 arg5 harg5 arg6 harg6 hc0 hc1 x0 x1 x2 xs).1 S2048x256.size (by sl_kernel_rfl) y
/-- The finished output block a last tile writes. -/
def outLast0 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : ¬isFirst0 i) (hc1 : isLast0 i)
    (x0 : Vec F S2048x1024 .f32) (x1 : Vec F S1024x512 .f32) (x2 : Vec F S256x512 .f32) (xs : Vec F S2048x512 .f32) : Vec F S2048x256 .bf16 :=
  outV0.read (Elt F) (outV0.writes (Elt F) outV0.junk (runLast0 c i arg2 harg2 arg3 harg3 arg4 harg4 arg5 harg5 arg6 harg6 hc0 hc1 x0 x1 x2 xs).1)

/-- Placeholders: the output window where it is idle (nothing consults it), the total before the very first point. -/
def idleOut0 : Vec F S2048x256 .bf16 := outV0.read (Elt F) outV0.junk
def noAcc0 : Vec F S2048x512 .f32 := accV0.read (Elt F) accV0.junk

/-! ## The state point by point -/

/-- One point's step: the output window's buffer and the running total after the body at t, given the total before it. -/
def stepAt0 (c : Dev nD) (t : Fin cfg0.N) (prev : Vec F S2048x512 .f32) : Vec F S2048x256 .bf16 × Vec F S2048x512 .f32 :=
  if h0 : t.val % 32 = 0 then
    if h1 : t.val % 32 = 31 then (idleOut0, prev)
    else (idleOut0, accFirst0 c (grid0.coords t) (ms0_0 t) (hs0_0 t) (ms0_1 t) (hs0_1 t) (ms0_2 t) (hs0_2 t) (ms0_3 t) (hs0_3 t) acc0 (Memref.isWhole_whole _) ((isFirst0_iff t).mpr h0) (fun h => h1 ((isLast0_iff t).mp h)) (blk0 V c 0 t) (blk0 V c 1 t) (blk0 V c 2 t))
  else
    if h1 : t.val % 32 = 31 then
      (outLast0 c (grid0.coords t) (ms0_0 t) (hs0_0 t) (ms0_1 t) (hs0_1 t) (ms0_2 t) (hs0_2 t) (ms0_3 t) (hs0_3 t) acc0 (Memref.isWhole_whole _) (fun h => h0 ((isFirst0_iff t).mp h)) ((isLast0_iff t).mpr h1) (blk0 V c 0 t) (blk0 V c 1 t) (blk0 V c 2 t) prev,
       accLast0 c (grid0.coords t) (ms0_0 t) (hs0_0 t) (ms0_1 t) (hs0_1 t) (ms0_2 t) (hs0_2 t) (ms0_3 t) (hs0_3 t) acc0 (Memref.isWhole_whole _) (fun h => h0 ((isFirst0_iff t).mp h)) ((isLast0_iff t).mpr h1) (blk0 V c 0 t) (blk0 V c 1 t) (blk0 V c 2 t) prev)
    else (idleOut0, accMid0 c (grid0.coords t) (ms0_0 t) (hs0_0 t) (ms0_1 t) (hs0_1 t) (ms0_2 t) (hs0_2 t) (ms0_3 t) (hs0_3 t) acc0 (Memref.isWhole_whole _) (fun h => h0 ((isFirst0_iff t).mp h)) (fun h => h1 ((isLast0_iff t).mp h)) (blk0 V c 0 t) (blk0 V c 1 t) (blk0 V c 2 t) prev)

/-- The state after the body at position n: the steps folded from the first point. -/
def stateAt0 (c : Dev nD) : (n : ℕ) → n < cfg0.N → Vec F S2048x256 .bf16 × Vec F S2048x512 .f32
  | 0, hn => stepAt0 V c ⟨0, hn⟩ noAcc0
  | n + 1, hn => stepAt0 V c ⟨n + 1, hn⟩ (stateAt0 c n (Nat.lt_of_succ_lt hn)).2

/-- The total before a point that is not the first of all. -/
abbrev prevAcc0 (c : Dev nD) (t : Fin cfg0.N) : Vec F S2048x512 .f32 :=
  (stateAt0 V c (t.val - 1) (Nat.lt_of_le_of_lt (Nat.sub_le _ _) t.isLt)).2

theorem stateAt0_pos (c : Dev nD) (t : Fin cfg0.N) (hz : t.val ≠ 0) :
    stateAt0 V c t.val t.isLt = stepAt0 V c t (prevAcc0 V c t) := by
  obtain ⟨n, hn⟩ := t
  cases n with
  | zero => exact absurd rfl hz
  | succ n => rfl

theorem stepAt0_first (c : Dev nD) (t : Fin cfg0.N) (prev : Vec F S2048x512 .f32) (h0 : t.val % 32 = 0) (h1 : ¬t.val % 32 = 31) :
    stepAt0 V c t prev = (idleOut0, accFirst0 c (grid0.coords t) (ms0_0 t) (hs0_0 t) (ms0_1 t) (hs0_1 t) (ms0_2 t) (hs0_2 t) (ms0_3 t) (hs0_3 t) acc0 (Memref.isWhole_whole _) ((isFirst0_iff t).mpr h0) (fun h => h1 ((isLast0_iff t).mp h)) (blk0 V c 0 t) (blk0 V c 1 t) (blk0 V c 2 t)) := by
  unfold stepAt0; rw [dif_pos h0, dif_neg h1]
theorem stepAt0_mid (c : Dev nD) (t : Fin cfg0.N) (prev : Vec F S2048x512 .f32) (h0 : ¬t.val % 32 = 0) (h1 : ¬t.val % 32 = 31) :
    stepAt0 V c t prev = (idleOut0, accMid0 c (grid0.coords t) (ms0_0 t) (hs0_0 t) (ms0_1 t) (hs0_1 t) (ms0_2 t) (hs0_2 t) (ms0_3 t) (hs0_3 t) acc0 (Memref.isWhole_whole _) (fun h => h0 ((isFirst0_iff t).mp h)) (fun h => h1 ((isLast0_iff t).mp h)) (blk0 V c 0 t) (blk0 V c 1 t) (blk0 V c 2 t) prev) := by
  unfold stepAt0; rw [dif_neg h0, dif_neg h1]
theorem stepAt0_last (c : Dev nD) (t : Fin cfg0.N) (prev : Vec F S2048x512 .f32) (h0 : ¬t.val % 32 = 0) (h1 : t.val % 32 = 31) :
    stepAt0 V c t prev =
      (outLast0 c (grid0.coords t) (ms0_0 t) (hs0_0 t) (ms0_1 t) (hs0_1 t) (ms0_2 t) (hs0_2 t) (ms0_3 t) (hs0_3 t) acc0 (Memref.isWhole_whole _) (fun h => h0 ((isFirst0_iff t).mp h)) ((isLast0_iff t).mpr h1) (blk0 V c 0 t) (blk0 V c 1 t) (blk0 V c 2 t) prev,
       accLast0 c (grid0.coords t) (ms0_0 t) (hs0_0 t) (ms0_1 t) (hs0_1 t) (ms0_2 t) (hs0_2 t) (ms0_3 t) (hs0_3 t) acc0 (Memref.isWhole_whole _) (fun h => h0 ((isFirst0_iff t).mp h)) ((isLast0_iff t).mpr h1) (blk0 V c 0 t) (blk0 V c 1 t) (blk0 V c 2 t) prev) := by
  unfold stepAt0; rw [dif_neg h0, dif_pos h1]

theorem stateAt0_first (c : Dev nD) (t : Fin cfg0.N) (h0 : t.val % 32 = 0) (h1 : ¬t.val % 32 = 31) :
    stateAt0 V c t.val t.isLt = (idleOut0, accFirst0 c (grid0.coords t) (ms0_0 t) (hs0_0 t) (ms0_1 t) (hs0_1 t) (ms0_2 t) (hs0_2 t) (ms0_3 t) (hs0_3 t) acc0 (Memref.isWhole_whole _) ((isFirst0_iff t).mpr h0) (fun h => h1 ((isLast0_iff t).mp h)) (blk0 V c 0 t) (blk0 V c 1 t) (blk0 V c 2 t)) := by
  obtain ⟨n, hn⟩ := t
  cases n with
  | zero => exact stepAt0_first V c ⟨0, hn⟩ _ h0 h1
  | succ n => exact stepAt0_first V c ⟨n + 1, hn⟩ _ h0 h1

theorem stateAt0_mid (c : Dev nD) (t : Fin cfg0.N) (h0 : ¬t.val % 32 = 0) (h1 : ¬t.val % 32 = 31) :
    stateAt0 V c t.val t.isLt = (idleOut0, accMid0 c (grid0.coords t) (ms0_0 t) (hs0_0 t) (ms0_1 t) (hs0_1 t) (ms0_2 t) (hs0_2 t) (ms0_3 t) (hs0_3 t) acc0 (Memref.isWhole_whole _) (fun h => h0 ((isFirst0_iff t).mp h)) (fun h => h1 ((isLast0_iff t).mp h)) (blk0 V c 0 t) (blk0 V c 1 t) (blk0 V c 2 t) (prevAcc0 V c t)) := by
  rw [stateAt0_pos V c t (fun hz => h0 (by rw [hz]))]
  exact stepAt0_mid V c t _ h0 h1

theorem stateAt0_last (c : Dev nD) (t : Fin cfg0.N) (h0 : ¬t.val % 32 = 0) (h1 : t.val % 32 = 31) :
    stateAt0 V c t.val t.isLt =
      (outLast0 c (grid0.coords t) (ms0_0 t) (hs0_0 t) (ms0_1 t) (hs0_1 t) (ms0_2 t) (hs0_2 t) (ms0_3 t) (hs0_3 t) acc0 (Memref.isWhole_whole _) (fun h => h0 ((isFirst0_iff t).mp h)) ((isLast0_iff t).mpr h1) (blk0 V c 0 t) (blk0 V c 1 t) (blk0 V c 2 t) (prevAcc0 V c t),
       accLast0 c (grid0.coords t) (ms0_0 t) (hs0_0 t) (ms0_1 t) (hs0_1 t) (ms0_2 t) (hs0_2 t) (ms0_3 t) (hs0_3 t) acc0 (Memref.isWhole_whole _) (fun h => h0 ((isFirst0_iff t).mp h)) ((isLast0_iff t).mpr h1) (blk0 V c 0 t) (blk0 V c 1 t) (blk0 V c 2 t) (prevAcc0 V c t)) := by
  rw [stateAt0_pos V c t (fun hz => h0 (by rw [hz]))]
  exact stepAt0_last V c t _ h0 h1

/-! ## The region's invariant -/

/-- Before position n: at the start the resting invariant; afterwards the same with the running total's buffer at what
    the point before left in it. -/
def inv0 (c : Dev nD) : (n : ℕ) → n ≤ cfg0.N → sProp 𝕄
  | 0, _ => Pipeline.ΦA spec0 c
  | n + 1, hn => iprop((owns (c : Thread nD τ) acc0 fullShare ((stateAt0 V c n hn).2) ∗ others0 (F := F) c) ∗ (∃ r, prngReg c r))

theorem inv0_zero (c : Dev nD) (n : ℕ) (h : n ≤ cfg0.N) (hz : n = 0) : inv0 V c n h = Pipeline.ΦA spec0 c := by
  subst hz; rfl
theorem inv0_succ (c : Dev nD) (n : ℕ) (hn : n < cfg0.N) :
    inv0 V c (n + 1) hn = iprop((owns (c : Thread nD τ) acc0 fullShare ((stateAt0 V c n hn).2) ∗ others0 (F := F) c) ∗ (∃ r, prngReg c r)) := rfl
theorem inv0_pos (c : Dev nD) (n : ℕ) (h : n ≤ cfg0.N) (hz : n ≠ 0) :
    inv0 V c n h = iprop((owns (c : Thread nD τ) acc0 fullShare ((stateAt0 V c (n - 1) (by omega)).2) ∗ others0 (F := F) c) ∗ (∃ r, prngReg c r)) := by
  cases n with
  | zero => exact absurd rfl hz
  | succ n => rfl

/-! ## The proof data -/

/-- The pipeline's proof data on core c: the arrays as found; after the body each input's buffer at its block and the
    output window's at the state's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => (stateAt0 V c t.val t.isLt).1
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem inv0_castSucc (c : Dev nD) (t : Fin cfg0.N) :
    (dat0 V c).Φ t.castSucc = inv0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = (stateAt0 V c t.val t.isLt).1 := by dsimp only [dat0]
theorem before0_0 (c : Dev nD) (t : Fin cfg0.N) (d) : (dat0 V c).before 0 t d = blk0 V c 0 t :=
  held0_0 V (dat0 V c) (A_eq0 V c 0) (after0_0 V c) t d
theorem before0_1 (c : Dev nD) (t : Fin cfg0.N) (d) : (dat0 V c).before 1 t d = blk0 V c 1 t :=
  held0_1 V (dat0 V c) (A_eq0 V c 1) (after0_1 V c) t d
theorem before0_2 (c : Dev nD) (t : Fin cfg0.N) (d) : (dat0 V c).before 2 t d = blk0 V c 2 t :=
  held0_2 V (dat0 V c) (A_eq0 V c 2) (after0_2 V c) t d

/-! ## The body's obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the three inputs' buffers hold their blocks; the tile number says which run applies; the invariant
    hands the body the running total at what the point before left (at anything at the very first point) and takes it back
    at this point's total; an idle output window is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = inv0 V c (t.val + 1) t.isLt from rfl, inv0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  have hN : t.val < 128 := lt_of_lt_of_eq t.isLt (show cfg0.N = 128 from N_0)
  by_cases h1 : t.val % 32 = 31
  · have h0 : ¬t.val % 32 = 0 := by omega
    have hz : t.val ≠ 0 := by omega
    rw [show (dat0 V c).leavesExact 3 t = owns (c : Thread nD τ) (ms0_3 t) fullShare ((dat0 V c).after 3 t) from by
      unfold Dat.leavesExact; rw [live0_3 t ((isLast0_iff t).mpr h1)], after0_3]
    rw [stateAt0_last V c t h0 h1]
    unfold outLast0 accLast0; (try dsimp only)
    rw [inv0_castSucc V c t, inv0_pos V c _ _ hz]
    iintro ⟨⟨⟨HS, Hoth⟩, Hg⟩, Ho, ⟨%d0, H0⟩, ⟨%d1, H1⟩, ⟨%d2, H2⟩, ⟨%d3, H3⟩⟩
    iapply ((runLast0 c (grid0.coords t) _ _ _ _ _ _ _ _ _ _ (fun h => h0 ((isFirst0_iff t).mp h)) ((isLast0_iff t).mpr h1) (blk0 V c 0 t) (blk0 V c 1 t) (blk0 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hoth Hg]
    · isplitl [HS Hoth]
      · isplitl [HS]
        · unfold owns; iexists _; isplitr
          swap; · iexact HS
          ipureintro; exact View.read_writes_of_cover _ _ _ _ _ (accCover_last0 c _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (outCover_last0 c _ _ _ _ _ _ _ _ _ _ _ _ _ _ _ _ _)
  · rw [Dat.leavesExact_idle (dat0 V c) 3 t (idle0_3 t (fun h => h1 ((isLast0_iff t).mp h))) (noFlush0_3 t (fun h => h1 ((isLast0_iff t).mp h)))]
    by_cases h0 : t.val % 32 = 0
    · rw [stateAt0_first V c t h0 h1]
      unfold accFirst0; (try dsimp only)
      by_cases hz : t.val = 0
      · rw [inv0_castSucc V c t, inv0_zero V c _ _ hz, rest0_eq]
        iintro ⟨⟨⟨HS, Hoth⟩, Hg⟩, Ho, ⟨%d0, H0⟩, ⟨%d1, H1⟩, ⟨%d2, H2⟩, ⟨%d3, H3⟩⟩
        iapply ((runFirst0 c (grid0.coords t) _ _ _ _ _ _ _ _ _ _ ((isFirst0_iff t).mpr h0) (fun h => h1 ((isLast0_iff t).mp h)) (blk0 V c 0 t) (blk0 V c 1 t) (blk0 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCover_first0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [inv0_castSucc V c t, inv0_pos V c _ _ hz]
        iintro ⟨⟨⟨HS, Hoth⟩, Hg⟩, Ho, ⟨%d0, H0⟩, ⟨%d1, H1⟩, ⟨%d2, H2⟩, ⟨%d3, H3⟩⟩
        iapply ((runFirst0 c (grid0.coords t) _ _ _ _ _ _ _ _ _ _ ((isFirst0_iff t).mpr h0) (fun h => h1 ((isLast0_iff t).mp h)) (blk0 V c 0 t) (blk0 V c 1 t) (blk0 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCover_first0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
    · have hz : t.val ≠ 0 := fun hz => h0 (by rw [hz])
      rw [stateAt0_mid V c t h0 h1]
      unfold accMid0; (try dsimp only)
      rw [inv0_castSucc V c t, inv0_pos V c _ _ hz]
      iintro ⟨⟨⟨HS, Hoth⟩, Hg⟩, Ho, ⟨%d0, H0⟩, ⟨%d1, H1⟩, ⟨%d2, H2⟩, ⟨%d3, H3⟩⟩
      iapply ((runMid0 c (grid0.coords t) _ _ _ _ _ _ _ _ _ _ (fun h => h0 ((isFirst0_iff t).mp h)) (fun h => h1 ((isLast0_iff t).mp h)) (blk0 V c 0 t) (blk0 V c 1 t) (blk0 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accCover_mid0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = inv0 V c 0 (Nat.zero_le _) from rfl, inv0_zero V c 0 _ rfl]
  try exact Idealize.SL.BI.Entails.refl _

/-- After the last point the invariant gives the resting invariant back: the total's named contents are forgotten. -/
theorem hout0 (c : Dev nD) : (dat0 V c).Φ (Fin.last cfg0.N) ⊢ (Pipeline.ΦA spec0 c : sProp 𝕄) := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 128 := N_0; omega), rest0_eq]
  iintro ⟨⟨HS, Hoth⟩, Hg⟩
  isplitl [HS Hoth]
  · isplitl [HS]
    · iexists _; iexact HS
    iexact Hoth
  iexact Hg

end Cert.KernelIdeal.Fr

end
-- ==== Proof.FrI.Runs1.lean ====
/-
  The second aggregation layer's grid is 2 row blocks by 4 column tiles; the body runs in one of three ways
  according to the tile number k: at k = 0 it clears the running total before adding the tile's product, at
  0 < k < 3 it only adds, at k = 3 it adds and then writes the finished block relu(total . W1^T) into the output
  window. This module fixes what the three runs are stated over: the two tests on k decided over the grid,
  where the output window is idle, the staging memrefs at a point, the block of an operand at a point, and the
  region's resting invariant with the running total's buffer named. In the list of the core's buffers that ride
  along, the total's buffer comes last; separating conjunction is commutative and associative, so the resting
  invariant is restated with the total's buffer first.
-/
import proofs.«169439_j52218212385011_2_alg».proof.Proof.Gen.KernelIdeal.Launch
import proofs.«169439_j52218212385011_2_alg».proof.Proof.Gen.KernelIdeal.Skeleton
import proofs.«169439_j52218212385011_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the region finds them, per core
variable (V : (c : Dev nD) → (b : Ref sig .tc) → Buf (Elt F) ((c : Thread nD τ).loc b))

/-! ## An operand's block at a point -/

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The mask tile's staging buffer holds the tile at every point. -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- The hidden tile's staging buffer holds the tile at every point. -/
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
/-- The weight's staging buffer holds the whole weight at every point, though fetched only once. -/
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The two tests on the tile number -/

/-- "k = 0", as the body computes it. -/
abbrev isFirst1 (i : grid1.Coords) : Prop := (Scalar.cmpi .ne (Scalar.extui (Scalar.cmpi .eq (BitVec.ofNat 32 (i 1).val) 0#32)) 0#32) = 1#1
theorem isFirst1_iff : ∀ t : Fin cfg1.N, isFirst1 (grid1.coords t) ↔ t.val % 4 = 0 :=
  (by decide +kernel : ∀ t : Fin grid1.N, isFirst1 (grid1.coords t) ↔ t.val % 4 = 0)
/-- "k = 3", as the body computes it. -/
abbrev isLast1 (i : grid1.Coords) : Prop := k1_cond2 i = 1#1
theorem isLast1_iff : ∀ t : Fin cfg1.N, isLast1 (grid1.coords t) ↔ t.val % 4 = 3 :=
  (by decide +kernel : ∀ t : Fin grid1.N, isLast1 (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Off the last tile the output window is idle and not written back. -/
theorem idle1_3 : ∀ t : Fin cfg1.N, ¬isLast1 (grid1.coords t) → cfg1.idle 3 (grid1.coords t) = true := by decide +kernel
theorem noFlush1_3 : ∀ t : Fin cfg1.N, ¬isLast1 (grid1.coords t) → (cfg1.win 3).flush t = false := by decide +kernel
/-- On the last tile it is live. -/
theorem live1_3 : ∀ t : Fin cfg1.N, isLast1 (grid1.coords t) → cfg1.idle 3 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The running total's buffer. -/
abbrev acc1 : Memref sig .tc .vmem S1024x256 .f32 := Memref.whole cc1_scratch0
abbrev accV1 : View sig .tc .vmem S1024x256 .f32 := acc1.view
/-- One staging buffer of the output window, through which its contents are stated. -/
abbrev outV1 : View sig .tc .vmem S1024x128 .f32 := (Memref.whole cc1_stg3_0 : Memref sig .tc .vmem S1024x128 .f32).view

/-! ## The resting invariant with the running total's buffer named -/

/-- The other region's scoped buffers, each whole at some contents: they ride along untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- Eight conjuncts followed by a ninth are the ninth followed by the eight. -/
theorem last_first (P1 P2 P3 P4 P5 P6 P7 P8 X : sProp 𝕄) :
    iprop(P1 ∗ P2 ∗ P3 ∗ P4 ∗ P5 ∗ P6 ∗ P7 ∗ P8 ∗ X) = iprop(X ∗ P1 ∗ P2 ∗ P3 ∗ P4 ∗ P5 ∗ P6 ∗ P7 ∗ P8) := by
  have h₁ : iprop(P1 ∗ P2 ∗ P3 ∗ P4 ∗ P5 ∗ P6 ∗ P7 ∗ P8 ∗ X) ⊢ iprop(X ∗ P1 ∗ P2 ∗ P3 ∗ P4 ∗ P5 ∗ P6 ∗ P7 ∗ P8) := by
    iintro ⟨H1, H2, H3, H4, H5, H6, H7, H8, HX⟩
    isplitl [HX]; · iexact HX
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  have h₂ : iprop(X ∗ P1 ∗ P2 ∗ P3 ∗ P4 ∗ P5 ∗ P6 ∗ P7 ∗ P8) ⊢ iprop(P1 ∗ P2 ∗ P3 ∗ P4 ∗ P5 ∗ P6 ∗ P7 ∗ P8 ∗ X) := by
    iintro ⟨HX, H1, H2, H3, H4, H5, H6, H7, H8⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HX
  exact Idealize.SL.BI.equiv_iff.mp ⟨h₁, h₂⟩

theorem rest1_eq (c : Dev nD) :
    (Pipeline.ΦA spec1 c : sProp 𝕄)
      = iprop(((∃ d, owns (c : Thread nD τ) acc1 fullShare d) ∗ others1 (F := F) c) ∗ (∃ r, prngReg c r)) := by
  unfold Pipeline.ΦA others1; rw [scopedRest1_eq, last_first]; simp only [acc1, owns_whole]; try rfl

end Cert.KernelIdeal.Fr

end
-- ==== Proof.FrI.Run1A.lean ====
/-
  The body at the first tile of a row block (k = 0): the running total's buffer, whatever it held, is overwritten
  with zeros and then with zeros plus the tile's product; the mask tile, the hidden tile and the weight are only read;
  the output window's buffer is not touched. The pieces the total's buffer ends with are found by running the body.
-/
import proofs.«169439_j52218212385011_2_alg».proof.Proof.FrI.Runs1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first-tile run: the list of pieces written into the running total's buffer (last first), with the proof that the
    body, started with its three inputs at x0, x1, x2, the output window at xi3 and the total's buffer at anything,
    reaches its continuation with the inputs and the output window as they were and the total's buffer with those pieces
    written. -/
noncomputable def runFirst1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : isFirst1 i) (hc1 : ¬isLast1 i)
    (x0 : Vec F S1024x2048 .f32) (x1 : Vec F S2048x256 .bf16) (x2 : Vec F S128x256 .f32) :
    Σ' (L3 : List (View.Piece (Elt F) S1024x128 .f32)), { LS : List (View.Piece (Elt F) S1024x256 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__agg1_kernel i arg2 harg2 arg3 harg3 arg4 harg4 arg5 harg5 arg6 harg6) K } := by
  refine ⟨[], ?_, fun xi3 E K => ?run⟩
  case run =>
    simp only [cc1__agg1_kernel_eq_skeleton]; unfold cc1__agg1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Fr

end
-- ==== Proof.FrI.Run1B.lean ====
/-
  The body at a middle tile (0 < k < 3): the running total's buffer, holding xs, is overwritten with xs plus the tile's
  product; the three inputs are only read; the output window's buffer is not touched.
-/
import proofs.«169439_j52218212385011_2_alg».proof.Proof.FrI.Run1A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The middle-tile run: the pieces written into the running total's buffer (last first), with the proof that the body,
    started with its inputs at x0, x1, x2, the output window at xi3 and the total's buffer at xs, reaches its continuation
    with the inputs and the output window as they were and the total's buffer with those pieces written. -/
noncomputable def runMid1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : ¬isFirst1 i) (hc1 : ¬isLast1 i)
    (x0 : Vec F S1024x2048 .f32) (x1 : Vec F S2048x256 .bf16) (x2 : Vec F S128x256 .f32) (xs : Vec F S1024x256 .f32) :
    Σ' (L3 : List (View.Piece (Elt F) S1024x128 .f32)), { LS : List (View.Piece (Elt F) S1024x256 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__agg1_kernel i arg2 harg2 arg3 harg3 arg4 harg4 arg5 harg5 arg6 harg6) K } := by
  refine ⟨[], ?_, fun xi3 E K => ?run⟩
  case run =>
    simp only [cc1__agg1_kernel_eq_skeleton]; unfold cc1__agg1_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Fr

end
-- ==== Proof.FrI.Run1C.lean ====
/-
  The body at the last tile (k = 3): the running total's buffer, holding xs, is overwritten with xs plus the tile's
  product, and the output window's buffer, whatever it held, with relu(total . W1^T); the three inputs are only read.
-/
import proofs.«169439_j52218212385011_2_alg».proof.Proof.FrI.Run1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last-tile run: the pieces written into the output window's buffer and into the running total's buffer (last first),
    with the proof that the body, started with its inputs at x0, x1, x2, the output window at anything and the total's buffer at
    xs, reaches its continuation with the inputs as they were and both buffers with their pieces written. -/
noncomputable def runLast1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : ¬isFirst1 i) (hc1 : isLast1 i)
    (x0 : Vec F S1024x2048 .f32) (x1 : Vec F S2048x256 .bf16) (x2 : Vec F S128x256 .f32) (xs : Vec F S1024x256 .f32) :
    Σ' (L3 : List (View.Piece (Elt F) S1024x128 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__agg1_kernel i arg2 harg2 arg3 harg3 arg4 harg4 arg5 harg5 arg6 harg6) K } := by
  refine ⟨?_, ?_, fun E K => ?run⟩
  case run =>
    simp only [cc1__agg1_kernel_eq_skeleton]; unfold cc1__agg1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Fr

end
-- ==== Proof.FrI.Frame1.lean ====
/-
  The second aggregation layer, point by point. After the body at point t the running total's buffer holds: at the first
  tile of a row block the tile's product added to zero, at every other tile the tile's product added to what the point
  before left; the output window's buffer holds, at the last tile, relu(total . W1^T) and is otherwise untouched. These are
  stated as the read-back of the pieces each run wrote. From them: the state after each point by recursion on the point,
  the region's invariant (before the first point anything; afterwards the total's buffer at the state's total), the proof
  data, and the body's obligation at every point by the three runs.
-/
import proofs.«169439_j52218212385011_2_alg».proof.Proof.FrI.Run1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each run leaves -/

/-- The first-tile run's pieces cover the running total's buffer. -/
theorem accCover_first1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : isFirst1 i) (hc1 : ¬isLast1 i)
    (x0 : Vec F S1024x2048 .f32) (x1 : Vec F S2048x256 .bf16) (x2 : Vec F S128x256 .f32) (y : S1024x256.Idx) :
    ∃ pc ∈ (runFirst1 c i arg2 harg2 arg3 harg3 arg4 harg4 arg5 harg5 arg6 harg6 hc0 hc1 x0 x1 x2).2.1, y ∈ pc.1.set :=
  View.cover_of_tiledL (runFirst1 c i arg2 harg2 arg3 harg3 arg4 harg4 arg5 harg5 arg6 harg6 hc0 hc1 x0 x1 x2).2.1 S1024x256.size (by sl_kernel_rfl) y
/-- The total after a first tile. -/
def accFirst1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : isFirst1 i) (hc1 : ¬isLast1 i)
    (x0 : Vec F S1024x2048 .f32) (x1 : Vec F S2048x256 .bf16) (x2 : Vec F S128x256 .f32) : Vec F S1024x256 .f32 :=
  accV1.read (Elt F) (accV1.writes (Elt F) accV1.junk (runFirst1 c i arg2 harg2 arg3 harg3 arg4 harg4 arg5 harg5 arg6 harg6 hc0 hc1 x0 x1 x2).2.1)

theorem accCover_mid1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : ¬isFirst1 i) (hc1 : ¬isLast1 i)
    (x0 : Vec F S1024x2048 .f32) (x1 : Vec F S2048x256 .bf16) (x2 : Vec F S128x256 .f32) (xs : Vec F S1024x256 .f32) (y : S1024x256.Idx) :
    ∃ pc ∈ (runMid1 c i arg2 harg2 arg3 harg3 arg4 harg4 arg5 harg5 arg6 harg6 hc0 hc1 x0 x1 x2 xs).2.1, y ∈ pc.1.set :=
  View.cover_of_tiledL (runMid1 c i arg2 harg2 arg3 harg3 arg4 harg4 arg5 harg5 arg6 harg6 hc0 hc1 x0 x1 x2 xs).2.1 S1024x256.size (by sl_kernel_rfl) y
/-- The total after a middle tile, over the total xs before it. -/
def accMid1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : ¬isFirst1 i) (hc1 : ¬isLast1 i)
    (x0 : Vec F S1024x2048 .f32) (x1 : Vec F S2048x256 .bf16) (x2 : Vec F S128x256 .f32) (xs : Vec F S1024x256 .f32) : Vec F S1024x256 .f32 :=
  accV1.read (Elt F) (accV1.writes (Elt F) accV1.junk (runMid1 c i arg2 harg2 arg3 harg3 arg4 harg4 arg5 harg5 arg6 harg6 hc0 hc1 x0 x1 x2 xs).2.1)

theorem accCover_last1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : ¬isFirst1 i) (hc1 : isLast1 i)
    (x0 : Vec F S1024x2048 .f32) (x1 : Vec F S2048x256 .bf16) (x2 : Vec F S128x256 .f32) (xs : Vec F S1024x256 .f32) (y : S1024x256.Idx) :
    ∃ pc ∈ (runLast1 c i arg2 harg2 arg3 harg3 arg4 harg4 arg5 harg5 arg6 harg6 hc0 hc1 x0 x1 x2 xs).2.1, y ∈ pc.1.set :=
  View.cover_of_tiledL (runLast1 c i arg2 harg2 arg3 harg3 arg4 harg4 arg5 harg5 arg6 harg6 hc0 hc1 x0 x1 x2 xs).2.1 S1024x256.size (by sl_kernel_rfl) y
/-- The total after a last tile, over the total xs before it. -/
def accLast1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : ¬isFirst1 i) (hc1 : isLast1 i)
    (x0 : Vec F S1024x2048 .f32) (x1 : Vec F S2048x256 .bf16) (x2 : Vec F S128x256 .f32) (xs : Vec F S1024x256 .f32) : Vec F S1024x256 .f32 :=
  accV1.read (Elt F) (accV1.writes (Elt F) accV1.junk (runLast1 c i arg2 harg2 arg3 harg3 arg4 harg4 arg5 harg5 arg6 harg6 hc0 hc1 x0 x1 x2 xs).2.1)
theorem outCover_last1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : ¬isFirst1 i) (hc1 : isLast1 i)
    (x0 : Vec F S1024x2048 .f32) (x1 : Vec F S2048x256 .bf16) (x2 : Vec F S128x256 .f32) (xs : Vec F S1024x256 .f32) (y : S1024x128.Idx) :
    ∃ pc ∈ (runLast1 c i arg2 harg2 arg3 harg3 arg4 harg4 arg5 harg5 arg6 harg6 hc0 hc1 x0 x1 x2 xs).1, y ∈ pc.1.set :=
  View.cover_of_tiledL (runLast1 c i arg2 harg2 arg3 harg3 arg4 harg4 arg5 harg5 arg6 harg6 hc0 hc1 x0 x1 x2 xs).1 S1024x128.size (by sl_kernel_rfl) y
/-- The finished output block a last tile writes. -/
def outLast1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : ¬isFirst1 i) (hc1 : isLast1 i)
    (x0 : Vec F S1024x2048 .f32) (x1 : Vec F S2048x256 .bf16) (x2 : Vec F S128x256 .f32) (xs : Vec F S1024x256 .f32) : Vec F S1024x128 .f32 :=
  outV1.read (Elt F) (outV1.writes (Elt F) outV1.junk (runLast1 c i arg2 harg2 arg3 harg3 arg4 harg4 arg5 harg5 arg6 harg6 hc0 hc1 x0 x1 x2 xs).1)

/-- Placeholders: the output window where it is idle (nothing consults it), the total before the very first point. -/
def idleOut1 : Vec F S1024x128 .f32 := outV1.read (Elt F) outV1.junk
def noAcc1 : Vec F S1024x256 .f32 := accV1.read (Elt F) accV1.junk

/-! ## The state point by point -/

/-- One point's step: the output window's buffer and the running total after the body at t, given the total before it. -/
def stepAt1 (c : Dev nD) (t : Fin cfg1.N) (prev : Vec F S1024x256 .f32) : Vec F S1024x128 .f32 × Vec F S1024x256 .f32 :=
  if h0 : t.val % 4 = 0 then
    if h1 : t.val % 4 = 3 then (idleOut1, prev)
    else (idleOut1, accFirst1 c (grid1.coords t) (ms1_0 t) (hs1_0 t) (ms1_1 t) (hs1_1 t) (ms1_2 t) (hs1_2 t) (ms1_3 t) (hs1_3 t) acc1 (Memref.isWhole_whole _) ((isFirst1_iff t).mpr h0) (fun h => h1 ((isLast1_iff t).mp h)) (blk1 V c 0 t) (blk1 V c 1 t) (blk1 V c 2 t))
  else
    if h1 : t.val % 4 = 3 then
      (outLast1 c (grid1.coords t) (ms1_0 t) (hs1_0 t) (ms1_1 t) (hs1_1 t) (ms1_2 t) (hs1_2 t) (ms1_3 t) (hs1_3 t) acc1 (Memref.isWhole_whole _) (fun h => h0 ((isFirst1_iff t).mp h)) ((isLast1_iff t).mpr h1) (blk1 V c 0 t) (blk1 V c 1 t) (blk1 V c 2 t) prev,
       accLast1 c (grid1.coords t) (ms1_0 t) (hs1_0 t) (ms1_1 t) (hs1_1 t) (ms1_2 t) (hs1_2 t) (ms1_3 t) (hs1_3 t) acc1 (Memref.isWhole_whole _) (fun h => h0 ((isFirst1_iff t).mp h)) ((isLast1_iff t).mpr h1) (blk1 V c 0 t) (blk1 V c 1 t) (blk1 V c 2 t) prev)
    else (idleOut1, accMid1 c (grid1.coords t) (ms1_0 t) (hs1_0 t) (ms1_1 t) (hs1_1 t) (ms1_2 t) (hs1_2 t) (ms1_3 t) (hs1_3 t) acc1 (Memref.isWhole_whole _) (fun h => h0 ((isFirst1_iff t).mp h)) (fun h => h1 ((isLast1_iff t).mp h)) (blk1 V c 0 t) (blk1 V c 1 t) (blk1 V c 2 t) prev)

/-- The state after the body at position n: the steps folded from the first point. -/
def stateAt1 (c : Dev nD) : (n : ℕ) → n < cfg1.N → Vec F S1024x128 .f32 × Vec F S1024x256 .f32
  | 0, hn => stepAt1 V c ⟨0, hn⟩ noAcc1
  | n + 1, hn => stepAt1 V c ⟨n + 1, hn⟩ (stateAt1 c n (Nat.lt_of_succ_lt hn)).2

/-- The total before a point that is not the first of all. -/
abbrev prevAcc1 (c : Dev nD) (t : Fin cfg1.N) : Vec F S1024x256 .f32 :=
  (stateAt1 V c (t.val - 1) (Nat.lt_of_le_of_lt (Nat.sub_le _ _) t.isLt)).2

theorem stateAt1_pos (c : Dev nD) (t : Fin cfg1.N) (hz : t.val ≠ 0) :
    stateAt1 V c t.val t.isLt = stepAt1 V c t (prevAcc1 V c t) := by
  obtain ⟨n, hn⟩ := t
  cases n with
  | zero => exact absurd rfl hz
  | succ n => rfl

theorem stepAt1_first (c : Dev nD) (t : Fin cfg1.N) (prev : Vec F S1024x256 .f32) (h0 : t.val % 4 = 0) (h1 : ¬t.val % 4 = 3) :
    stepAt1 V c t prev = (idleOut1, accFirst1 c (grid1.coords t) (ms1_0 t) (hs1_0 t) (ms1_1 t) (hs1_1 t) (ms1_2 t) (hs1_2 t) (ms1_3 t) (hs1_3 t) acc1 (Memref.isWhole_whole _) ((isFirst1_iff t).mpr h0) (fun h => h1 ((isLast1_iff t).mp h)) (blk1 V c 0 t) (blk1 V c 1 t) (blk1 V c 2 t)) := by
  unfold stepAt1; rw [dif_pos h0, dif_neg h1]
theorem stepAt1_mid (c : Dev nD) (t : Fin cfg1.N) (prev : Vec F S1024x256 .f32) (h0 : ¬t.val % 4 = 0) (h1 : ¬t.val % 4 = 3) :
    stepAt1 V c t prev = (idleOut1, accMid1 c (grid1.coords t) (ms1_0 t) (hs1_0 t) (ms1_1 t) (hs1_1 t) (ms1_2 t) (hs1_2 t) (ms1_3 t) (hs1_3 t) acc1 (Memref.isWhole_whole _) (fun h => h0 ((isFirst1_iff t).mp h)) (fun h => h1 ((isLast1_iff t).mp h)) (blk1 V c 0 t) (blk1 V c 1 t) (blk1 V c 2 t) prev) := by
  unfold stepAt1; rw [dif_neg h0, dif_neg h1]
theorem stepAt1_last (c : Dev nD) (t : Fin cfg1.N) (prev : Vec F S1024x256 .f32) (h0 : ¬t.val % 4 = 0) (h1 : t.val % 4 = 3) :
    stepAt1 V c t prev =
      (outLast1 c (grid1.coords t) (ms1_0 t) (hs1_0 t) (ms1_1 t) (hs1_1 t) (ms1_2 t) (hs1_2 t) (ms1_3 t) (hs1_3 t) acc1 (Memref.isWhole_whole _) (fun h => h0 ((isFirst1_iff t).mp h)) ((isLast1_iff t).mpr h1) (blk1 V c 0 t) (blk1 V c 1 t) (blk1 V c 2 t) prev,
       accLast1 c (grid1.coords t) (ms1_0 t) (hs1_0 t) (ms1_1 t) (hs1_1 t) (ms1_2 t) (hs1_2 t) (ms1_3 t) (hs1_3 t) acc1 (Memref.isWhole_whole _) (fun h => h0 ((isFirst1_iff t).mp h)) ((isLast1_iff t).mpr h1) (blk1 V c 0 t) (blk1 V c 1 t) (blk1 V c 2 t) prev) := by
  unfold stepAt1; rw [dif_neg h0, dif_pos h1]

theorem stateAt1_first (c : Dev nD) (t : Fin cfg1.N) (h0 : t.val % 4 = 0) (h1 : ¬t.val % 4 = 3) :
    stateAt1 V c t.val t.isLt = (idleOut1, accFirst1 c (grid1.coords t) (ms1_0 t) (hs1_0 t) (ms1_1 t) (hs1_1 t) (ms1_2 t) (hs1_2 t) (ms1_3 t) (hs1_3 t) acc1 (Memref.isWhole_whole _) ((isFirst1_iff t).mpr h0) (fun h => h1 ((isLast1_iff t).mp h)) (blk1 V c 0 t) (blk1 V c 1 t) (blk1 V c 2 t)) := by
  obtain ⟨n, hn⟩ := t
  cases n with
  | zero => exact stepAt1_first V c ⟨0, hn⟩ _ h0 h1
  | succ n => exact stepAt1_first V c ⟨n + 1, hn⟩ _ h0 h1

theorem stateAt1_mid (c : Dev nD) (t : Fin cfg1.N) (h0 : ¬t.val % 4 = 0) (h1 : ¬t.val % 4 = 3) :
    stateAt1 V c t.val t.isLt = (idleOut1, accMid1 c (grid1.coords t) (ms1_0 t) (hs1_0 t) (ms1_1 t) (hs1_1 t) (ms1_2 t) (hs1_2 t) (ms1_3 t) (hs1_3 t) acc1 (Memref.isWhole_whole _) (fun h => h0 ((isFirst1_iff t).mp h)) (fun h => h1 ((isLast1_iff t).mp h)) (blk1 V c 0 t) (blk1 V c 1 t) (blk1 V c 2 t) (prevAcc1 V c t)) := by
  rw [stateAt1_pos V c t (fun hz => h0 (by rw [hz]))]
  exact stepAt1_mid V c t _ h0 h1

theorem stateAt1_last (c : Dev nD) (t : Fin cfg1.N) (h0 : ¬t.val % 4 = 0) (h1 : t.val % 4 = 3) :
    stateAt1 V c t.val t.isLt =
      (outLast1 c (grid1.coords t) (ms1_0 t) (hs1_0 t) (ms1_1 t) (hs1_1 t) (ms1_2 t) (hs1_2 t) (ms1_3 t) (hs1_3 t) acc1 (Memref.isWhole_whole _) (fun h => h0 ((isFirst1_iff t).mp h)) ((isLast1_iff t).mpr h1) (blk1 V c 0 t) (blk1 V c 1 t) (blk1 V c 2 t) (prevAcc1 V c t),
       accLast1 c (grid1.coords t) (ms1_0 t) (hs1_0 t) (ms1_1 t) (hs1_1 t) (ms1_2 t) (hs1_2 t) (ms1_3 t) (hs1_3 t) acc1 (Memref.isWhole_whole _) (fun h => h0 ((isFirst1_iff t).mp h)) ((isLast1_iff t).mpr h1) (blk1 V c 0 t) (blk1 V c 1 t) (blk1 V c 2 t) (prevAcc1 V c t)) := by
  rw [stateAt1_pos V c t (fun hz => h0 (by rw [hz]))]
  exact stepAt1_last V c t _ h0 h1

/-! ## The region's invariant -/

/-- Before position n: at the start the resting invariant; afterwards the same with the running total's buffer at what
    the point before left in it. -/
def inv1 (c : Dev nD) : (n : ℕ) → n ≤ cfg1.N → sProp 𝕄
  | 0, _ => Pipeline.ΦA spec1 c
  | n + 1, hn => iprop((owns (c : Thread nD τ) acc1 fullShare ((stateAt1 V c n hn).2) ∗ others1 (F := F) c) ∗ (∃ r, prngReg c r))

theorem inv1_zero (c : Dev nD) (n : ℕ) (h : n ≤ cfg1.N) (hz : n = 0) : inv1 V c n h = Pipeline.ΦA spec1 c := by
  subst hz; rfl
theorem inv1_succ (c : Dev nD) (n : ℕ) (hn : n < cfg1.N) :
    inv1 V c (n + 1) hn = iprop((owns (c : Thread nD τ) acc1 fullShare ((stateAt1 V c n hn).2) ∗ others1 (F := F) c) ∗ (∃ r, prngReg c r)) := rfl
theorem inv1_pos (c : Dev nD) (n : ℕ) (h : n ≤ cfg1.N) (hz : n ≠ 0) :
    inv1 V c n h = iprop((owns (c : Thread nD τ) acc1 fullShare ((stateAt1 V c (n - 1) (by omega)).2) ∗ others1 (F := F) c) ∗ (∃ r, prngReg c r)) := by
  cases n with
  | zero => exact absurd rfl hz
  | succ n => rfl

/-! ## The proof data -/

/-- The pipeline's proof data on core c: the arrays as found; after the body each input's buffer at its block and the
    output window's at the state's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (stateAt1 V c t.val t.isLt).1
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem inv1_castSucc (c : Dev nD) (t : Fin cfg1.N) :
    (dat1 V c).Φ t.castSucc = inv1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = (stateAt1 V c t.val t.isLt).1 := by dsimp only [dat1]
theorem before1_0 (c : Dev nD) (t : Fin cfg1.N) (d) : (dat1 V c).before 0 t d = blk1 V c 0 t :=
  held1_0 V (dat1 V c) (A_eq1 V c 0) (after1_0 V c) t d
theorem before1_1 (c : Dev nD) (t : Fin cfg1.N) (d) : (dat1 V c).before 1 t d = blk1 V c 1 t :=
  held1_1 V (dat1 V c) (A_eq1 V c 1) (after1_1 V c) t d
theorem before1_2 (c : Dev nD) (t : Fin cfg1.N) (d) : (dat1 V c).before 2 t d = blk1 V c 2 t :=
  held1_2 V (dat1 V c) (A_eq1 V c 2) (after1_2 V c) t d

/-! ## The body's obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the three inputs' buffers hold their blocks; the tile number says which run applies; the invariant
    hands the body the running total at what the point before left (at anything at the very first point) and takes it back
    at this point's total; an idle output window is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = inv1 V c (t.val + 1) t.isLt from rfl, inv1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  have hN : t.val < 8 := lt_of_lt_of_eq t.isLt (show cfg1.N = 8 from N_1)
  by_cases h1 : t.val % 4 = 3
  · have h0 : ¬t.val % 4 = 0 := by omega
    have hz : t.val ≠ 0 := by omega
    rw [show (dat1 V c).leavesExact 3 t = owns (c : Thread nD τ) (ms1_3 t) fullShare ((dat1 V c).after 3 t) from by
      unfold Dat.leavesExact; rw [live1_3 t ((isLast1_iff t).mpr h1)], after1_3]
    rw [stateAt1_last V c t h0 h1]
    unfold outLast1 accLast1; (try dsimp only)
    rw [inv1_castSucc V c t, inv1_pos V c _ _ hz]
    iintro ⟨⟨⟨HS, Hoth⟩, Hg⟩, Ho, ⟨%d0, H0⟩, ⟨%d1, H1⟩, ⟨%d2, H2⟩, ⟨%d3, H3⟩⟩
    iapply ((runLast1 c (grid1.coords t) _ _ _ _ _ _ _ _ _ _ (fun h => h0 ((isFirst1_iff t).mp h)) ((isLast1_iff t).mpr h1) (blk1 V c 0 t) (blk1 V c 1 t) (blk1 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hoth Hg]
    · isplitl [HS Hoth]
      · isplitl [HS]
        · unfold owns; iexists _; isplitr
          swap; · iexact HS
          ipureintro; exact View.read_writes_of_cover _ _ _ _ _ (accCover_last1 c _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (outCover_last1 c _ _ _ _ _ _ _ _ _ _ _ _ _ _ _ _ _)
  · rw [Dat.leavesExact_idle (dat1 V c) 3 t (idle1_3 t (fun h => h1 ((isLast1_iff t).mp h))) (noFlush1_3 t (fun h => h1 ((isLast1_iff t).mp h)))]
    by_cases h0 : t.val % 4 = 0
    · rw [stateAt1_first V c t h0 h1]
      unfold accFirst1; (try dsimp only)
      by_cases hz : t.val = 0
      · rw [inv1_castSucc V c t, inv1_zero V c _ _ hz, rest1_eq]
        iintro ⟨⟨⟨HS, Hoth⟩, Hg⟩, Ho, ⟨%d0, H0⟩, ⟨%d1, H1⟩, ⟨%d2, H2⟩, ⟨%d3, H3⟩⟩
        iapply ((runFirst1 c (grid1.coords t) _ _ _ _ _ _ _ _ _ _ ((isFirst1_iff t).mpr h0) (fun h => h1 ((isLast1_iff t).mp h)) (blk1 V c 0 t) (blk1 V c 1 t) (blk1 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCover_first1 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [inv1_castSucc V c t, inv1_pos V c _ _ hz]
        iintro ⟨⟨⟨HS, Hoth⟩, Hg⟩, Ho, ⟨%d0, H0⟩, ⟨%d1, H1⟩, ⟨%d2, H2⟩, ⟨%d3, H3⟩⟩
        iapply ((runFirst1 c (grid1.coords t) _ _ _ _ _ _ _ _ _ _ ((isFirst1_iff t).mpr h0) (fun h => h1 ((isLast1_iff t).mp h)) (blk1 V c 0 t) (blk1 V c 1 t) (blk1 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCover_first1 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
    · have hz : t.val ≠ 0 := fun hz => h0 (by rw [hz])
      rw [stateAt1_mid V c t h0 h1]
      unfold accMid1; (try dsimp only)
      rw [inv1_castSucc V c t, inv1_pos V c _ _ hz]
      iintro ⟨⟨⟨HS, Hoth⟩, Hg⟩, Ho, ⟨%d0, H0⟩, ⟨%d1, H1⟩, ⟨%d2, H2⟩, ⟨%d3, H3⟩⟩
      iapply ((runMid1 c (grid1.coords t) _ _ _ _ _ _ _ _ _ _ (fun h => h0 ((isFirst1_iff t).mp h)) (fun h => h1 ((isLast1_iff t).mp h)) (blk1 V c 0 t) (blk1 V c 1 t) (blk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (accCover_mid1 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = inv1 V c 0 (Nat.zero_le _) from rfl, inv1_zero V c 0 _ rfl]
  try exact Idealize.SL.BI.Entails.refl _

/-- After the last point the invariant gives the resting invariant back: the total's named contents are forgotten. -/
theorem hout1 (c : Dev nD) : (dat1 V c).Φ (Fin.last cfg1.N) ⊢ (Pipeline.ΦA spec1 c : sProp 𝕄) := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 8 := N_1; omega), rest1_eq]
  iintro ⟨⟨HS, Hoth⟩, Hg⟩
  isplitl [HS Hoth]
  · isplitl [HS]
    · iexists _; iexact HS
    iexact Hoth
  iexact Hg

end Cert.KernelIdeal.Fr

end
-- ==== Proof.FrI.Assembly.lean ====
/-
  The whole program: the two layers one after the other. Between them every unscoped buffer of a core is held whole:
  at launch at the launch memory; after the first layer the same with each of its arrays at what its pipeline leaves
  (the inputs as found, the intermediate array with every finished block written back); after the second layer likewise.
  Each layer is a segment of the main function built from its proof data and body obligation; the launch theorem for a
  list of segments then gives: every weakly fair execution terminates, and in every final memory each unscoped buffer
  holds the last of these contents.
-/
import proofs.«169439_j52218212385011_2_alg».proof.Proof.FrI.Frame0
import proofs.«169439_j52218212385011_2_alg».proof.Proof.FrI.Frame1
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- At launch. -/
abbrev E0 : Dev nD → Valuation τ sig (Elt F) := fun c b => m (c, b)
abbrev Vr0 : (c : Dev nD) → (b : Ref sig .tc) → Buf (Elt F) ((c : Thread nD τ).loc b) := fun c b => E0 m c b
/-- After the first layer: its arrays at what its pipeline leaves, every other buffer as before. -/
def E1 (c : Dev nD) : Valuation τ sig (Elt F) :=
  Pipeline.withArrays spec0 c (E0 m c) fun w => (dat0 (Vr0 m) c).arrAt w cfg0.N
theorem E1_arr (c : Dev nD) (w : Fin cfg0.W) :
    E1 m c (Proc.devRef .tc (Pipeline.arrRef spec0 w)) = (dat0 (Vr0 m) c).arrAt w cfg0.N := by
  unfold E1; exact Pipeline.withArrays_arr spec0 launch0.win.arr_inj c _ _ w
theorem E1_of_ne (c : Dev nD) (b : Ref sig .tc) (hb : ∀ w, Pipeline.arrRef spec0 w ≠ b) :
    E1 m c (Proc.devRef .tc b) = E0 m c (Proc.devRef .tc b) := by
  unfold E1; exact Pipeline.withArrays_of_ne spec0 c _ _ b hb
abbrev Vr1 : (c : Dev nD) → (b : Ref sig .tc) → Buf (Elt F) ((c : Thread nD τ).loc b) := fun c b => E1 m c b
theorem hF0 (c : Dev nD) (w : Fin cfg0.W) : (dat0 (Vr0 m) c).arrAt w cfg0.N = Vr1 m c (Pipeline.arrRef spec0 w) :=
  (E1_arr m c w).symm
theorem hrest0 (c : Dev nD) : ∀ b, b ∉ Finset.univ.image (Pipeline.arrRef spec0) → Vr1 m c b = Vr0 m c b :=
  fun b hb => E1_of_ne m c b fun w e => hb (Finset.mem_image.mpr ⟨w, Finset.mem_univ _, e⟩)
/-- After the second layer. -/
def E2 (c : Dev nD) : Valuation τ sig (Elt F) :=
  Pipeline.withArrays spec1 c (E1 m c) fun w => (dat1 (Vr1 m) c).arrAt w cfg1.N
theorem E2_arr (c : Dev nD) (w : Fin cfg1.W) :
    E2 m c (Proc.devRef .tc (Pipeline.arrRef spec1 w)) = (dat1 (Vr1 m) c).arrAt w cfg1.N := by
  unfold E2; exact Pipeline.withArrays_arr spec1 launch1.win.arr_inj c _ _ w
theorem E2_of_ne (c : Dev nD) (b : Ref sig .tc) (hb : ∀ w, Pipeline.arrRef spec1 w ≠ b) :
    E2 m c (Proc.devRef .tc b) = E1 m c (Proc.devRef .tc b) := by
  unfold E2; exact Pipeline.withArrays_of_ne spec1 c _ _ b hb
abbrev Vr2 : (c : Dev nD) → (b : Ref sig .tc) → Buf (Elt F) ((c : Thread nD τ).loc b) := fun c b => E2 m c b
theorem hF1 (c : Dev nD) (w : Fin cfg1.W) : (dat1 (Vr1 m) c).arrAt w cfg1.N = Vr2 m c (Pipeline.arrRef spec1 w) :=
  (E2_arr m c w).symm
theorem hrest1 (c : Dev nD) : ∀ b, b ∉ Finset.univ.image (Pipeline.arrRef spec1) → Vr2 m c b = Vr1 m c b :=
  fun b hb => E2_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Both pipelines' proof data, each at its layer's entry contents. -/
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (E2 m c) ∗ ∃ r, prngReg c r)

/-! ## The layers as segments -/

set_option backward.isDefEq.respectTransparency.types false in
/-- Region 0 as a segment of @main over the thread state: entered from every unscoped buffer at E0, left at E1. Its
    arrays are split out of the unscoped buffers and put back at the exit contents; the generator register goes into the
    region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (E0 m c) ∗ R c)
  post c := iprop(StableHlo.held (c : Thread nD τ) (Pipeline.ucRefs τ sig) (E1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr0 m) c)
    unfold Pipeline.ΦA
    iintro ⟨Hp, -, Hr⟩
    isplitl [Hr]; · iexact Hr
    iexact Hp
  hout c := by
    rw [Pipeline.ownSems0_none]
    refine BIBase.Entails.trans (hout0 (Vr0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main over the thread state: entered from every unscoped buffer at E1, left at E2. Its
    arrays are split out of the unscoped buffers and put back at the exit contents; the generator register goes into the
    region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (E1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr1 m) c)
    unfold Pipeline.ΦA
    iintro ⟨Hp, -, Hr⟩
    isplitl [Hr]; · iexact Hr
    iexact Hp
  hout c := by
    rw [Pipeline.ownSems0_none]
    refine BIBase.Entails.trans (hout1 (Vr1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr1 m c) (Vr2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- Every weakly fair execution of the main function from memory m with zero counters terminates, nothing faulting, and in
    every final memory each unscoped buffer of each core holds the contents after the second layer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = E2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E2 m c b)
    (hfin := fun c s' => by
      iintro ⟨⟨Hh, -⟩, HSI⟩
      unfold StableHlo.held
      imodintro
      iapply (pointsTo_read_all (Pipeline.ucRefs τ sig) (fun b => (((c : Thread nD τ)).1, b)) (E2 m c) s')
      isplitl [Hh] <;> iassumption)
    (hQ := fun s h c => h c)

end Cert.KernelIdeal.Fr

end
-- ==== Proof.FrI.Final.lean ====
/-
  What the last boundary holds at the buffers the claims speak of. No layer writes an argument: the first layer reads
  features, weight2 and mask2 through input windows and the second reads mask1 and weight1 so, and an input window's array
  ends as it was found; so each argument ends as launched. The result buffer is the second layer's output array, whose
  final contents are what its pipeline's write-backs leave; the second layer finds the intermediate array at what the
  first layer's write-backs left, and its other two inputs as launched.
-/
import proofs.«169439_j52218212385011_2_alg».proof.Proof.FrI.Assembly

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the second layer finds -/

theorem Vr1_main_v0 (c : Dev nD) : Vr1 m c main_v0 = (dat0 (Vr0 m) c).arrAt 3 cfg0.N := E1_arr m c 3
theorem Vr1_main_arg4 (c : Dev nD) : Vr1 m c main_arg4 = m ((c : Thread nD τ).loc main_arg4) :=
  (E1_of_ne m c main_arg4 (by decide)).trans rfl
theorem Vr1_main_arg2 (c : Dev nD) : Vr1 m c main_arg2 = m ((c : Thread nD τ).loc main_arg2) :=
  (E1_of_ne m c main_arg2 (by decide)).trans rfl

/-! ## The last boundary at the arguments and at the result -/

theorem E2_main_arg0 (c : Dev nD) : E2 m c (Proc.devRef .tc main_arg0) = m ((c : Thread nD τ).loc main_arg0) :=
  calc E2 m c (Proc.devRef .tc main_arg0)
    _ = E1 m c (Proc.devRef .tc main_arg0) := E2_of_ne m c main_arg0 (by decide)
    _ = E0 m c (Proc.devRef .tc main_arg0) := (E1_arr m c 1).trans (((dat0 (Vr0 m) c).arrAt_in 1 rfl _).trans (A_eq0 (Vr0 m) c 1))
    _ = m ((c : Thread nD τ).loc main_arg0) := rfl
theorem E2_main_arg1 (c : Dev nD) : E2 m c (Proc.devRef .tc main_arg1) = m ((c : Thread nD τ).loc main_arg1) :=
  calc E2 m c (Proc.devRef .tc main_arg1)
    _ = E1 m c (Proc.devRef .tc main_arg1) := E2_of_ne m c main_arg1 (by decide)
    _ = E0 m c (Proc.devRef .tc main_arg1) := (E1_arr m c 2).trans (((dat0 (Vr0 m) c).arrAt_in 2 rfl _).trans (A_eq0 (Vr0 m) c 2))
    _ = m ((c : Thread nD τ).loc main_arg1) := rfl
theorem E2_main_arg3 (c : Dev nD) : E2 m c (Proc.devRef .tc main_arg3) = m ((c : Thread nD τ).loc main_arg3) :=
  calc E2 m c (Proc.devRef .tc main_arg3)
    _ = E1 m c (Proc.devRef .tc main_arg3) := E2_of_ne m c main_arg3 (by decide)
    _ = E0 m c (Proc.devRef .tc main_arg3) := (E1_arr m c 0).trans (((dat0 (Vr0 m) c).arrAt_in 0 rfl _).trans (A_eq0 (Vr0 m) c 0))
    _ = m ((c : Thread nD τ).loc main_arg3) := rfl
theorem E2_main_arg4 (c : Dev nD) : E2 m c (Proc.devRef .tc main_arg4) = m ((c : Thread nD τ).loc main_arg4) :=
  calc E2 m c (Proc.devRef .tc main_arg4)
    _ = E1 m c (Proc.devRef .tc main_arg4) := (E2_arr m c 0).trans (((dat1 (Vr1 m) c).arrAt_in 0 rfl _).trans (A_eq1 (Vr1 m) c 0))
    _ = m ((c : Thread nD τ).loc main_arg4) := Vr1_main_arg4 m c
theorem E2_main_arg2 (c : Dev nD) : E2 m c (Proc.devRef .tc main_arg2) = m ((c : Thread nD τ).loc main_arg2) :=
  calc E2 m c (Proc.devRef .tc main_arg2)
    _ = E1 m c (Proc.devRef .tc main_arg2) := (E2_arr m c 2).trans (((dat1 (Vr1 m) c).arrAt_in 2 rfl _).trans (A_eq1 (Vr1 m) c 2))
    _ = m ((c : Thread nD τ).loc main_arg2) := Vr1_main_arg2 m c
theorem E2_main_v1 (c : Dev nD) : E2 m c (Proc.devRef .tc main_v1) = (dat1 (Vr1 m) c).arrAt 3 cfg1.N := E2_arr m c 3

/-! ## The two runs the claims take -/

/-- The run with the result named: the result buffer ends at the second pipeline's output array, each argument as launched. -/
theorem run_result : θ_run defs (onTc (τ := τ) (main (F := F))) ⟨m, fun _ => 0, ρ⟩ (fun r => ∀ c : Dev nD,
      r.2.mem ((c.tc : Thread nD τ).loc main_v1) = (dat1 (Vr1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v1 (by decide))).trans (E2_main_v1 m c),
     (h c _ (mem_uc main_arg0 (by decide))).trans (E2_main_arg0 m c),
     (h c _ (mem_uc main_arg1 (by decide))).trans (E2_main_arg1 m c),
     (h c _ (mem_uc main_arg2 (by decide))).trans (E2_main_arg2 m c),
     (h c _ (mem_uc main_arg3 (by decide))).trans (E2_main_arg3 m c),
     (h c _ (mem_uc main_arg4 (by decide))).trans (E2_main_arg4 m c)⟩) (run_all m ρ)

/-- The frame: every execution terminates without a fault and each argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_result m ρ)

end Cert.KernelIdeal.Fr

end
-- ==== Proof.FrI.Pieces0.lean ====
/-
  What each run of the first aggregation layer's body leaves, as one value.

  The body writes whole blocks only: the running total's buffer is stored through the rectangle that starts at (0, 0)
  and has the buffer's own extents, and so is the output window's buffer on the last tile. The last such store
  therefore decides the contents, and what it stores is a function of what the loads before it read:
    * at a first tile the total is first overwritten with the zero block, read back, and the tile's product of the mask
      tile and the feature tile is added: the buffer ends at (zero block) + product;
    * at every other tile the buffer ends at (what it held) + product;
    * at a last tile, besides, the output window's buffer ends at the projection of that new total against the
      weight, clamped at zero.
  The loads read whole buffers, so each reads exactly the value the buffer was handed over at.
-/
import proofs.«169439_j52218212385011_2_alg».proof.Proof.FrI.Run0C
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Both offsets of a whole-block access are zero. -/
theorem hz2 : (![0, 0] : Fin 2 → Nat) = fun _ => 0 := funext fun a => by fin_cases a <;> rfl

/-- After a first tile the running total's buffer holds the tile's product added to the zero block. -/
theorem first_total (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : isFirst0 i) (hc1 : ¬isLast0 i)
    (x0 : Vec F S2048x1024 .f32) (x1 : Vec F S1024x512 .f32) (x2 : Vec F S256x512 .f32) :
    accV0.read (Elt F) (accV0.writes (Elt F) accV0.junk (runFirst0 c i arg2 harg2 arg3 harg3 arg4 harg4 arg5 harg5 arg6 harg6 hc0 hc1 x0 x1 x2).2.1) = k0_pay2 x0 x1 k0_pay1 := by
  rw [View.read_writes_eq_canon _ _ _ (View.cover_of_tiledL (runFirst0 c i arg2 harg2 arg3 harg3 arg4 harg4 arg5 harg5 arg6 harg6 hc0 hc1 x0 x1 x2).2.1 S2048x512.size (by sl_kernel_rfl))]
  unfold runFirst0
  dsimp only
  sl_unfold_words
  rw [View.canon_cons_unit_zero (S := S2048x512) hz2]
  simp only [View.readAt_eq_ld, harg2.read_unread, harg3.read_unread, View.ld_unit_zero (S := S2048x1024) hz2, View.ld_unit_zero (S := S1024x512) hz2, View.readCov_unit_zero (S := S2048x512) _ hz2]

/-- After a middle tile it holds the tile's product added to what it held before. -/
theorem mid_total (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : ¬isFirst0 i) (hc1 : ¬isLast0 i)
    (x0 : Vec F S2048x1024 .f32) (x1 : Vec F S1024x512 .f32) (x2 : Vec F S256x512 .f32) (xs : Vec F S2048x512 .f32) :
    accV0.read (Elt F) (accV0.writes (Elt F) accV0.junk (runMid0 c i arg2 harg2 arg3 harg3 arg4 harg4 arg5 harg5 arg6 harg6 hc0 hc1 x0 x1 x2 xs).2.1) = k0_pay2 x0 x1 xs := by
  rw [View.read_writes_eq_canon _ _ _ (View.cover_of_tiledL (runMid0 c i arg2 harg2 arg3 harg3 arg4 harg4 arg5 harg5 arg6 harg6 hc0 hc1 x0 x1 x2 xs).2.1 S2048x512.size (by sl_kernel_rfl))]
  unfold runMid0
  dsimp only
  rw [View.canon_unit_zero (S := S2048x512) hz2]
  simp only [View.readAt_eq_ld, harg2.read_unread, harg3.read_unread, harg6.read_unread, View.ld_unit_zero (S := S2048x1024) hz2, View.ld_unit_zero (S := S1024x512) hz2, View.ld_unit_zero (S := S2048x512) hz2]

/-- After a last tile likewise. -/
theorem last_total (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : ¬isFirst0 i) (hc1 : isLast0 i)
    (x0 : Vec F S2048x1024 .f32) (x1 : Vec F S1024x512 .f32) (x2 : Vec F S256x512 .f32) (xs : Vec F S2048x512 .f32) :
    accV0.read (Elt F) (accV0.writes (Elt F) accV0.junk (runLast0 c i arg2 harg2 arg3 harg3 arg4 harg4 arg5 harg5 arg6 harg6 hc0 hc1 x0 x1 x2 xs).2.1) = k0_pay2 x0 x1 xs := by
  rw [View.read_writes_eq_canon _ _ _ (View.cover_of_tiledL (runLast0 c i arg2 harg2 arg3 harg3 arg4 harg4 arg5 harg5 arg6 harg6 hc0 hc1 x0 x1 x2 xs).2.1 S2048x512.size (by sl_kernel_rfl))]
  unfold runLast0
  dsimp only
  sl_unfold_words
  rw [View.canon_unit_zero (S := S2048x512) hz2]
  simp only [View.readAt_eq_ld, harg2.read_unread, harg3.read_unread, harg6.read_unread, View.ld_unit_zero (S := S2048x1024) hz2, View.ld_unit_zero (S := S1024x512) hz2, View.ld_unit_zero (S := S2048x512) hz2]

/-- And the output window's buffer holds the finished block: the projection of that total against the weight, clamped. -/
theorem last_out (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S256x512 .f32) (harg4 : arg4.IsWhole) (arg5 : Memref sig .tc .vmem S2048x256 .bf16) (harg5 : arg5.IsWhole) (arg6 : Memref sig .tc .vmem S2048x512 .f32) (harg6 : arg6.IsWhole) (hc0 : ¬isFirst0 i) (hc1 : isLast0 i)
    (x0 : Vec F S2048x1024 .f32) (x1 : Vec F S1024x512 .f32) (x2 : Vec F S256x512 .f32) (xs : Vec F S2048x512 .f32) :
    outV0.read (Elt F) (outV0.writes (Elt F) outV0.junk (runLast0 c i arg2 harg2 arg3 harg3 arg4 harg4 arg5 harg5 arg6 harg6 hc0 hc1 x0 x1 x2 xs).1) = k0_pay3 (k0_pay2 x0 x1 xs) x2 := by
  rw [View.read_writes_eq_canon _ _ _ (View.cover_of_tiledL (runLast0 c i arg2 harg2 arg3 harg3 arg4 harg4 arg5 harg5 arg6 harg6 hc0 hc1 x0 x1 x2 xs).1 S2048x256.size (by sl_kernel_rfl))]
  unfold runLast0
  dsimp only
  sl_unfold_words
  rw [View.canon_unit_zero (S := S2048x256) hz2]
  simp only [View.readAt_eq_ld, harg2.read_unread, harg3.read_unread, harg4.read_unread, harg6.read_unread, View.ld_unit_zero (S := S2048x1024) hz2, View.ld_unit_zero (S := S1024x512) hz2, View.ld_unit_zero (S := S2048x512) hz2, View.ld_unit_zero (S := S256x512) hz2, View.readCov_unit_zero (S := S2048x512) _ hz2]

end Cert.KernelIdeal.Fr
end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.LibDenseNT.lean ====
/-
  A matrix product against a transposed right operand, on the extended reals, index by index.

  `[M, K] × [N, K] → [M, N]`, both operands contracted along their second axis (the `q · kᵀ` of attention scores, written
  without materialising the transpose): entry `(p, q)` is `∑ k, x(p, k) · w(q, k)`.  Stated for the matrix unit's product into
  a zero accumulator, at any contraction precision, and for the host's general dot product.  No finiteness is needed: only
  the definitions of the operations and a re-indexing of the sum.
-/
import Idealize.ShloMosaic.PureOps.Ideal
import Idealize.ShloMosaic.PureOps.Ideal.Laws
import Idealize.ShloMosaic.Lib.ValueIdx

noncomputable section

namespace Cert.Lib.DenseNT

open Idealize.ShloMosaic Idealize.ShloMosaic.ValueIdx
open scoped BigOperators

/-- Row `p` of `x` against row `q` of `w`. -/
def rowRowDot {M K N : ℕ} (x : (⟨2, ![M, K]⟩ : Shape).Idx → EReal) (w : (⟨2, ![N, K]⟩ : Shape).Idx → EReal)
    (p : Fin M) (q : Fin N) : EReal :=
  ∑ k : Fin K, x (ix2 p k) * w (ix2 q k)

variable {M K N : ℕ} (D : DotDims ⟨2, ![M, K]⟩ ⟨2, ![N, K]⟩ ⟨2, ![M, N]⟩)
  (hlc : D.lhsContracting = [1]) (hrc : D.rhsContracting = [1])
  (hln : D.lhsNonContracting = [0]) (hrn : D.rhsNonContracting = [0])
  (hlb : D.lhsBatch = []) (hrb : D.rhsBatch = [])

include hlc in
theorem nt_rank : D.contr.rank = 1 := by rw [D.rank_contr, hlc]; rfl

include hlc in
theorem nt_size : D.contr.size ⟨0, by rw [nt_rank D hlc]; exact Nat.one_pos⟩ = K := by
  have := D.size_contr 0 (by rw [hlc]; exact Nat.one_pos)
  rw [this]
  simp [hlc]

include hln hlb in
/-- The left operand's free coordinate is the result's row. -/
theorem nt_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate, its first, is the result's column. -/
theorem nt_rhs0 (j : (⟨2, ![M, N]⟩ : Shape).Idx) (k : D.contr.Idx) : (D.rhsIdx j k 0).val = (j 1).val := by
  have hb : (0 : Fin 2) ∉ D.rhsBatch := by rw [hrb]; simp
  have hn : (0 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction at entry `(p, q)` is row `p` of `x` against row `q` of `w`. -/
theorem nt_sum (f : (⟨2, ![M, K]⟩ : Shape).Idx → EReal) (g : (⟨2, ![N, K]⟩ : Shape).Idx → EReal) (p : Fin M) (q : Fin N) :
    ∑ k : D.contr.Idx, f (D.lhsIdx (ix2 p q) k) * g (D.rhsIdx (ix2 p q) k) = rowRowDot f g p q := by
  unfold rowRowDot
  rw [← Equiv.sum_comp (contrEquiv1 D K (nt_rank D hlc) (nt_size D hlc)).symm]
  refine Finset.sum_congr rfl fun k _ => ?_
  have hk := contrEquiv1_symm_val D K (nt_rank D hlc) (nt_size D hlc) k
  have el : D.lhsIdx (ix2 p q) ((contrEquiv1 D K (nt_rank D hlc) (nt_size D hlc)).symm k) = ix2 p k := by
    funext a; apply Fin.ext
    match a with
    | ⟨0, _⟩ => exact nt_lhs0 D hln hlb (ix2 p q) _
    | ⟨1, _⟩ => exact (D.lhsIdx_val_of_single hlc (ix2 p q) _).trans hk
  have er : D.rhsIdx (ix2 p q) ((contrEquiv1 D K (nt_rank D hlc) (nt_size D hlc)).symm k) = ix2 q k := by
    funext a; apply Fin.ext
    match a with
    | ⟨0, _⟩ => exact nt_rhs0 D hln hrn hlb hrb (ix2 p q) _
    | ⟨1, _⟩ => exact (D.rhsIdx_val_of_single hrc (ix2 p q) _).trans hk
  rw [el, er]

include hlc hrc hln hrn hlb hrb in
/-- The matrix unit's product into a zero accumulator, at entry `(p, q)`, whatever the contraction precision. -/
theorem matmul_zero_at {φ₁ φ₂ : FTy} (prec : Option ContractPrecision) (x : FVec Ideal ⟨2, ![M, K]⟩ φ₁) (w : FVec Ideal ⟨2, ![N, K]⟩ φ₂)
    (p : Fin M) (q : Fin N) :
    matmul D prec x w (constant ⟨2, ![M, N]⟩ .f32 0x00000000#32) (ix2 p q) = rowRowDot x w p q :=
  (Ideal.matmul_constant_zero_apply D prec x w (ix2 p q)).trans (nt_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![N, K]⟩ φ₂) (p : Fin M) (q : Fin N) :
    Host.dotGeneral D none x w (ix2 p q) = rowRowDot x w p q :=
  (Ideal.dotGeneral_apply D none .single x w (ix2 p q)).trans (nt_sum D hlc hrc hln hrn hlb hrb x w p q)

end Cert.Lib.DenseNT

end
-- ==== Proof.Pay0.lean ====
/-
  The arithmetic of the first aggregation's three stored values, read entry by entry on the extended reals.

  The first kernel accumulates the product mask · features over column tiles of width 1024 in a scratch block of
  2048 rows and 512 lanes, and on the last tile multiplies the accumulated block by the transposed weight matrix and
  clamps at zero:
    * the value stored on the first tile is the zero block:            entry (r, l) is 0;
    * the value stored on every tile is the old block plus one tile's product:
                                                                       entry (r, l) is acc(r, l) + ∑ j < 1024, m(r, j) · f(j, l);
    * the value stored on the last tile is the clamped projection:     entry (r, q) is max (∑ l < 512, acc(r, l) · w(q, l)) 0.
  On the extended reals the narrowing to the 16-bit format is the identity, a cast to the same shape is the identity,
  the zero word reads 0, and a matrix product into the zero block is the plain sum over the contracted coordinate.
  No finiteness is used.
-/
import proofs.«169439_j52218212385011_2_alg».proof.Proof.Gen.KernelIdeal.Skeleton
import proofs.«169439_j52218212385011_2_alg».proof.Proof.LibDense
import proofs.«169439_j52218212385011_2_alg».proof.Proof.LibDenseNT
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- The block stored on the first column tile is zero everywhere. -/
theorem k0_pay1_apply (r : Fin 2048) (l : Fin 512) : k0_pay1 (F := Ideal) (ix2 r l) = 0 := by
  unfold k0_pay1
  rw [shapeCast_self]
  exact Ideal.ofBits_zero_f32

/-- One accumulation step: the old entry plus row `r` of the mask tile against column `l` of the feature tile. -/
theorem k0_pay2_apply (mb : Vec Ideal S2048x1024 .f32) (fb : Vec Ideal S1024x512 .f32) (acc : Vec Ideal S2048x512 .f32)
    (r : Fin 2048) (l : Fin 512) :
    k0_pay2 mb fb acc (ix2 r l) = acc (ix2 r l) + ∑ j : Fin 1024, mb (ix2 r j) * fb (ix2 j l) := by
  unfold k0_pay2
  rw [shapeCast_self]
  refine congrArg (acc (ix2 r l) + ·) ?_
  exact Cert.Lib.Dense.matmul_zero_at dot_S2048x1024_S1024x512_S2048x512_1_0_0_1_n_n rfl rfl rfl rfl rfl rfl
    (truncf .bf16 mb bitsLt_bf16_f32) (truncf .bf16 fb bitsLt_bf16_f32) r l

/-- The projection: row `r` of the accumulated block against row `q` of the weight matrix, clamped at zero. -/
theorem k0_pay3_apply (acc : Vec Ideal S2048x512 .f32) (w : Vec Ideal S256x512 .f32) (r : Fin 2048) (q : Fin 256) :
    k0_pay3 acc w (ix2 r q) = max (∑ l : Fin 512, acc (ix2 r l) * w (ix2 q l)) 0 := by
  unfold k0_pay3
  refine (congrArg₂ max ?_ Ideal.ofBits_zero_f32 : max _ _ = max _ _)
  exact Cert.Lib.DenseNT.matmul_zero_at dot_S2048x512_S256x512_S2048x256_1_1_0_0_n_n rfl rfl rfl rfl rfl rfl none
    (truncf .bf16 acc bitsLt_bf16_f32) (truncf .bf16 w bitsLt_bf16_f32) r q

end Cert.KernelIdeal.Pay

end
-- ==== Proof.Spec.lean ====
/-
  The function both programs compute: two layers of neighbour averaging followed by a linear map and a rectifier,
  on the extended reals.

  For a mask m : [N, U], features x : [U, D] and a weight w : [E, D], one layer is, at entry (p, q),
      max (∑ l < D, (∑ j < U, m(p, j) · x(j, l)) · w(q, l)) 0,
  that is relu((m · x) · wᵀ) read entry by entry: the inner sum is the neighbour average of feature l at node p, the
  outer sum contracts it against row q of the weight (the weight enters transposed), and the rectifier is the maximum
  with zero.  The whole function applies the layer twice: first with mask2 : [8192, 32768], features : [32768, 512],
  weight2 : [256, 512], giving an [8192, 256] array; then with mask1 : [2048, 8192], that array, and
  weight1 : [128, 256], giving the [2048, 128] result.  All shapes are literal; every coordinate is a literal `Fin`.
  Nothing here asks for finiteness: the sums and products are the extended reals' own.
-/
import Idealize.ShloMosaic.PureOps.Ideal
import Idealize.ShloMosaic.Lib.ValueIdx

noncomputable section

namespace Cert.Spec

open Idealize.ShloMosaic Idealize.ShloMosaic.ValueIdx
open scoped BigOperators

/-- Entry `(p, q)` of the first layer applied: `relu((mask2 · features) · weight2ᵀ)`. -/
def layer2At (mask2 : (⟨2, ![8192, 32768]⟩ : Shape).Idx → EReal) (features : (⟨2, ![32768, 512]⟩ : Shape).Idx → EReal)
    (weight2 : (⟨2, ![256, 512]⟩ : Shape).Idx → EReal) (p : Fin 8192) (q : Fin 256) : EReal :=
  max (∑ l : Fin 512, (∑ j : Fin 32768, mask2 (ix2 p j) * features (ix2 j l)) * weight2 (ix2 q l)) 0

/-- The first layer applied, as an `[8192, 256]` array. -/
def layer2 (mask2 : (⟨2, ![8192, 32768]⟩ : Shape).Idx → EReal) (features : (⟨2, ![32768, 512]⟩ : Shape).Idx → EReal)
    (weight2 : (⟨2, ![256, 512]⟩ : Shape).Idx → EReal) : (⟨2, ![8192, 256]⟩ : Shape).Idx → EReal :=
  fun i => layer2At mask2 features weight2 (i 0) (i 1)

theorem layer2_ix2 (mask2 : (⟨2, ![8192, 32768]⟩ : Shape).Idx → EReal) (features : (⟨2, ![32768, 512]⟩ : Shape).Idx → EReal)
    (weight2 : (⟨2, ![256, 512]⟩ : Shape).Idx → EReal) (p : Fin 8192) (q : Fin 256) :
    layer2 mask2 features weight2 (ix2 p q) = layer2At mask2 features weight2 p q := rfl

/-- Entry `(p, q)` of the second layer applied to any `[8192, 256]` array `h`: `relu((mask1 · h) · weight1ᵀ)`. -/
def layer1At (mask1 : (⟨2, ![2048, 8192]⟩ : Shape).Idx → EReal) (h : (⟨2, ![8192, 256]⟩ : Shape).Idx → EReal)
    (weight1 : (⟨2, ![128, 256]⟩ : Shape).Idx → EReal) (p : Fin 2048) (q : Fin 128) : EReal :=
  max (∑ l : Fin 256, (∑ j : Fin 8192, mask1 (ix2 p j) * h (ix2 j l)) * weight1 (ix2 q l)) 0

/-- The second layer applied to any `[8192, 256]` array, as a `[2048, 128]` array. -/
def layer1 (mask1 : (⟨2, ![2048, 8192]⟩ : Shape).Idx → EReal) (h : (⟨2, ![8192, 256]⟩ : Shape).Idx → EReal)
    (weight1 : (⟨2, ![128, 256]⟩ : Shape).Idx → EReal) : (⟨2, ![2048, 128]⟩ : Shape).Idx → EReal :=
  fun i => layer1At mask1 h weight1 (i 0) (i 1)

theorem layer1_ix2 (mask1 : (⟨2, ![2048, 8192]⟩ : Shape).Idx → EReal) (h : (⟨2, ![8192, 256]⟩ : Shape).Idx → EReal)
    (weight1 : (⟨2, ![128, 256]⟩ : Shape).Idx → EReal) (p : Fin 2048) (q : Fin 128) :
    layer1 mask1 h weight1 (ix2 p q) = layer1At mask1 h weight1 p q := rfl

/-- The whole function, in the order the programs take their arguments:
    `relu((mask1 · relu((mask2 · features) · weight2ᵀ)) · weight1ᵀ)`. -/
def G (features : (⟨2, ![32768, 512]⟩ : Shape).Idx → EReal) (weight2 : (⟨2, ![256, 512]⟩ : Shape).Idx → EReal)
    (weight1 : (⟨2, ![128, 256]⟩ : Shape).Idx → EReal) (mask2 : (⟨2, ![8192, 32768]⟩ : Shape).Idx → EReal)
    (mask1 : (⟨2, ![2048, 8192]⟩ : Shape).Idx → EReal) : (⟨2, ![2048, 128]⟩ : Shape).Idx → EReal :=
  layer1 mask1 (layer2 mask2 features weight2) weight1

theorem G_ix2 (features : (⟨2, ![32768, 512]⟩ : Shape).Idx → EReal) (weight2 : (⟨2, ![256, 512]⟩ : Shape).Idx → EReal)
    (weight1 : (⟨2, ![128, 256]⟩ : Shape).Idx → EReal) (mask2 : (⟨2, ![8192, 32768]⟩ : Shape).Idx → EReal)
    (mask1 : (⟨2, ![2048, 8192]⟩ : Shape).Idx → EReal) (p : Fin 2048) (q : Fin 128) :
    G features weight2 weight1 mask2 mask1 (ix2 p q)
      = max (∑ l : Fin 256, (∑ j : Fin 8192, mask1 (ix2 p j) * layer2 mask2 features weight2 (ix2 j l)) * weight1 (ix2 q l)) 0 := rfl

end Cert.Spec

end
-- ==== Proof.LibTiles.lean ====
/-
  A running total taken tile by tile is the total.

  Let f be a function on the natural numbers with values in a commutative additive monoid (the extended reals are one),
  and B a tile width.  Start from 0 + (the sum of f over the first tile) and, tile after tile, add the sum of f over
  the next B arguments: after tile k the running total is the sum of f over the first (k + 1) · B naturals.  Only
  0 + x = x and the associativity of addition are used, so nothing needs to be finite.
  A function given on `Fin n` is carried to the naturals by extending it with zero; with (k + 1) · B = n the running
  total of the extension is the sum over `Fin n`, and the sum over `Fin (T · B)` is the double sum over tiles and
  places in a tile.  The two tilings used are spelt out: 32 tiles of width 1024 and 4 tiles of width 2048.
-/
import Idealize.ShloMosaic.PureOps.Ideal

noncomputable section

namespace Cert.Lib.Tiles

open scoped BigOperators

variable {M : Type*} [AddCommMonoid M]

/-- The running total after tile `k`: tile 0 is added to zero, every later tile to the total so far. -/
def runTot (f : ℕ → M) (B : ℕ) : ℕ → M
  | 0 => 0 + ∑ j : Fin B, f (0 * B + j.val)
  | k + 1 => runTot f B k + ∑ j : Fin B, f ((k + 1) * B + j.val)

theorem runTot_zero (f : ℕ → M) (B : ℕ) : runTot f B 0 = 0 + ∑ j : Fin B, f (0 * B + j.val) := rfl

theorem runTot_succ (f : ℕ → M) (B k : ℕ) :
    runTot f B (k + 1) = runTot f B k + ∑ j : Fin B, f ((k + 1) * B + j.val) := rfl

/-- After tile `k` the running total is the sum over the first `(k + 1) · B` naturals. -/
theorem runTot_eq (f : ℕ → M) (B : ℕ) : ∀ k : ℕ, runTot f B k = ∑ j ∈ Finset.range ((k + 1) * B), f j
  | 0 => by
    rw [runTot_zero, zero_add, Nat.zero_add, Nat.one_mul, Finset.sum_range]
    exact Finset.sum_congr rfl fun j _ => by rw [Nat.zero_mul, Nat.zero_add]
  | k + 1 => by
    rw [runTot_succ, runTot_eq f B k, Nat.succ_mul (k + 1) B, Finset.sum_range_add,
      Finset.sum_range (fun x => f ((k + 1) * B + x))]

/-- A function on `Fin n` extended by zero to all naturals. -/
def ext {n : ℕ} (g : Fin n → M) (j : ℕ) : M := if h : j < n then g ⟨j, h⟩ else 0

theorem ext_of_lt {n : ℕ} (g : Fin n → M) {j : ℕ} (h : j < n) : ext g j = g ⟨j, h⟩ := dif_pos h

/-- The sum over `Fin n` is the sum of the extension over the first `n` naturals. -/
theorem sum_ext {n : ℕ} (g : Fin n → M) : ∑ j ∈ Finset.range n, ext g j = ∑ j : Fin n, g j := by
  rw [Finset.sum_range]
  exact Finset.sum_congr rfl fun j _ => ext_of_lt g j.isLt

/-- With `(k + 1) · B = n`, the running total of the extension after tile `k` is the sum over `Fin n`. -/
theorem runTot_ext {n : ℕ} (g : Fin n → M) (B k : ℕ) (h : (k + 1) * B = n) :
    runTot (ext g) B k = ∑ j : Fin n, g j := by
  rw [runTot_eq, h, sum_ext]

/-- The sum of `f` over `T` consecutive tiles of width `B` is its sum over the first `T · B` naturals. -/
theorem sum_tiles (f : ℕ → M) (B : ℕ) :
    ∀ T : ℕ, ∑ s ∈ Finset.range T, ∑ k : Fin B, f (s * B + k.val) = ∑ j ∈ Finset.range (T * B), f j
  | 0 => by simp
  | T + 1 => by
    rw [Finset.sum_range_succ, sum_tiles f B T, Nat.succ_mul, Finset.sum_range_add,
      Finset.sum_range (fun x => f (T * B + x))]

/-- The sum over `Fin (T · B)` is the double sum over the tile and the place in the tile. -/
theorem sum_fin_tiles (T B : ℕ) (g : Fin (T * B) → M) :
    ∑ j : Fin (T * B), g j = ∑ s : Fin T, ∑ k : Fin B, ext g (s.val * B + k.val) := by
  rw [← sum_ext g, ← Finset.sum_range (fun s => ∑ k : Fin B, ext g (s * B + k.val))]
  exact (sum_tiles (ext g) B T).symm

/-- 32 tiles of width 1024: the running total after the last tile is the sum over all 32768 places. -/
theorem runTot_32x1024 (g : Fin 32768 → M) : runTot (ext g) 1024 31 = ∑ j : Fin 32768, g j :=
  runTot_ext g 1024 31 (by norm_num)

/-- 4 tiles of width 2048: the running total after the last tile is the sum over all 8192 places. -/
theorem runTot_4x2048 (g : Fin 8192 → M) : runTot (ext g) 2048 3 = ∑ j : Fin 8192, g j :=
  runTot_ext g 2048 3 (by norm_num)

/-- Place `j` of tile `s` among 32 tiles of width 1024, read from the extension. -/
theorem ext_32x1024 (g : Fin 32768 → M) (s : Fin 32) (j : Fin 1024) :
    ext g (s.val * 1024 + j.val) = g ⟨s.val * 1024 + j.val, by have := s.isLt; have := j.isLt; omega⟩ :=
  ext_of_lt g _

/-- Place `j` of tile `s` among 4 tiles of width 2048, read from the extension. -/
theorem ext_4x2048 (g : Fin 8192 → M) (s : Fin 4) (j : Fin 2048) :
    ext g (s.val * 2048 + j.val) = g ⟨s.val * 2048 + j.val, by have := s.isLt; have := j.isLt; omega⟩ :=
  ext_of_lt g _

end Cert.Lib.Tiles

end
-- ==== Proof.SpecTiles.lean ====
/-
  The specification's layers, read the way a tiled computation builds them.

  Entry (p, q) of a layer is max (∑ l, a(p, l) · w(q, l)) 0 with a(p, l) = ∑ j, m(p, j) · x(j, l).  A tiled
  computation does not form a(p, l) in one sum: it cuts the range of j into T consecutive tiles of width B, starts a
  running total at 0 + (tile 0's sum) and adds one tile's sum at a time.  After the last tile the running total is
  a(p, l), because a running total taken tile by tile is the total.  Here that is said for the two layers' tilings:
  32 tiles of width 1024 over the 32768 neighbours of the first layer, 4 tiles of width 2048 over the 8192 of the
  second; and one tile's sum is written out over the whole arrays' entries (place k of tile s is entry s · B + k).
-/
import proofs.«169439_j52218212385011_2_alg».proof.Proof.Spec
import proofs.«169439_j52218212385011_2_alg».proof.Proof.LibTiles

noncomputable section

namespace Cert.Spec

open Idealize.ShloMosaic Idealize.ShloMosaic.ValueIdx Cert.Lib.Tiles
open scoped BigOperators

/-! ### First layer: 32 tiles of width 1024 -/

/-- The products the first layer's inner sum adds, for row `p` and feature `l`. -/
def term2 (mask2 : (⟨2, ![8192, 32768]⟩ : Shape).Idx → EReal) (features : (⟨2, ![32768, 512]⟩ : Shape).Idx → EReal)
    (p : Fin 8192) (l : Fin 512) (j : Fin 32768) : EReal := mask2 (ix2 p j) * features (ix2 j l)

/-- The first layer's running total for row `p` and feature `l` after tile `s`. -/
def acc2 (mask2 : (⟨2, ![8192, 32768]⟩ : Shape).Idx → EReal) (features : (⟨2, ![32768, 512]⟩ : Shape).Idx → EReal)
    (p : Fin 8192) (l : Fin 512) (s : ℕ) : EReal := runTot (ext (term2 mask2 features p l)) 1024 s

/-- Tile `s` of the first layer's inner sum, over the whole arrays' entries. -/
def tile2 (mask2 : (⟨2, ![8192, 32768]⟩ : Shape).Idx → EReal) (features : (⟨2, ![32768, 512]⟩ : Shape).Idx → EReal)
    (p : Fin 8192) (l : Fin 512) (s : Fin 32) : EReal :=
  ∑ k : Fin 1024, mask2 (ix2 p ⟨s.val * 1024 + k.val, by have := s.isLt; have := k.isLt; omega⟩)
    * features (ix2 ⟨s.val * 1024 + k.val, by have := s.isLt; have := k.isLt; omega⟩ l)

theorem tile2_eq (mask2 : (⟨2, ![8192, 32768]⟩ : Shape).Idx → EReal) (features : (⟨2, ![32768, 512]⟩ : Shape).Idx → EReal)
    (p : Fin 8192) (l : Fin 512) (s : Fin 32) :
    ∑ k : Fin 1024, ext (term2 mask2 features p l) (s.val * 1024 + k.val) = tile2 mask2 features p l s :=
  Finset.sum_congr rfl fun k _ => ext_32x1024 (term2 mask2 features p l) s k

/-- The running total starts at zero plus tile 0. -/
theorem acc2_zero (mask2 : (⟨2, ![8192, 32768]⟩ : Shape).Idx → EReal) (features : (⟨2, ![32768, 512]⟩ : Shape).Idx → EReal)
    (p : Fin 8192) (l : Fin 512) : acc2 mask2 features p l 0 = 0 + tile2 mask2 features p l 0 := by
  unfold acc2
  rw [runTot_zero]
  exact congrArg (fun x => 0 + x) (tile2_eq mask2 features p l 0)

/-- Each later tile is added to the total so far. -/
theorem acc2_succ (mask2 : (⟨2, ![8192, 32768]⟩ : Shape).Idx → EReal) (features : (⟨2, ![32768, 512]⟩ : Shape).Idx → EReal)
    (p : Fin 8192) (l : Fin 512) (s : ℕ) (h : s + 1 < 32) :
    acc2 mask2 features p l (s + 1) = acc2 mask2 features p l s + tile2 mask2 features p l ⟨s + 1, h⟩ := by
  unfold acc2
  rw [runTot_succ]
  exact congrArg (fun x => runTot (ext (term2 mask2 features p l)) 1024 s + x) (tile2_eq mask2 features p l ⟨s + 1, h⟩)

/-- After the last tile the running total is the whole inner sum. -/
theorem acc2_last (mask2 : (⟨2, ![8192, 32768]⟩ : Shape).Idx → EReal) (features : (⟨2, ![32768, 512]⟩ : Shape).Idx → EReal)
    (p : Fin 8192) (l : Fin 512) :
    acc2 mask2 features p l 31 = ∑ j : Fin 32768, mask2 (ix2 p j) * features (ix2 j l) :=
  runTot_32x1024 (term2 mask2 features p l)

/-- The first layer from the running totals after the last tile. -/
theorem layer2At_acc (mask2 : (⟨2, ![8192, 32768]⟩ : Shape).Idx → EReal) (features : (⟨2, ![32768, 512]⟩ : Shape).Idx → EReal)
    (weight2 : (⟨2, ![256, 512]⟩ : Shape).Idx → EReal) (p : Fin 8192) (q : Fin 256) :
    max (∑ l : Fin 512, acc2 mask2 features p l 31 * weight2 (ix2 q l)) 0 = layer2At mask2 features weight2 p q := by
  unfold layer2At
  exact congrArg (fun x => max x 0) (Finset.sum_congr rfl fun l _ => by rw [acc2_last])

/-! ### Second layer: 4 tiles of width 2048 -/

/-- The products the second layer's inner sum adds, for row `p` and column `l` of the first layer's result `h`. -/
def term1 (mask1 : (⟨2, ![2048, 8192]⟩ : Shape).Idx → EReal) (h : (⟨2, ![8192, 256]⟩ : Shape).Idx → EReal)
    (p : Fin 2048) (l : Fin 256) (j : Fin 8192) : EReal := mask1 (ix2 p j) * h (ix2 j l)

/-- The second layer's running total for row `p` and column `l` after tile `s`. -/
def acc1 (mask1 : (⟨2, ![2048, 8192]⟩ : Shape).Idx → EReal) (h : (⟨2, ![8192, 256]⟩ : Shape).Idx → EReal)
    (p : Fin 2048) (l : Fin 256) (s : ℕ) : EReal := runTot (ext (term1 mask1 h p l)) 2048 s

/-- Tile `s` of the second layer's inner sum, over the whole arrays' entries. -/
def tile1 (mask1 : (⟨2, ![2048, 8192]⟩ : Shape).Idx → EReal) (h : (⟨2, ![8192, 256]⟩ : Shape).Idx → EReal)
    (p : Fin 2048) (l : Fin 256) (s : Fin 4) : EReal :=
  ∑ k : Fin 2048, mask1 (ix2 p ⟨s.val * 2048 + k.val, by have := s.isLt; have := k.isLt; omega⟩)
    * h (ix2 ⟨s.val * 2048 + k.val, by have := s.isLt; have := k.isLt; omega⟩ l)

theorem tile1_eq (mask1 : (⟨2, ![2048, 8192]⟩ : Shape).Idx → EReal) (h : (⟨2, ![8192, 256]⟩ : Shape).Idx → EReal)
    (p : Fin 2048) (l : Fin 256) (s : Fin 4) :
    ∑ k : Fin 2048, ext (term1 mask1 h p l) (s.val * 2048 + k.val) = tile1 mask1 h p l s :=
  Finset.sum_congr rfl fun k _ => ext_4x2048 (term1 mask1 h p l) s k

/-- The running total starts at zero plus tile 0. -/
theorem acc1_zero (mask1 : (⟨2, ![2048, 8192]⟩ : Shape).Idx → EReal) (h : (⟨2, ![8192, 256]⟩ : Shape).Idx → EReal)
    (p : Fin 2048) (l : Fin 256) : acc1 mask1 h p l 0 = 0 + tile1 mask1 h p l 0 := by
  unfold acc1
  rw [runTot_zero]
  exact congrArg (fun x => 0 + x) (tile1_eq mask1 h p l 0)

/-- Each later tile is added to the total so far. -/
theorem acc1_succ (mask1 : (⟨2, ![2048, 8192]⟩ : Shape).Idx → EReal) (h : (⟨2, ![8192, 256]⟩ : Shape).Idx → EReal)
    (p : Fin 2048) (l : Fin 256) (s : ℕ) (hs : s + 1 < 4) :
    acc1 mask1 h p l (s + 1) = acc1 mask1 h p l s + tile1 mask1 h p l ⟨s + 1, hs⟩ := by
  unfold acc1
  rw [runTot_succ]
  exact congrArg (fun x => runTot (ext (term1 mask1 h p l)) 2048 s + x) (tile1_eq mask1 h p l ⟨s + 1, hs⟩)

/-- After the last tile the running total is the whole inner sum. -/
theorem acc1_last (mask1 : (⟨2, ![2048, 8192]⟩ : Shape).Idx → EReal) (h : (⟨2, ![8192, 256]⟩ : Shape).Idx → EReal)
    (p : Fin 2048) (l : Fin 256) :
    acc1 mask1 h p l 3 = ∑ j : Fin 8192, mask1 (ix2 p j) * h (ix2 j l) :=
  runTot_4x2048 (term1 mask1 h p l)

/-- The second layer from the running totals after the last tile. -/
theorem layer1At_acc (mask1 : (⟨2, ![2048, 8192]⟩ : Shape).Idx → EReal) (h : (⟨2, ![8192, 256]⟩ : Shape).Idx → EReal)
    (weight1 : (⟨2, ![128, 256]⟩ : Shape).Idx → EReal) (p : Fin 2048) (q : Fin 128) :
    max (∑ l : Fin 256, acc1 mask1 h p l 3 * weight1 (ix2 q l)) 0 = layer1At mask1 h weight1 p q := by
  unfold layer1At
  exact congrArg (fun x => max x 0) (Finset.sum_congr rfl fun l _ => by rw [acc1_last])

end Cert.Spec

end
-- ==== Proof.FrI.Value0.lean ====
/-
  The first aggregation layer's output array is the specification's first layer.

  Point t of the 4 × 32 grid works on row block t / 32 and column tile t % 32: the mask tile it reads holds the mask's
  rows 2048 (t / 32) + r and columns 1024 (t % 32) + j, the feature tile the features' rows 1024 (t % 32) + j, the
  weight block the whole weight. On the extended reals the body adds, at row r and feature l, the tile's product
  ∑ j < 1024, mask(·, ·) · features(·, l) to zero at a first tile and to the running total otherwise; so, by induction
  on the point, the running total after point t is the specification's running total of array row 2048 (t / 32) + r
  after tile t % 32. At a last tile that is the whole inner sum over the 32768 neighbours, and the block the body
  stores, max (∑ l < 512, total(r, l) · weight(q, l)) 0, is the specification's first layer at that array row.
  The last tiles' points are the ones that write a block back, block t / 32 of the rows; they cover every row, so the
  array ends at the first layer everywhere. No sum is rearranged beyond "a running total taken tile by tile is the
  total", and nothing needs to be finite.
-/
import proofs.«169439_j52218212385011_2_alg».proof.Proof.FrI.Frame0
import proofs.«169439_j52218212385011_2_alg».proof.Proof.FrI.Pieces0
import proofs.«169439_j52218212385011_2_alg».proof.Proof.Pay0
import proofs.«169439_j52218212385011_2_alg».proof.Proof.SpecTiles
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-- The windows' block indices at point t: the row block is t / 32, the column tile t % 32. -/
theorem idx_facts0 : ∀ t : Fin cfg0.N,
    win0_0.index t (0 : Fin 2) = t.val / 32 ∧ win0_0.index t (1 : Fin 2) = t.val % 32
    ∧ win0_1.index t (0 : Fin 2) = t.val % 32 ∧ win0_1.index t (1 : Fin 2) = 0
    ∧ win0_2.index t (0 : Fin 2) = 0 ∧ win0_2.index t (1 : Fin 2) = 0
    ∧ win0_3.index t (0 : Fin 2) = t.val / 32 ∧ win0_3.index t (1 : Fin 2) = 0 :=
  (by decide +kernel : ∀ t : Fin grid0.N, _)

theorem lt128 (t : Fin cfg0.N) : t.val < 128 := lt_of_lt_of_eq t.isLt (show cfg0.N = 128 from N_0)

/-- The three argument arrays the first layer reads, as the region finds them. -/
abbrev A3 (c : Dev nD) : (⟨2, ![8192, 32768]⟩ : Shape).Idx → EReal := V c main_arg3
abbrev A0 (c : Dev nD) : (⟨2, ![32768, 512]⟩ : Shape).Idx → EReal := V c main_arg0
abbrev A1 (c : Dev nD) : (⟨2, ![256, 512]⟩ : Shape).Idx → EReal := V c main_arg1

/-- The blocks the body reads at point t: the mask tile, the feature tile, the weight. -/
abbrev mb (c : Dev nD) (t : Fin cfg0.N) : Vec Ideal S2048x1024 .f32 := blk0 V c 0 t
abbrev fb (c : Dev nD) (t : Fin cfg0.N) : Vec Ideal S1024x512 .f32 := blk0 V c 1 t
abbrev wb (c : Dev nD) (t : Fin cfg0.N) : Vec Ideal S256x512 .f32 := blk0 V c 2 t

/-- The mask tile at point t, entry (r, j): the mask at row 2048 (t / 32) + r, column 1024 (t % 32) + j. -/
theorem mb_apply (c : Dev nD) (t : Fin cfg0.N) (r : Fin 2048) (j : Fin 1024) (p : Fin 8192) (k : Fin 32768)
    (hp : p.val = (t.val / 32) * 2048 + r.val) (hk : k.val = (t.val % 32) * 1024 + j.val) :
    mb V c t (ix2 r j) = A3 V c (ix2 p k) := by
  obtain ⟨e0, e1, -⟩ := idx_facts0 t
  unfold mb blk0
  rw [View.read_apply]
  show V c main_arg3 (((cfg0.win 0).blk t).view.emb (ix2 r j)) = V c main_arg3 (ix2 p k)
  refine congrArg (V c main_arg3) ?_
  funext a; apply Fin.ext
  match a with
  | ⟨0, _⟩ => show win0_0.index t (0 : Fin 2) * 2048 + 1 * r.val = p.val; rw [e0, hp]; omega
  | ⟨1, _⟩ => show win0_0.index t (1 : Fin 2) * 1024 + 1 * j.val = k.val; rw [e1, hk]; omega

/-- The feature tile at point t, entry (j, l): the features at row 1024 (t % 32) + j, column l. -/
theorem fb_apply (c : Dev nD) (t : Fin cfg0.N) (j : Fin 1024) (l : Fin 512) (k : Fin 32768)
    (hk : k.val = (t.val % 32) * 1024 + j.val) :
    fb V c t (ix2 j l) = A0 V c (ix2 k l) := by
  obtain ⟨-, -, e0, e1, -⟩ := idx_facts0 t
  unfold fb blk0
  rw [View.read_apply]
  show V c main_arg0 (((cfg0.win 1).blk t).view.emb (ix2 j l)) = V c main_arg0 (ix2 k l)
  refine congrArg (V c main_arg0) ?_
  funext a; apply Fin.ext
  match a with
  | ⟨0, _⟩ => show win0_1.index t (0 : Fin 2) * 1024 + 1 * j.val = k.val; rw [e0, hk]; omega
  | ⟨1, _⟩ => show win0_1.index t (1 : Fin 2) * 512 + 1 * l.val = l.val; rw [e1]; omega

/-- The weight's block at every point is the whole weight. -/
theorem wb_apply (c : Dev nD) (t : Fin cfg0.N) (q : Fin 256) (l : Fin 512) :
    wb V c t (ix2 q l) = A1 V c (ix2 q l) := by
  obtain ⟨-, -, -, -, e0, e1, -⟩ := idx_facts0 t
  unfold wb blk0
  rw [View.read_apply]
  show V c main_arg1 (((cfg0.win 2).blk t).view.emb (ix2 q l)) = V c main_arg1 (ix2 q l)
  refine congrArg (V c main_arg1) ?_
  funext a; apply Fin.ext
  match a with
  | ⟨0, _⟩ => show win0_2.index t (0 : Fin 2) * 256 + 1 * q.val = q.val; rw [e0]; omega
  | ⟨1, _⟩ => show win0_2.index t (1 : Fin 2) * 512 + 1 * l.val = l.val; rw [e1]; omega

/-- One tile's product at point t is the specification's tile. -/
theorem tile_sum (c : Dev nD) (t : Fin cfg0.N) (r : Fin 2048) (l : Fin 512) (p : Fin 8192) (s : Fin 32)
    (hp : p.val = (t.val / 32) * 2048 + r.val) (hs : s.val = t.val % 32) :
    ∑ j : Fin 1024, mb V c t (ix2 r j) * fb V c t (ix2 j l) = Cert.Spec.tile2 (A3 V c) (A0 V c) p l s := by
  unfold Cert.Spec.tile2
  refine Finset.sum_congr rfl fun j _ => ?_
  rw [mb_apply V c t r j p ⟨s.val * 1024 + j.val, by have := s.isLt; have := j.isLt; omega⟩ hp (by show s.val * 1024 + j.val = t.val % 32 * 1024 + j.val; omega),
    fb_apply V c t j l ⟨s.val * 1024 + j.val, by have := s.isLt; have := j.isLt; omega⟩ (by show s.val * 1024 + j.val = t.val % 32 * 1024 + j.val; omega)]

/-! ### What the three kinds of step leave, as values -/

theorem accFirst0_eq (c : Dev nD) (t : Fin cfg0.N) (hc0 : isFirst0 (grid0.coords t)) (hc1 : ¬isLast0 (grid0.coords t))
    (x0 : Vec Ideal S2048x1024 .f32) (x1 : Vec Ideal S1024x512 .f32) (x2 : Vec Ideal S256x512 .f32) :
    accFirst0 (F := Ideal) c (grid0.coords t) (ms0_0 t) (hs0_0 t) (ms0_1 t) (hs0_1 t) (ms0_2 t) (hs0_2 t) (ms0_3 t) (hs0_3 t) acc0 (Memref.isWhole_whole _) hc0 hc1 x0 x1 x2 = k0_pay2 x0 x1 (k0_pay1 (F := Ideal)) :=
  first_total (F := Ideal) c (grid0.coords t) (ms0_0 t) (hs0_0 t) (ms0_1 t) (hs0_1 t) (ms0_2 t) (hs0_2 t) (ms0_3 t) (hs0_3 t) acc0 (Memref.isWhole_whole _) hc0 hc1 x0 x1 x2

theorem accMid0_eq (c : Dev nD) (t : Fin cfg0.N) (hc0 : ¬isFirst0 (grid0.coords t)) (hc1 : ¬isLast0 (grid0.coords t))
    (x0 : Vec Ideal S2048x1024 .f32) (x1 : Vec Ideal S1024x512 .f32) (x2 : Vec Ideal S256x512 .f32) (xs : Vec Ideal S2048x512 .f32) :
    accMid0 (F := Ideal) c (grid0.coords t) (ms0_0 t) (hs0_0 t) (ms0_1 t) (hs0_1 t) (ms0_2 t) (hs0_2 t) (ms0_3 t) (hs0_3 t) acc0 (Memref.isWhole_whole _) hc0 hc1 x0 x1 x2 xs = k0_pay2 x0 x1 xs :=
  mid_total (F := Ideal) c (grid0.coords t) (ms0_0 t) (hs0_0 t) (ms0_1 t) (hs0_1 t) (ms0_2 t) (hs0_2 t) (ms0_3 t) (hs0_3 t) acc0 (Memref.isWhole_whole _) hc0 hc1 x0 x1 x2 xs

theorem accLast0_eq (c : Dev nD) (t : Fin cfg0.N) (hc0 : ¬isFirst0 (grid0.coords t)) (hc1 : isLast0 (grid0.coords t))
    (x0 : Vec Ideal S2048x1024 .f32) (x1 : Vec Ideal S1024x512 .f32) (x2 : Vec Ideal S256x512 .f32) (xs : Vec Ideal S2048x512 .f32) :
    accLast0 (F := Ideal) c (grid0.coords t) (ms0_0 t) (hs0_0 t) (ms0_1 t) (hs0_1 t) (ms0_2 t) (hs0_2 t) (ms0_3 t) (hs0_3 t) acc0 (Memref.isWhole_whole _) hc0 hc1 x0 x1 x2 xs = k0_pay2 x0 x1 xs :=
  last_total (F := Ideal) c (grid0.coords t) (ms0_0 t) (hs0_0 t) (ms0_1 t) (hs0_1 t) (ms0_2 t) (hs0_2 t) (ms0_3 t) (hs0_3 t) acc0 (Memref.isWhole_whole _) hc0 hc1 x0 x1 x2 xs

theorem outLast0_eq (c : Dev nD) (t : Fin cfg0.N) (hc0 : ¬isFirst0 (grid0.coords t)) (hc1 : isLast0 (grid0.coords t))
    (x0 : Vec Ideal S2048x1024 .f32) (x1 : Vec Ideal S1024x512 .f32) (x2 : Vec Ideal S256x512 .f32) (xs : Vec Ideal S2048x512 .f32) :
    outLast0 (F := Ideal) c (grid0.coords t) (ms0_0 t) (hs0_0 t) (ms0_1 t) (hs0_1 t) (ms0_2 t) (hs0_2 t) (ms0_3 t) (hs0_3 t) acc0 (Memref.isWhole_whole _) hc0 hc1 x0 x1 x2 xs = k0_pay3 (k0_pay2 x0 x1 xs) x2 :=
  last_out (F := Ideal) c (grid0.coords t) (ms0_0 t) (hs0_0 t) (ms0_1 t) (hs0_1 t) (ms0_2 t) (hs0_2 t) (ms0_3 t) (hs0_3 t) acc0 (Memref.isWhole_whole _) hc0 hc1 x0 x1 x2 xs

/-- The running total after the body at t, given the total before it: the tile's product added to zero at a first
    tile, to the total before otherwise. -/
theorem step_total (c : Dev nD) (t : Fin cfg0.N) (prev : Vec Ideal S2048x512 .f32) (r : Fin 2048) (l : Fin 512) :
    (stepAt0 V c t prev).2 (ix2 r l)
      = (if t.val % 32 = 0 then 0 else prev (ix2 r l)) + ∑ j : Fin 1024, mb V c t (ix2 r j) * fb V c t (ix2 j l) := by
  by_cases h0 : t.val % 32 = 0
  · have h1 : ¬t.val % 32 = 31 := by omega
    rw [stepAt0_first V c t prev h0 h1, if_pos h0]
    dsimp only
    rw [accFirst0_eq c t _ _ (mb V c t) (fb V c t) (wb V c t)]
    rw [Pay.k0_pay2_apply (mb V c t) (fb V c t) (k0_pay1 (F := Ideal)) r l, Pay.k0_pay1_apply]
  · rw [if_neg h0]
    by_cases h1 : t.val % 32 = 31
    · rw [stepAt0_last V c t prev h0 h1]
      dsimp only
      rw [accLast0_eq c t _ _ (mb V c t) (fb V c t) (wb V c t) prev]
      rw [Pay.k0_pay2_apply (mb V c t) (fb V c t) prev r l]
    · rw [stepAt0_mid V c t prev h0 h1]
      dsimp only
      rw [accMid0_eq c t _ _ (mb V c t) (fb V c t) (wb V c t) prev]
      rw [Pay.k0_pay2_apply (mb V c t) (fb V c t) prev r l]

/-! ### The running total is the specification's, point by point -/

/-- After the body at position n the running total at row r, feature l is the specification's running total of array row
    2048 (n / 32) + r after tile n % 32. -/
theorem acc_inv (c : Dev nD) : ∀ (n : ℕ) (hn : n < cfg0.N) (p : Fin 8192) (r : Fin 2048) (l : Fin 512),
    p.val = (n / 32) * 2048 + r.val →
    (stateAt0 V c n hn).2 (ix2 r l) = Cert.Spec.acc2 (A3 V c) (A0 V c) p l (n % 32)
  | 0, hn, p, r, l, hp => by
    show (stepAt0 V c ⟨0, hn⟩ noAcc0).2 (ix2 r l) = _
    rw [step_total V c ⟨0, hn⟩ noAcc0 r l, if_pos (show (⟨0, hn⟩ : Fin cfg0.N).val % 32 = 0 from rfl), tile_sum V c ⟨0, hn⟩ r l p 0 hp rfl]
    exact (Cert.Spec.acc2_zero (A3 V c) (A0 V c) p l).symm
  | n + 1, hn, p, r, l, hp => by
    show (stepAt0 V c ⟨n + 1, hn⟩ (stateAt0 V c n (Nat.lt_of_succ_lt hn)).2).2 (ix2 r l) = _
    have hN : n + 1 < 128 := lt_of_lt_of_eq hn (show cfg0.N = 128 from N_0)
    rw [step_total V c ⟨n + 1, hn⟩ _ r l,
      tile_sum V c ⟨n + 1, hn⟩ r l p ⟨(n + 1) % 32, Nat.mod_lt _ (by decide)⟩ hp rfl]
    by_cases h0 : (n + 1) % 32 = 0
    · rw [if_pos h0]
      have e : Cert.Spec.acc2 (A3 V c) (A0 V c) p l ((n + 1) % 32) = 0 + Cert.Spec.tile2 (A3 V c) (A0 V c) p l 0 := by
        rw [h0]; exact Cert.Spec.acc2_zero (A3 V c) (A0 V c) p l
      rw [e]
      exact congrArg (fun s => 0 + Cert.Spec.tile2 (A3 V c) (A0 V c) p l s) (Fin.ext h0)
    · rw [if_neg h0]
      obtain ⟨s, hs⟩ : ∃ s, (n + 1) % 32 = s + 1 := ⟨(n + 1) % 32 - 1, by omega⟩
      have hs32 : s + 1 < 32 := by have := Nat.mod_lt (n + 1) (show 0 < 32 by decide); omega
      rw [acc_inv c n (Nat.lt_of_succ_lt hn) p r l (by show p.val = n / 32 * 2048 + r.val; rw [hp]; show (n + 1) / 32 * 2048 + r.val = n / 32 * 2048 + r.val; omega)]
      have e : Cert.Spec.acc2 (A3 V c) (A0 V c) p l ((n + 1) % 32)
          = Cert.Spec.acc2 (A3 V c) (A0 V c) p l s + Cert.Spec.tile2 (A3 V c) (A0 V c) p l ⟨s + 1, hs32⟩ := by
        rw [hs]; exact Cert.Spec.acc2_succ (A3 V c) (A0 V c) p l s hs32
      rw [e, show n % 32 = s from by omega]
      exact congrArg (fun s' => Cert.Spec.acc2 (A3 V c) (A0 V c) p l s + Cert.Spec.tile2 (A3 V c) (A0 V c) p l s') (Fin.ext hs)

/-- The output window's buffer after the body at a last tile: the projection of the new total against the weight, clamped. -/
theorem step_out (c : Dev nD) (t : Fin cfg0.N) (prev : Vec Ideal S2048x512 .f32) (h1 : t.val % 32 = 31) (r : Fin 2048) (q : Fin 256) :
    (stepAt0 V c t prev).1 (ix2 r q)
      = max (∑ l : Fin 512, (stepAt0 V c t prev).2 (ix2 r l) * A1 V c (ix2 q l)) 0 := by
  have h0 : ¬t.val % 32 = 0 := by omega
  rw [stepAt0_last V c t prev h0 h1]
  dsimp only
  rw [outLast0_eq c t _ _ (mb V c t) (fb V c t) (wb V c t) prev, accLast0_eq c t _ _ (mb V c t) (fb V c t) (wb V c t) prev]
  rw [Pay.k0_pay3_apply (k0_pay2 (mb V c t) (fb V c t) prev) (wb V c t) r q]
  refine congrArg (fun x => max x 0) (Finset.sum_congr rfl fun l _ => ?_)
  rw [wb_apply V c t q l]

/-- At a last tile the output window's buffer holds the specification's first layer on the row block's rows. -/
theorem out_last (c : Dev nD) (n : ℕ) (hn : n < cfg0.N) (h1 : n % 32 = 31) (p : Fin 8192) (r : Fin 2048) (q : Fin 256)
    (hp : p.val = (n / 32) * 2048 + r.val) :
    (stateAt0 V c n hn).1 (ix2 r q) = Cert.Spec.layer2At (A3 V c) (A0 V c) (A1 V c) p q := by
  cases n with
  | zero => exact absurd h1 (by decide)
  | succ n =>
    show (stepAt0 V c ⟨n + 1, hn⟩ (stateAt0 V c n (Nat.lt_of_succ_lt hn)).2).1 (ix2 r q) = _
    rw [step_out V c ⟨n + 1, hn⟩ _ h1 r q, ← Cert.Spec.layer2At_acc]
    refine congrArg (fun x => max x 0) (Finset.sum_congr rfl fun l _ => ?_)
    have e := acc_inv V c (n + 1) hn p r l hp
    rw [h1] at e
    exact congrArg (fun x => x * A1 V c (ix2 q l)) e

/-! ### The first layer's array after the region -/

/-- What a last tile's point writes back is its block of the specification's first layer. -/
theorem flushed_eq0 (c : Dev nD) (t : Fin cfg0.N) (hf : (cfg0.win 3).flush t = true) :
    (dat0 V c).flushed 3 t = ((cfg0.win 3).blk t).view.read (Elt Ideal) (Cert.Spec.layer2 (A3 V c) (A0 V c) (A1 V c)) := by
  have h1 : t.val % 32 = 31 := (flush0_3 t).mp hf
  obtain ⟨-, -, -, -, -, -, e0, e1⟩ := idx_facts0 t
  show (cfg0.win 3).cut (grid0.coords t) ((dat0 V c).after 3 t) = _
  rw [after0_3]
  funext y
  obtain ⟨r, q, rfl⟩ : ∃ (r : Fin 2048) (q : Fin 256), y = ix2 r q := ⟨y 0, y 1, eq_ix2 y⟩
  rw [View.read_apply]
  show (stateAt0 V c t.val t.isLt).1 (ix2 r q) = Cert.Spec.layer2 (A3 V c) (A0 V c) (A1 V c) (((cfg0.win 3).blk t).view.emb (ix2 r q))
  have hp : (t.val / 32) * 2048 + r.val < 8192 := by have := lt128 t; have := r.isLt; omega
  have hemb : ((cfg0.win 3).blk t).view.emb (ix2 r q) = ix2 (⟨(t.val / 32) * 2048 + r.val, hp⟩ : Fin 8192) q := by
    funext a; apply Fin.ext
    match a with
    | ⟨0, _⟩ => show win0_3.index t (0 : Fin 2) * 2048 + 1 * r.val = (t.val / 32) * 2048 + r.val; rw [e0]; omega
    | ⟨1, _⟩ => show win0_3.index t (1 : Fin 2) * 256 + 1 * q.val = q.val; rw [e1]; omega
  rw [hemb, Cert.Spec.layer2_ix2]
  exact out_last V c t.val t.isLt h1 ⟨(t.val / 32) * 2048 + r.val, hp⟩ r q rfl

/-- An index of the array is in point t's block iff each coordinate is in the block's range on its axis. -/
theorem mem_blk0_3 (t : Fin cfg0.N) (i : S8192x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v0).slice (win0_3.rect t)).set ↔ _
  rw [View.set_slice_whole, Rect.mem_set_unit]
  exact Iff.rfl

/-- Every entry of the array is in the block some last tile's point writes back: row p is in row block p / 2048. -/
theorem cover0_3 (i : S8192x256.Idx) : ∃ t : Fin cfg0.N, (cfg0.win 3).flush t = true ∧ i ∈ ((cfg0.win 3).blk t).view.set := by
  have hi0 : (i 0).val < 8192 := (i 0).isLt
  have hi1 : (i 1).val < 256 := (i 1).isLt
  have hN : cfg0.N = 128 := N_0
  refine ⟨⟨32 * ((i 0).val / 2048) + 31, by rw [hN]; omega⟩, (flush0_3 _).mpr (by show (32 * ((i 0).val / 2048) + 31) % 32 = 31; omega), ?_⟩
  obtain ⟨-, -, -, -, -, -, e0, e1⟩ := idx_facts0 ⟨32 * ((i 0).val / 2048) + 31, by rw [hN]; omega⟩
  rw [mem_blk0_3]
  intro a
  match a with
  | ⟨0, _⟩ =>
    show win0_3.index _ (0 : Fin 2) * 2048 ≤ (i 0).val ∧ (i 0).val < win0_3.index _ (0 : Fin 2) * 2048 + 2048
    rw [e0]; show (32 * ((i 0).val / 2048) + 31) / 32 * 2048 ≤ (i 0).val ∧ (i 0).val < (32 * ((i 0).val / 2048) + 31) / 32 * 2048 + 2048; omega
  | ⟨1, _⟩ =>
    show win0_3.index _ (1 : Fin 2) * 256 ≤ (i 1).val ∧ (i 1).val < win0_3.index _ (1 : Fin 2) * 256 + 256
    rw [e1]; omega

/-- After the first region its output array holds the specification's first layer of the mask, the features and the weight
    as the region found them. -/
theorem out0_eq (c : Dev nD) :
    (dat0 V c).arrAt 3 cfg0.N = Cert.Spec.layer2 (A3 V c) (A0 V c) (A1 V c) :=
  (dat0 V c).arrAt_eq_of_cover 3 (Cert.Spec.layer2 (A3 V c) (A0 V c) (A1 V c)) (fun t hf => flushed_eq0 V c t hf) cover0_3

end Cert.KernelIdeal.Fr

end
-- ==== Proof.FrI.Pieces1.lean ====
/-
  What each run of the second aggregation layer's body leaves, as one value.

  The body writes whole blocks only: the running total's buffer is stored through the rectangle that starts at (0, 0)
  and has the buffer's own extents, and so is the output window's buffer on the last tile. The last such store
  therefore decides the contents, and what it stores is a function of what the loads before it read:
    * at a first tile the total is first overwritten with the zero block, read back, and the tile's product of the mask
      tile and the hidden tile is added: the buffer ends at (zero block) + product;
    * at every other tile the buffer ends at (what it held) + product;
    * at a last tile, besides, the output window's buffer ends at the projection of that new total against the
      weight, clamped at zero.
  The loads read whole buffers, so each reads exactly the value the buffer was handed over at.
-/
import proofs.«169439_j52218212385011_2_alg».proof.Proof.FrI.Run1C
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Both offsets of a whole-block access are zero. -/
theorem hz2_1 : (![0, 0] : Fin 2 → Nat) = fun _ => 0 := funext fun a => by fin_cases a <;> rfl

/-- After a first tile the running total's buffer holds the tile's product added to the zero block. -/
theorem first_total1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : isFirst1 i) (hc1 : ¬isLast1 i)
    (x0 : Vec F S1024x2048 .f32) (x1 : Vec F S2048x256 .bf16) (x2 : Vec F S128x256 .f32) :
    accV1.read (Elt F) (accV1.writes (Elt F) accV1.junk (runFirst1 c i arg2 harg2 arg3 harg3 arg4 harg4 arg5 harg5 arg6 harg6 hc0 hc1 x0 x1 x2).2.1) = k1_pay2 x0 x1 k1_pay1 := by
  rw [View.read_writes_eq_canon _ _ _ (View.cover_of_tiledL (runFirst1 c i arg2 harg2 arg3 harg3 arg4 harg4 arg5 harg5 arg6 harg6 hc0 hc1 x0 x1 x2).2.1 S1024x256.size (by sl_kernel_rfl))]
  unfold runFirst1
  dsimp only
  sl_unfold_words
  rw [View.canon_cons_unit_zero (S := S1024x256) hz2_1]
  simp only [View.readAt_eq_ld, harg2.read_unread, harg3.read_unread, View.ld_unit_zero (S := S1024x2048) hz2_1, View.ld_unit_zero (S := S2048x256) hz2_1, View.readCov_unit_zero (S := S1024x256) _ hz2_1]

/-- After a middle tile it holds the tile's product added to what it held before. -/
theorem mid_total1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : ¬isFirst1 i) (hc1 : ¬isLast1 i)
    (x0 : Vec F S1024x2048 .f32) (x1 : Vec F S2048x256 .bf16) (x2 : Vec F S128x256 .f32) (xs : Vec F S1024x256 .f32) :
    accV1.read (Elt F) (accV1.writes (Elt F) accV1.junk (runMid1 c i arg2 harg2 arg3 harg3 arg4 harg4 arg5 harg5 arg6 harg6 hc0 hc1 x0 x1 x2 xs).2.1) = k1_pay2 x0 x1 xs := by
  rw [View.read_writes_eq_canon _ _ _ (View.cover_of_tiledL (runMid1 c i arg2 harg2 arg3 harg3 arg4 harg4 arg5 harg5 arg6 harg6 hc0 hc1 x0 x1 x2 xs).2.1 S1024x256.size (by sl_kernel_rfl))]
  unfold runMid1
  dsimp only
  rw [View.canon_unit_zero (S := S1024x256) hz2_1]
  simp only [View.readAt_eq_ld, harg2.read_unread, harg3.read_unread, harg6.read_unread, View.ld_unit_zero (S := S1024x2048) hz2_1, View.ld_unit_zero (S := S2048x256) hz2_1, View.ld_unit_zero (S := S1024x256) hz2_1]

/-- After a last tile likewise. -/
theorem last_total1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : ¬isFirst1 i) (hc1 : isLast1 i)
    (x0 : Vec F S1024x2048 .f32) (x1 : Vec F S2048x256 .bf16) (x2 : Vec F S128x256 .f32) (xs : Vec F S1024x256 .f32) :
    accV1.read (Elt F) (accV1.writes (Elt F) accV1.junk (runLast1 c i arg2 harg2 arg3 harg3 arg4 harg4 arg5 harg5 arg6 harg6 hc0 hc1 x0 x1 x2 xs).2.1) = k1_pay2 x0 x1 xs := by
  rw [View.read_writes_eq_canon _ _ _ (View.cover_of_tiledL (runLast1 c i arg2 harg2 arg3 harg3 arg4 harg4 arg5 harg5 arg6 harg6 hc0 hc1 x0 x1 x2 xs).2.1 S1024x256.size (by sl_kernel_rfl))]
  unfold runLast1
  dsimp only
  sl_unfold_words
  rw [View.canon_unit_zero (S := S1024x256) hz2_1]
  simp only [View.readAt_eq_ld, harg2.read_unread, harg3.read_unread, harg6.read_unread, View.ld_unit_zero (S := S1024x2048) hz2_1, View.ld_unit_zero (S := S2048x256) hz2_1, View.ld_unit_zero (S := S1024x256) hz2_1]

/-- And the output window's buffer holds the finished block: the projection of that total against the weight, clamped. -/
theorem last_out1 (c : Dev nD) (i : grid1.Coords) (arg2 : Memref sig .tc .vmem S1024x2048 .f32) (harg2 : arg2.IsWhole) (arg3 : Memref sig .tc .vmem S2048x256 .bf16) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .f32) (harg6 : arg6.IsWhole) (hc0 : ¬isFirst1 i) (hc1 : isLast1 i)
    (x0 : Vec F S1024x2048 .f32) (x1 : Vec F S2048x256 .bf16) (x2 : Vec F S128x256 .f32) (xs : Vec F S1024x256 .f32) :
    outV1.read (Elt F) (outV1.writes (Elt F) outV1.junk (runLast1 c i arg2 harg2 arg3 harg3 arg4 harg4 arg5 harg5 arg6 harg6 hc0 hc1 x0 x1 x2 xs).1) = k1_pay3 (k1_pay2 x0 x1 xs) x2 := by
  rw [View.read_writes_eq_canon _ _ _ (View.cover_of_tiledL (runLast1 c i arg2 harg2 arg3 harg3 arg4 harg4 arg5 harg5 arg6 harg6 hc0 hc1 x0 x1 x2 xs).1 S1024x128.size (by sl_kernel_rfl))]
  unfold runLast1
  dsimp only
  sl_unfold_words
  rw [View.canon_unit_zero (S := S1024x128) hz2_1]
  simp only [View.readAt_eq_ld, harg2.read_unread, harg3.read_unread, harg4.read_unread, harg6.read_unread, View.ld_unit_zero (S := S1024x2048) hz2_1, View.ld_unit_zero (S := S2048x256) hz2_1, View.ld_unit_zero (S := S1024x256) hz2_1, View.ld_unit_zero (S := S128x256) hz2_1, View.readCov_unit_zero (S := S1024x256) _ hz2_1]

end Cert.KernelIdeal.Fr

end
-- ==== Proof.Pay1.lean ====
/-
  The arithmetic of the second aggregation's three stored values, read entry by entry on the extended reals.

  The second kernel accumulates the product mask · hidden over column tiles of width 2048 in a scratch block of
  1024 rows and 256 lanes, the hidden tile arriving already in the 16-bit format, and on the last tile multiplies the
  accumulated block by the transposed weight matrix and clamps at zero:
    * the value stored on the first tile is the zero block:            entry (r, l) is 0;
    * the value stored on every tile is the old block plus one tile's product:
                                                                       entry (r, l) is acc(r, l) + ∑ j < 2048, m(r, j) · c(j, l);
    * the value stored on the last tile is the clamped projection:     entry (r, s) is max (∑ l < 256, acc(r, l) · w(s, l)) 0.
  On the extended reals the narrowing to the 16-bit format is the identity, a cast to the same shape is the identity,
  the zero word reads 0, and a matrix product into the zero block is the plain sum over the contracted coordinate.
  No finiteness is used.
-/
import proofs.«169439_j52218212385011_2_alg».proof.Proof.Gen.KernelIdeal.Skeleton
import proofs.«169439_j52218212385011_2_alg».proof.Proof.LibDense
import proofs.«169439_j52218212385011_2_alg».proof.Proof.LibDenseNT
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- The block stored on the first column tile is zero everywhere. -/
theorem k1_pay1_apply (r : Fin 1024) (l : Fin 256) : k1_pay1 (F := Ideal) (ix2 r l) = 0 := by
  unfold k1_pay1
  rw [shapeCast_self]
  exact Ideal.ofBits_zero_f32

/-- One accumulation step: the old entry plus row `r` of the mask tile against column `l` of the hidden tile. -/
theorem k1_pay2_apply (mb : Vec Ideal S1024x2048 .f32) (cb : Vec Ideal S2048x256 .bf16) (acc : Vec Ideal S1024x256 .f32)
    (r : Fin 1024) (l : Fin 256) :
    k1_pay2 mb cb acc (ix2 r l) = acc (ix2 r l) + ∑ j : Fin 2048, mb (ix2 r j) * cb (ix2 j l) := by
  unfold k1_pay2
  rw [shapeCast_self, shapeCast_self]
  refine congrArg (acc (ix2 r l) + ·) ?_
  exact Cert.Lib.Dense.matmul_zero_at dot_S1024x2048_S2048x256_S1024x256_1_0_0_1_n_n rfl rfl rfl rfl rfl rfl
    (truncf .bf16 mb bitsLt_bf16_f32) cb r l

/-- The projection: row `r` of the accumulated block against row `s` of the weight matrix, clamped at zero. -/
theorem k1_pay3_apply (acc : Vec Ideal S1024x256 .f32) (w : Vec Ideal S128x256 .f32) (r : Fin 1024) (s : Fin 128) :
    k1_pay3 acc w (ix2 r s) = max (∑ l : Fin 256, acc (ix2 r l) * w (ix2 s l)) 0 := by
  unfold k1_pay3
  refine (congrArg₂ max ?_ Ideal.ofBits_zero_f32 : max _ _ = max _ _)
  exact Cert.Lib.DenseNT.matmul_zero_at dot_S1024x256_S128x256_S1024x128_1_1_0_0_n_n rfl rfl rfl rfl rfl rfl none
    (truncf .bf16 acc bitsLt_bf16_f32) (truncf .bf16 w bitsLt_bf16_f32) r s

end Cert.KernelIdeal.Pay

end
-- ==== Proof.FrI.Value1.lean ====
/-
  The value of the second aggregation layer on the extended reals: after the region the output array holds
  relu((mask · hidden) · weightᵀ) of the mask, the first layer's array and the weight as the region found them.

  Point t = 4 i + k works on row block i (1024 rows) and column tile k (2048 columns). The mask tile it is handed is
  rows 1024 i … of the mask and columns 2048 k … ; the hidden tile is rows 2048 k … of the first layer's array; the
  weight's block is the whole weight. One accumulation step adds, at entry (r, l), the sum over the tile's 2048 places
  of mask(1024 i + r, j) · hidden(j, l); at k = 0 it is added to zero. So after tile k the total's buffer holds the
  running total of that row's products over tiles 0 … k, by induction on the point; after tile 3 it is the sum over
  all 8192 columns, because a running total taken tile by tile is the total. The last tile projects that total against
  the rows of the weight and clamps at zero, which is the layer's entry at (1024 i + r, s). The two last tiles' blocks,
  rows 0 … 1023 and 1024 … 2047, cover the output array, and each holds its block of the layer.
  Only 0 + x = x and the associativity and commutativity of addition are used: nothing is assumed finite.
-/
import proofs.«169439_j52218212385011_2_alg».proof.Proof.FrI.Frame1
import proofs.«169439_j52218212385011_2_alg».proof.Proof.FrI.Pieces1
import proofs.«169439_j52218212385011_2_alg».proof.Proof.Pay1
import proofs.«169439_j52218212385011_2_alg».proof.Proof.Spec
import proofs.«169439_j52218212385011_2_alg».proof.Proof.LibTiles
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Pay
open scoped BigOperators

variable (V : (c : Dev nD) → (b : Ref sig .tc) → Buf (Elt Ideal) ((c : Thread nD τ).loc b))

/-! ## Where the blocks sit -/

/-- The windows' block indices at point t: the row block is t / 4, the column tile t % 4. -/
theorem idx_facts1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

theorem lt8 (t : Fin cfg1.N) : t.val < 8 := lt_of_lt_of_eq t.isLt (show cfg1.N = 8 from N_1)

/-- Row r of the row block that point t works on, as a row of the whole mask. -/
def rowOf1 (t : Fin cfg1.N) (r : Fin 1024) : Fin 2048 :=
  ⟨(t.val / 4) * 1024 + r.val, by have := lt8 t; have := r.isLt; omega⟩

/-- Place j of the column tile that point t works on, as a column of the whole mask. -/
def colOf1 (t : Fin cfg1.N) (j : Fin 2048) : Fin 8192 :=
  ⟨(t.val % 4) * 2048 + j.val, by have := j.isLt; omega⟩

/-- The mask tile at point t, entry (r, j): the mask at row 1024 (t / 4) + r, column 2048 (t % 4) + j. -/
theorem blk1_0_apply (c : Dev nD) (t : Fin cfg1.N) (r : Fin 1024) (j : Fin 2048) :
    blk1 V c 0 t (ix2 r j) = V c main_arg4 (ix2 (rowOf1 t r) (colOf1 t j)) := by
  obtain ⟨e0, e1, -⟩ := idx_facts1 t
  unfold blk1
  rw [View.read_apply]
  show V c main_arg4 (((cfg1.win 0).blk t).view.emb (ix2 r j)) = _
  refine congrArg (V c main_arg4) ?_
  funext a; apply Fin.ext
  match a with
  | ⟨0, _⟩ => show win1_0.index t (0 : Fin 2) * 1024 + 1 * r.val = (t.val / 4) * 1024 + r.val; rw [e0]; omega
  | ⟨1, _⟩ => show win1_0.index t (1 : Fin 2) * 2048 + 1 * j.val = (t.val % 4) * 2048 + j.val; rw [e1]; omega

/-- The hidden tile at point t, entry (j, l): the first layer's array at row 2048 (t % 4) + j, column l. -/
theorem blk1_1_apply (c : Dev nD) (t : Fin cfg1.N) (j : Fin 2048) (l : Fin 256) :
    blk1 V c 1 t (ix2 j l) = V c main_v0 (ix2 (colOf1 t j) l) := by
  obtain ⟨-, -, e0, e1, -⟩ := idx_facts1 t
  unfold blk1
  rw [View.read_apply]
  show V c main_v0 (((cfg1.win 1).blk t).view.emb (ix2 j l)) = _
  refine congrArg (V c main_v0) ?_
  funext a; apply Fin.ext
  match a with
  | ⟨0, _⟩ => show win1_1.index t (0 : Fin 2) * 2048 + 1 * j.val = (t.val % 4) * 2048 + j.val; rw [e0]; omega
  | ⟨1, _⟩ => show win1_1.index t (1 : Fin 2) * 256 + 1 * l.val = l.val; rw [e1]; omega

/-- The weight's block at every point is the whole weight. -/
theorem blk1_2_apply (c : Dev nD) (t : Fin cfg1.N) (s : Fin 128) (l : Fin 256) :
    blk1 V c 2 t (ix2 s l) = V c main_arg2 (ix2 s l) := by
  obtain ⟨-, -, -, -, e0, e1, -⟩ := idx_facts1 t
  unfold blk1
  rw [View.read_apply]
  show V c main_arg2 (((cfg1.win 2).blk t).view.emb (ix2 s l)) = _
  refine congrArg (V c main_arg2) ?_
  funext a; apply Fin.ext
  match a with
  | ⟨0, _⟩ => show win1_2.index t (0 : Fin 2) * 128 + 1 * s.val = s.val; rw [e0]; omega
  | ⟨1, _⟩ => show win1_2.index t (1 : Fin 2) * 256 + 1 * l.val = l.val; rw [e1]; omega

/-! ## The running total -/

/-- The products that entry (p, l) of mask · hidden sums: mask(p, j) · hidden(j, l) over the 8192 columns j. -/
def prodAt1 (A : (⟨2, ![2048, 8192]⟩ : Shape).Idx → EReal) (H : (⟨2, ![8192, 256]⟩ : Shape).Idx → EReal)
    (p : Fin 2048) (l : Fin 256) : Fin 8192 → EReal :=
  fun j => A (ix2 p j) * H (ix2 j l)

/-- The same for the arrays as the region finds them on core c. -/
def rowProd1 (c : Dev nD) (p : Fin 2048) (l : Fin 256) : Fin 8192 → EReal :=
  prodAt1 (V c main_arg4) (V c main_v0) p l

/-- One tile's contribution: the tile's row of the mask against the tile's column of the hidden array is the sum of the
    whole row's products over the tile's 2048 places. -/
theorem tile_sum1 (c : Dev nD) (t : Fin cfg1.N) (r : Fin 1024) (l : Fin 256)
    (x0 : Vec Ideal S1024x2048 .f32) (x1 : Vec Ideal S2048x256 .bf16) (h0 : x0 = blk1 V c 0 t) (h1 : x1 = blk1 V c 1 t) :
    ∑ j : Fin 2048, x0 (ix2 r j) * x1 (ix2 j l)
      = ∑ j : Fin 2048, Cert.Lib.Tiles.ext (rowProd1 V c (rowOf1 t r) l) ((t.val % 4) * 2048 + j.val) := by
  subst h0 h1
  refine Finset.sum_congr rfl fun j _ => ?_
  rw [blk1_0_apply, blk1_1_apply, Cert.Lib.Tiles.ext_of_lt _ (show t.val % 4 * 2048 + j.val < 8192 from (colOf1 t j).isLt)]
  rfl

/-- The total after the body at t, entry (r, l), over the total xs before it: xs(r, l) plus the tile's contribution. -/
theorem step_val1 (c : Dev nD) (t : Fin cfg1.N) (xs : Vec Ideal S1024x256 .f32) (r : Fin 1024) (l : Fin 256) :
    k1_pay2 (blk1 V c 0 t) (blk1 V c 1 t) xs (ix2 r l)
      = xs (ix2 r l) + ∑ j : Fin 2048, Cert.Lib.Tiles.ext (rowProd1 V c (rowOf1 t r) l) ((t.val % 4) * 2048 + j.val) :=
  (k1_pay2_apply (blk1 V c 0 t) (blk1 V c 1 t) xs r l).trans
    (congrArg (xs (ix2 r l) + ·) (tile_sum1 V c t r l _ _ rfl rfl))

/-- Off the first tile the total after the body is the accumulation step applied to the total before. -/
theorem total_eq_pay1 (c : Dev nD) (t : Fin cfg1.N) (h0 : ¬t.val % 4 = 0) :
    (stateAt1 V c t.val t.isLt).2 = k1_pay2 (blk1 V c 0 t) (blk1 V c 1 t) (prevAcc1 V c t) := by
  by_cases h1 : t.val % 4 = 3
  · rw [stateAt1_last V c t h0 h1]; dsimp only; unfold accLast1; exact last_total1 ..
  · rw [stateAt1_mid V c t h0 h1]; dsimp only; unfold accMid1; exact mid_total1 ..

/-- At the first tile of a row block the total is zero plus the first tile's contribution. -/
theorem total_first1 (c : Dev nD) (t : Fin cfg1.N) (h0 : t.val % 4 = 0) (r : Fin 1024) (l : Fin 256) :
    (stateAt1 V c t.val t.isLt).2 (ix2 r l)
      = Cert.Lib.Tiles.runTot (Cert.Lib.Tiles.ext (rowProd1 V c (rowOf1 t r) l)) 2048 (t.val % 4) := by
  have h1 : ¬t.val % 4 = 3 := by omega
  have e : (stateAt1 V c t.val t.isLt).2 = k1_pay2 (blk1 V c 0 t) (blk1 V c 1 t) (k1_pay1 (F := Ideal)) := by
    rw [stateAt1_first V c t h0 h1]; dsimp only; unfold accFirst1; exact first_total1 ..
  rw [e, step_val1 V c t _ r l, k1_pay1_apply, h0]
  rfl

/-- At every other tile it is the total before plus this tile's contribution. -/
theorem total_step1 (c : Dev nD) (t : Fin cfg1.N) (h0 : ¬t.val % 4 = 0) (r : Fin 1024) (l : Fin 256) (k : ℕ) (hk : t.val % 4 = k + 1)
    (ih : prevAcc1 V c t (ix2 r l) = Cert.Lib.Tiles.runTot (Cert.Lib.Tiles.ext (rowProd1 V c (rowOf1 t r) l)) 2048 k) :
    (stateAt1 V c t.val t.isLt).2 (ix2 r l)
      = Cert.Lib.Tiles.runTot (Cert.Lib.Tiles.ext (rowProd1 V c (rowOf1 t r) l)) 2048 (t.val % 4) := by
  rw [total_eq_pay1 V c t h0, step_val1 V c t _ r l, ih, hk]
  rfl

/-- After the body at position n the total's buffer holds, at entry (r, l), the running total of row
    1024 (n / 4) + r of the mask against column l of the hidden array over the tiles 0 … n % 4. -/
theorem total1 (c : Dev nD) : ∀ (n : ℕ) (hn : n < cfg1.N) (r : Fin 1024) (l : Fin 256),
    (stateAt1 V c n hn).2 (ix2 r l)
      = Cert.Lib.Tiles.runTot (Cert.Lib.Tiles.ext (rowProd1 V c (rowOf1 ⟨n, hn⟩ r) l)) 2048 (n % 4)
  | 0, hn, r, l => total_first1 V c ⟨0, hn⟩ rfl r l
  | n + 1, hn, r, l => by
    by_cases h0 : (n + 1) % 4 = 0
    · exact total_first1 V c ⟨n + 1, hn⟩ h0 r l
    · refine total_step1 V c ⟨n + 1, hn⟩ h0 r l (n % 4) (by show (n + 1) % 4 = n % 4 + 1; omega) ?_
      show (stateAt1 V c n _).2 (ix2 r l) = _
      rw [total1 c n (Nat.lt_of_succ_lt hn) r l]
      have e1 : rowOf1 ⟨n, Nat.lt_of_succ_lt hn⟩ r = rowOf1 ⟨n + 1, hn⟩ r :=
        Fin.ext (by show n / 4 * 1024 + r.val = (n + 1) / 4 * 1024 + r.val; omega)
      rw [e1]

/-! ## The finished block -/

/-- At a last tile the output window's buffer holds, at entry (r, s), the second layer's entry at row
    1024 (t / 4) + r and column s: the full contraction of the mask's row against the hidden array, projected
    against row s of the weight and clamped at zero. -/
theorem out_last1 (c : Dev nD) (t : Fin cfg1.N) (h1 : t.val % 4 = 3) (r : Fin 1024) (s : Fin 128) :
    (stateAt1 V c t.val t.isLt).1 (ix2 r s)
      = Cert.Spec.layer1At (V c main_arg4) (V c main_v0) (V c main_arg2) (rowOf1 t r) s := by
  have h0 : ¬t.val % 4 = 0 := by omega
  have e1 : (stateAt1 V c t.val t.isLt).1
      = k1_pay3 (k1_pay2 (blk1 V c 0 t) (blk1 V c 1 t) (prevAcc1 V c t)) (blk1 V c 2 t) := by
    rw [stateAt1_last V c t h0 h1]; dsimp only; unfold outLast1; exact last_out1 ..
  rw [e1]
  refine (k1_pay3_apply _ (blk1 V c 2 t) r s).trans ?_
  unfold Cert.Spec.layer1At
  refine congrArg (max · 0) (Finset.sum_congr rfl fun l _ => ?_)
  rw [← total_eq_pay1 V c t h0, total1 V c t.val t.isLt r l, h1, blk1_2_apply, Cert.Lib.Tiles.runTot_4x2048]
  rfl

/-! ## The output array after the region -/

/-- What a last tile writes back is its block of the second layer applied to the arrays as found. -/
theorem flushed1_eq (c : Dev nD) (t : Fin cfg1.N) (hf : (cfg1.win 3).flush t = true) :
    (dat1 V c).flushed 3 t
      = ((cfg1.win 3).blk t).view.read (Elt Ideal) (Cert.Spec.layer1 (V c main_arg4) (V c main_v0) (V c main_arg2)) := by
  have h1 : t.val % 4 = 3 := (flush1_3 t).mp hf
  obtain ⟨-, -, -, -, -, -, e0, e1⟩ := idx_facts1 t
  show (cfg1.win 3).cut (grid1.coords t) ((dat1 V c).after 3 t) = _
  rw [after1_3]
  funext y
  obtain ⟨r, s, rfl⟩ : ∃ (r : Fin 1024) (s : Fin 128), y = ix2 r s := ⟨y 0, y 1, eq_ix2 y⟩
  rw [View.read_apply]
  show (stateAt1 V c t.val t.isLt).1 (ix2 r s)
    = Cert.Spec.layer1 (V c main_arg4) (V c main_v0) (V c main_arg2) (((cfg1.win 3).blk t).view.emb (ix2 r s))
  rw [out_last1 V c t h1 r s, ← Cert.Spec.layer1_ix2]
  refine congrArg (Cert.Spec.layer1 (V c main_arg4) (V c main_v0) (V c main_arg2)) ?_
  funext a; apply Fin.ext
  match a with
  | ⟨0, _⟩ => show (t.val / 4) * 1024 + r.val = win1_3.index t (0 : Fin 2) * 1024 + 1 * r.val; rw [e0]; omega
  | ⟨1, _⟩ => show s.val = win1_3.index t (1 : Fin 2) * 128 + 1 * s.val; rw [e1]; omega

/-- The two last tiles' blocks cover the output array, so after the region it holds the second layer applied to the
    mask, the first layer's array and the weight as the region found them. -/
theorem out1_eq (c : Dev nD) :
    (dat1 (F := Ideal) V c).arrAt 3 cfg1.N = Cert.Spec.layer1 (V c main_arg4) (V c main_v0) (V c main_arg2) :=
  (dat1 V c).arrAt_eq_of_cover 3 _ (flushed1_eq V c) fun i => by
    have hi0 : (i 0 : Nat) < 2048 := (i 0).isLt
    have hi1 : (i 1 : Nat) < 128 := (i 1).isLt
    by_cases hp : (i 0 : Nat) < 1024
    · refine ⟨t1_3, (flush1_3 t1_3).mpr rfl, ?_⟩
      show i ∈ ((View.whole main_v1).slice (win1_3.rect t1_3)).set
      rw [View.set_slice_whole, Rect.mem_set_unit]
      intro a
      match a with
      | ⟨0, _⟩ => show win1_3.index t1_3 0 * win1_3.size 0 ≤ (i 0 : Nat) ∧ (i 0 : Nat) < win1_3.index t1_3 0 * win1_3.size 0 + win1_3.xsize (grid1.coords t1_3) 0
                  rw [show win1_3.index t1_3 0 * win1_3.size 0 = 0 from by decide +kernel, show win1_3.xsize (grid1.coords t1_3) 0 = 1024 from by decide +kernel]; omega
      | ⟨1, _⟩ => show win1_3.index t1_3 1 * win1_3.size 1 ≤ (i 1 : Nat) ∧ (i 1 : Nat) < win1_3.index t1_3 1 * win1_3.size 1 + win1_3.xsize (grid1.coords t1_3) 1
                  rw [show win1_3.index t1_3 1 * win1_3.size 1 = 0 from by decide +kernel, show win1_3.xsize (grid1.coords t1_3) 1 = 128 from by decide +kernel]; omega
    · refine ⟨t1_7, (flush1_3 t1_7).mpr rfl, ?_⟩
      show i ∈ ((View.whole main_v1).slice (win1_3.rect t1_7)).set
      rw [View.set_slice_whole, Rect.mem_set_unit]
      intro a
      match a with
      | ⟨0, _⟩ => show win1_3.index t1_7 0 * win1_3.size 0 ≤ (i 0 : Nat) ∧ (i 0 : Nat) < win1_3.index t1_7 0 * win1_3.size 0 + win1_3.xsize (grid1.coords t1_7) 0
                  rw [show win1_3.index t1_7 0 * win1_3.size 0 = 1024 from by decide +kernel, show win1_3.xsize (grid1.coords t1_7) 0 = 1024 from by decide +kernel]; omega
      | ⟨1, _⟩ => show win1_3.index t1_7 1 * win1_3.size 1 ≤ (i 1 : Nat) ∧ (i 1 : Nat) < win1_3.index t1_7 1 * win1_3.size 1 + win1_3.xsize (grid1.coords t1_7) 1
                  rw [show win1_3.index t1_7 1 * win1_3.size 1 = 0 from by decide +kernel, show win1_3.xsize (grid1.coords t1_7) 1 = 128 from by decide +kernel]; omega

end Cert.KernelIdeal.Fr

end
-- ==== Proof.RefValue.lean ====
/-
  The reference computes the specification function.

  The reference is eight array operations: mask2 · features, the transpose of weight2, their product, the maximum with
  a zero array, and the same four again with mask1, the first layer's result and weight1.  Read at one entry (p, q):
  a product of two matrices is the sum over the contracted coordinate of the products of the entries, the transpose
  swaps the two coordinates, the zero array is 0 everywhere, and the maximum is taken entry by entry.  So the first
  four operations give, at (p, q),
      max (∑ l, (∑ j, mask2(p, j) · features(j, l)) · weight2(q, l)) 0,
  which is the specification's first layer, and the last four give the second layer applied to that array.  The only
  work is that the index each operation reads its operands at is the pair of coordinates the specification writes;
  every such equation holds coordinate by coordinate.  No sum is rearranged.
-/
import proofs.«169439_j52218212385011_2_alg».proof.Proof.Gen.ReferenceIdeal.Read
import proofs.«169439_j52218212385011_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo
open scoped BigOperators

/-- The first rectifier's zero array is 0 at every entry. -/
theorem zero0 (i : S8192x256.Idx) : val_main_call0_v0 (F := Ideal) i = 0 := by
  rw [val_main_call0_v0_apply, val_main_call0_cst_apply, Ideal.ofBits_def, Ideal.ofBits_zero_f32]

/-- The second rectifier's zero array is 0 at every entry. -/
theorem zero1 (i : S2048x128.Idx) : val_main_call1_v0 (F := Ideal) i = 0 := by
  rw [val_main_call1_v0_apply, val_main_call1_cst_apply, Ideal.ofBits_def, Ideal.ofBits_zero_f32]

/-! ### The indices the first layer's operations read at -/

theorem lidx_v0 (p : Fin 8192) (q : Fin 256) (l : Fin 512) (k : Fin 32768) :
    lidx_main_v0 (lidx_main_v2 (ix2 p q) l) k = ix2 p k := by
  funext a; match a with | ⟨0, _⟩ => rfl | ⟨1, _⟩ => rfl

theorem ridx_v0 (p : Fin 8192) (q : Fin 256) (l : Fin 512) (k : Fin 32768) :
    ridx_main_v0 (lidx_main_v2 (ix2 p q) l) k = ix2 k l := by
  funext a; match a with | ⟨0, _⟩ => rfl | ⟨1, _⟩ => rfl

theorem idx_v1 (p : Fin 8192) (q : Fin 256) (l : Fin 512) :
    idx_main_v1 (ridx_main_v2 (ix2 p q) l) = ix2 q l := by
  funext a; match a with | ⟨0, _⟩ => rfl | ⟨1, _⟩ => rfl

/-- The first layer's result at entry `(p, q)` is the specification's. -/
theorem v3_at (a0 : FVec Ideal S32768x512 .f32) (a1 : FVec Ideal S256x512 .f32) (a3 : FVec Ideal S8192x32768 .f32)
    (p : Fin 8192) (q : Fin 256) :
    val_main_v3 (F := Ideal) a0 a1 a3 (ix2 p q) = Cert.Spec.layer2At a3 a0 a1 p q := by
  rw [val_main_v3_apply, Ideal.maximumf_def, zero0, val_main_v2_apply]
  unfold Cert.Spec.layer2At
  refine congrArg (fun x => max x 0) (Finset.sum_congr rfl fun l _ => ?_)
  rw [val_main_v0_apply, val_main_v1_apply, idx_v1]
  refine congrArg (fun x => x * a1 (ix2 q l)) (Finset.sum_congr rfl fun k _ => ?_)
  rw [lidx_v0, ridx_v0]

/-- The first layer's result is the specification's first layer, as arrays. -/
theorem v3_eq (a0 : FVec Ideal S32768x512 .f32) (a1 : FVec Ideal S256x512 .f32) (a3 : FVec Ideal S8192x32768 .f32) :
    val_main_v3 (F := Ideal) a0 a1 a3 = Cert.Spec.layer2 a3 a0 a1 := by
  funext i
  obtain ⟨p, q, rfl⟩ : ∃ (p : Fin 8192) (q : Fin 256), i = ix2 p q := ⟨i 0, i 1, eq_ix2 i⟩
  exact v3_at a0 a1 a3 p q

/-! ### The indices the second layer's operations read at -/

theorem lidx_v4 (p : Fin 2048) (q : Fin 128) (l : Fin 256) (k : Fin 8192) :
    lidx_main_v4 (lidx_main_v6 (ix2 p q) l) k = ix2 p k := by
  funext a; match a with | ⟨0, _⟩ => rfl | ⟨1, _⟩ => rfl

theorem ridx_v4 (p : Fin 2048) (q : Fin 128) (l : Fin 256) (k : Fin 8192) :
    ridx_main_v4 (lidx_main_v6 (ix2 p q) l) k = ix2 k l := by
  funext a; match a with | ⟨0, _⟩ => rfl | ⟨1, _⟩ => rfl

theorem idx_v5 (p : Fin 2048) (q : Fin 128) (l : Fin 256) :
    idx_main_v5 (ridx_main_v6 (ix2 p q) l) = ix2 q l := by
  funext a; match a with | ⟨0, _⟩ => rfl | ⟨1, _⟩ => rfl

/-- The reference's result at entry `(p, q)` is the second layer applied to the first layer's result. -/
theorem v7_at (a0 : FVec Ideal S32768x512 .f32) (a1 : FVec Ideal S256x512 .f32) (a2 : FVec Ideal S128x256 .f32)
    (a3 : FVec Ideal S8192x32768 .f32) (a4 : FVec Ideal S2048x8192 .f32) (p : Fin 2048) (q : Fin 128) :
    val_main_v7 (F := Ideal) a0 a1 a2 a3 a4 (ix2 p q) = Cert.Spec.layer1At a4 (Cert.Spec.layer2 a3 a0 a1) a2 p q := by
  rw [val_main_v7_apply, Ideal.maximumf_def, zero1, val_main_v6_apply]
  unfold Cert.Spec.layer1At
  refine congrArg (fun x => max x 0) (Finset.sum_congr rfl fun l _ => ?_)
  rw [val_main_v4_apply, val_main_v5_apply, idx_v5, v3_eq]
  refine congrArg (fun x => x * a2 (ix2 q l)) (Finset.sum_congr rfl fun k _ => ?_)
  rw [lidx_v4, ridx_v4]

/-- The reference's result is the specification function of the five arguments. -/
theorem v7_eq (a0 : FVec Ideal S32768x512 .f32) (a1 : FVec Ideal S256x512 .f32) (a2 : FVec Ideal S128x256 .f32)
    (a3 : FVec Ideal S8192x32768 .f32) (a4 : FVec Ideal S2048x8192 .f32) :
    val_main_v7 (F := Ideal) a0 a1 a2 a3 a4 = Cert.Spec.G a0 a1 a2 a3 a4 := by
  funext i
  obtain ⟨p, q, rfl⟩ : ∃ (p : Fin 2048) (q : Fin 128), i = ix2 p q := ⟨i 0, i 1, eq_ix2 i⟩
  exact v7_at a0 a1 a2 a3 a4 p q

/-- The term the reference's run leaves in its result buffer, as a function of the five argument arrays, is the
    specification function. -/
theorem result_eq (a0 : FVec Ideal S32768x512 .f32) (a1 : FVec Ideal S256x512 .f32) (a2 : FVec Ideal S128x256 .f32)
    (a3 : FVec Ideal S8192x32768 .f32) (a4 : FVec Ideal S2048x8192 .f32) :
    maximumf (Host.dotGeneral dot_S2048x256_S256x128_S2048x128_1_0_0_1_n_n none (Host.dotGeneral dot_S2048x8192_S8192x256_S2048x256_1_0_0_1_n_n none (a4) (maximumf (Host.dotGeneral dot_S8192x512_S512x256_S8192x256_1_0_0_1_n_n none (Host.dotGeneral dot_S8192x32768_S32768x512_S8192x512_1_0_0_1_n_n none (a3) (a0)) (transpose S512x256 [1, 0] (a1) transposes_S256x512_S512x256_1_0)) (broadcastInDim S8192x256 ![] bcast_S_S8192x256 (constant S_ .f32 0x00000000#32)))) (transpose S256x128 [1, 0] (a2) transposes_S128x256_S256x128_1_0)) (broadcastInDim S2048x128 ![] bcast_S_S2048x128 (constant S_ .f32 0x00000000#32))
      = Cert.Spec.G a0 a1 a2 a3 a4 :=
  (val_main_v7_eq (F := Ideal) a0 a1 a2 a3 a4).trans (v7_eq a0 a1 a2 a3 a4)

end Cert.ReferenceIdeal.RefValue

end
-- ==== Proof.lean ====
/-
  Two graph-aggregation layers: combined2 = relu((mask2 . features) . weight2^T), out = relu((mask1 . combined2) . weight1^T).
  The kernel computes each layer in a pipeline of its own over row blocks, accumulating the first product tile by tile
  (32 tiles of 1024 columns, resp. 4 tiles of 2048) in a buffer it carries across grid points, cleared at a block's first
  tile, and at the last tile multiplies the total by the transposed weight, rectifies and writes the block out. On the
  extended reals the narrowing to bf16 is the identity, a matrix product into zero is the plain sum, and the running total
  over the tiles is the sum over all columns (a finite sum regrouped: only associativity and commutativity of +, and
  0 + x = x, are used, so the precondition is never opened). The reference computes the same two layers by whole products.
  Both programs' result is therefore the one function G of the five argument arrays.
  Frames: each layer's body is run once per case of the tile number (first, middle, last tile) and the two layers are chained
  as segments of the main function, at the word-level instance and at the exact one alike; the reference's frame is its run
  with the result dropped. The idealization rewrote nothing, so its conjunct is trivial.
-/
import proofs.«169439_j52218212385011_2_alg».proof.Defs
import proofs.«169439_j52218212385011_2_alg».proof.Proof.Gen.Kernel
import proofs.«169439_j52218212385011_2_alg».proof.Proof.Gen.KernelIdeal
import proofs.«169439_j52218212385011_2_alg».proof.Proof.Gen.ReferenceIdeal
import proofs.«169439_j52218212385011_2_alg».proof.Proof.Gen.Pre_finite_inputs
import proofs.«169439_j52218212385011_2_alg».proof.Proof.FrB.Final
import proofs.«169439_j52218212385011_2_alg».proof.Proof.FrI.Final
import proofs.«169439_j52218212385011_2_alg».proof.Proof.FrI.Value0
import proofs.«169439_j52218212385011_2_alg».proof.Proof.FrI.Value1
import proofs.«169439_j52218212385011_2_alg».proof.Proof.RefValue

noncomputable section

namespace Cert.Proof

open Idealize.ShloMosaic Idealize.ShloMosaic.TcCoe Idealize.SL.Sem

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-- The kernel's result array is G of the launch arguments: the second layer of what it finds, which is the first layer's
    array beside mask1 and weight1 as launched. -/
theorem result_G (m : (ℓ : Loc Cert.KernelIdeal.nD Cert.KernelIdeal.τ Cert.KernelIdeal.sig) → Buf (Elt Ideal) ℓ) (c : Dev Cert.KernelIdeal.nD) :
    (Cert.KernelIdeal.Fr.dat1 (F := Ideal) (Cert.KernelIdeal.Fr.Vr1 m) c).arrAt 3 Cert.KernelIdeal.cfg1.N
      = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  refine (Cert.KernelIdeal.Fr.out1_eq (Cert.KernelIdeal.Fr.Vr1 m) c).trans ?_
  have e4 := Cert.KernelIdeal.Fr.Vr1_main_arg4 m c
  have e2 := Cert.KernelIdeal.Fr.Vr1_main_arg2 m c
  have ev := (Cert.KernelIdeal.Fr.Vr1_main_v0 m c).trans (Cert.KernelIdeal.Fr.out0_eq (Cert.KernelIdeal.Fr.Vr0 m) c)
  rw [e4, e2, ev]
  rfl

theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun r h c => ⟨(h c).1.trans (result_G m c), (h c).2⟩)
      (Cert.KernelIdeal.Fr.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.RefValue.result_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
